-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1x1024x1024 : Shape := ⟨4, ![8, 1, 1024, 1024]⟩
abbrev S_ : Shape := ⟨0, ![]⟩

class Facts : Prop where
  bcast_S_S8x1x1024x1024 : S_.BroadcastsInDim S8x1x1024x1024 (![] : Fin 0 → Fin S8x1x1024x1024.rank)
  reducesTo_S8x1x1024x1024_S_d0_1_2_3 : S8x1x1024x1024.ReducesTo [0, 1, 2, 3] S_
  h_S_ : 0 < S_.numel

variable [Facts]

def fn {F : FTy → Type} [FloatOps F] (main_arg0 : FVec F S8x1x1024x1024 .f32) : IVec S_ 1 :=
  let main_v0 : FVec F S8x1x1024x1024 .f32 := Host.absf main_arg0
  let main_cst : FVec F S_ .f32 := constant S_ .f32 0x7F800000#32
  let main_v1 : FVec F S8x1x1024x1024 .f32 := broadcastInDim S8x1x1024x1024 ![] bcast_S_S8x1x1024x1024 main_cst
  let main_v2 : IVec S8x1x1024x1024 1 := cmpf .olt main_v0 main_v1
  let main_c : IVec S_ 1 := constantI S_ 1 1#1
  let main_v3 : IVec S_ 1 := (fun x v => Host.reduce IntOp.andi x v reducesTo_S8x1x1024x1024_S_d0_1_2_3 h_S_) main_v2 main_c
  main_v3
-- ==== Kernel.lean ====
abbrev S8x1x1024x1024 : Shape := ⟨4, ![8, 1, 1024, 1024]⟩
abbrev S_ : Shape := ⟨0, ![]⟩
abbrev S8x1x1080x1074 : Shape := ⟨4, ![8, 1, 1080, 1074]⟩
abbrev S1x1x1080x1074 : Shape := ⟨4, ![1, 1, 1080, 1074]⟩
abbrev S1x1x1024x1024 : Shape := ⟨4, ![1, 1, 1024, 1024]⟩
abbrev S1080x1024 : Shape := ⟨2, ![1080, 1024]⟩
abbrev S1x1x120x1074 : Shape := ⟨4, ![1, 1, 120, 1074]⟩
abbrev S120x1074 : Shape := ⟨2, ![120, 1074]⟩
abbrev S120x1024 : Shape := ⟨2, ![120, 1024]⟩
abbrev S184x1024 : Shape := ⟨2, ![184, 1024]⟩
abbrev S128x1024 : Shape := ⟨2, ![128, 1024]⟩
abbrev S1x1x160x1074 : Shape := ⟨4, ![1, 1, 160, 1074]⟩
abbrev S160x1074 : Shape := ⟨2, ![160, 1074]⟩
abbrev S1x1x128x1024 : Shape := ⟨4, ![1, 1, 128, 1024]⟩
abbrev S8388608 : Shape := ⟨1, ![8388608]⟩
abbrev S4096 : Shape := ⟨1, ![4096]⟩
abbrev S8388608x1 : Shape := ⟨2, ![8388608, 1]⟩
abbrev S4096x1 : Shape := ⟨2, ![4096, 1]⟩
abbrev S4096x4 : Shape := ⟨2, ![4096, 4]⟩

abbrev nBuf : Space → Nat
  | .hbm => 216
  | .vmem => 5
  | .smem => 0
  | _ => 0

abbrev hbmTy0_0 (i : Nat) : BufTy := match i % 128 with
  | 0 => ⟨S8x1x1024x1024, .f32⟩
  | 1 => ⟨S_, .f32⟩
  | 2 => ⟨S_, .f32⟩
  | 3 => ⟨S8x1x1080x1074, .f32⟩
  | 4 => ⟨S8x1x1024x1024, .f32⟩
  | 5 => ⟨S_, .f32⟩
  | 6 => ⟨S8x1x1024x1024, .f32⟩
  | 7 => ⟨S8x1x1024x1024, .i1⟩
  | 8 => ⟨S8388608, .i1⟩
  | 9 => ⟨S8388608, .i32⟩
  | 10 => ⟨S_, .i32⟩
  | 11 => ⟨S_, .i32⟩
  | 12 => ⟨S8388608, .i32⟩
  | 13 => ⟨S_, .i32⟩
  | 14 => ⟨S4096, .i32⟩
  | 15 => ⟨S_, .i32⟩
  | 16 => ⟨S_, .i32⟩
  | 17 => ⟨S8388608, .i32⟩
  | 18 => ⟨S8388608, .i32⟩
  | 19 => ⟨S_, .i32⟩
  | 20 => ⟨S8388608, .i32⟩
  | 21 => ⟨S8388608, .i1⟩
  | 22 => ⟨S_, .i32⟩
  | 23 => ⟨S8388608, .i32⟩
  | 24 => ⟨S8388608, .i32⟩
  | 25 => ⟨S8388608, .i32⟩
  | 26 => ⟨S8388608x1, .i32⟩
  | 27 => ⟨S_, .i32⟩
  | 28 => ⟨S8388608, .i32⟩
  | 29 => ⟨S4096, .i32⟩
  | 30 => ⟨S_, .i32⟩
  | 31 => ⟨S_, .i32⟩
  | 32 => ⟨S4096, .i32⟩
  | 33 => ⟨S_, .i32⟩
  | 34 => ⟨S4096, .i32⟩
  | 35 => ⟨S4096, .i32⟩
  | 36 => ⟨S4096, .i32⟩
  | 37 => ⟨S_, .i32⟩
  | 38 => ⟨S4096, .i32⟩
  | 39 => ⟨S4096, .i1⟩
  | 40 => ⟨S4096, .i32⟩
  | 41 => ⟨S4096, .i32⟩
  | 42 => ⟨S_, .i32⟩
  | 43 => ⟨S4096, .i32⟩
  | 44 => ⟨S4096, .i1⟩
  | 45 => ⟨S4096, .i1⟩
  | 46 => ⟨S_, .i32⟩
  | 47 => ⟨S4096, .i32⟩
  | 48 => ⟨S4096, .i32⟩
  | 49 => ⟨S4096, .i32⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S4096, .i32⟩
  | 57 => ⟨S4096, .i32⟩
  | 58 => ⟨S_, .i32⟩
  | 59 => ⟨S4096, .i32⟩
  | 60 => ⟨S4096, .i1⟩
  | 61 => ⟨S_, .i32⟩
  | 62 => ⟨S4096, .i32⟩
  | 63 => ⟨S4096, .i1⟩
  | 64 => ⟨S_, .i32⟩
  | 65 => ⟨S_, .i1⟩
  | 66 => ⟨S4096, .i1⟩
  | 67 => ⟨S4096, .i1⟩
  | 68 => ⟨S4096, .i1⟩
  | 69 => ⟨S4096, .i32⟩
  | 70 => ⟨S4096, .i32⟩
  | 71 => ⟨S4096, .i32⟩
  | 72 => ⟨S_, .i32⟩
  | 73 => ⟨S4096, .i32⟩
  | 74 => ⟨S4096, .i32⟩
  | 75 => ⟨S4096, .i32⟩
  | 76 => ⟨S_, .i32⟩
  | 77 => ⟨S4096, .i32⟩
  | 78 => ⟨S4096, .i1⟩
  | 79 => ⟨S4096, .i32⟩
  | 80 => ⟨S4096, .i32⟩
  | 81 => ⟨S_, .i32⟩
  | 82 => ⟨S4096, .i32⟩
  | 83 => ⟨S4096, .i1⟩
  | 84 => ⟨S4096, .i1⟩
  | 85 => ⟨S_, .i32⟩
  | 86 => ⟨S4096, .i32⟩
  | 87 => ⟨S4096, .i32⟩
  | 88 => ⟨S4096, .i32⟩
  | 89 => ⟨S_, .i32⟩
  | 90 => ⟨S_, .i32⟩
  | 91 => ⟨S_, .i32⟩
  | 92 => ⟨S_, .i1⟩
  | 93 => ⟨S_, .i32⟩
  | 94 => ⟨S_, .i32⟩
  | 95 => ⟨S4096, .i32⟩
  | 96 => ⟨S4096, .i32⟩
  | 97 => ⟨S_, .i32⟩
  | 98 => ⟨S4096, .i32⟩
  | 99 => ⟨S4096, .i1⟩
  | 100 => ⟨S_, .i32⟩
  | 101 => ⟨S4096, .i32⟩
  | 102 => ⟨S4096, .i1⟩
  | 103 => ⟨S_, .i32⟩
  | 104 => ⟨S_, .i1⟩
  | 105 => ⟨S4096, .i1⟩
  | 106 => ⟨S4096, .i1⟩
  | 107 => ⟨S4096, .i1⟩
  | 108 => ⟨S4096, .i32⟩
  | 109 => ⟨S4096, .i32⟩
  | 110 => ⟨S4096, .i32⟩
  | 111 => ⟨S_, .i32⟩
  | 112 => ⟨S4096, .i32⟩
  | 113 => ⟨S4096, .i32⟩
  | 114 => ⟨S4096, .i32⟩
  | 115 => ⟨S_, .i32⟩
  | 116 => ⟨S4096, .i32⟩
  | 117 => ⟨S4096, .i1⟩
  | 118 => ⟨S4096, .i32⟩
  | 119 => ⟨S4096, .i32⟩
  | 120 => ⟨S_, .i32⟩
  | 121 => ⟨S4096, .i32⟩
  | 122 => ⟨S4096, .i1⟩
  | 123 => ⟨S4096, .i1⟩
  | 124 => ⟨S_, .i32⟩
  | 125 => ⟨S4096, .i32⟩
  | 126 => ⟨S4096, .i32⟩
  | 127 => ⟨S4096, .i32⟩
  | _ => ⟨S8x1x1024x1024, .f32⟩

abbrev hbmTy0_1 (i : Nat) : BufTy := match i % 128 with
  | 0 => ⟨S_, .i32⟩
  | 1 => ⟨S_, .i32⟩
  | 2 => ⟨S_, .i32⟩
  | 3 => ⟨S_, .i1⟩
  | 4 => ⟨S_, .i32⟩
  | 5 => ⟨S_, .i32⟩
  | 6 => ⟨S4096, .i32⟩
  | 7 => ⟨S4096, .i32⟩
  | 8 => ⟨S_, .i32⟩
  | 9 => ⟨S4096, .i32⟩
  | 10 => ⟨S4096, .i1⟩
  | 11 => ⟨S_, .i32⟩
  | 12 => ⟨S4096, .i32⟩
  | 13 => ⟨S4096, .i1⟩
  | 14 => ⟨S_, .i32⟩
  | 15 => ⟨S_, .i1⟩
  | 16 => ⟨S4096, .i1⟩
  | 17 => ⟨S4096, .i1⟩
  | 18 => ⟨S4096, .i1⟩
  | 19 => ⟨S4096, .i32⟩
  | 20 => ⟨S4096, .i32⟩
  | 21 => ⟨S4096, .i32⟩
  | 22 => ⟨S_, .i32⟩
  | 23 => ⟨S4096, .i32⟩
  | 24 => ⟨S4096, .i32⟩
  | 25 => ⟨S4096, .i32⟩
  | 26 => ⟨S_, .i32⟩
  | 27 => ⟨S4096, .i32⟩
  | 28 => ⟨S4096, .i1⟩
  | 29 => ⟨S4096, .i32⟩
  | 30 => ⟨S4096, .i32⟩
  | 31 => ⟨S_, .i32⟩
  | 32 => ⟨S4096, .i32⟩
  | 33 => ⟨S4096, .i1⟩
  | 34 => ⟨S4096, .i1⟩
  | 35 => ⟨S_, .i32⟩
  | 36 => ⟨S4096, .i32⟩
  | 37 => ⟨S4096, .i32⟩
  | 38 => ⟨S4096, .i32⟩
  | 39 => ⟨S_, .i32⟩
  | 40 => ⟨S_, .i32⟩
  | 41 => ⟨S_, .i32⟩
  | 42 => ⟨S_, .i1⟩
  | 43 => ⟨S_, .i32⟩
  | 44 => ⟨S_, .i32⟩
  | 45 => ⟨S4096, .i32⟩
  | 46 => ⟨S4096, .i32⟩
  | 47 => ⟨S_, .i32⟩
  | 48 => ⟨S4096, .i32⟩
  | 49 => ⟨S4096, .i1⟩
  | 50 => ⟨S_, .i32⟩
  | 51 => ⟨S4096, .i32⟩
  | 52 => ⟨S4096, .i1⟩
  | 53 => ⟨S_, .i32⟩
  | 54 => ⟨S_, .i1⟩
  | 55 => ⟨S4096, .i1⟩
  | 56 => ⟨S4096, .i1⟩
  | 57 => ⟨S4096, .i1⟩
  | 58 => ⟨S4096, .i32⟩
  | 59 => ⟨S4096, .i32⟩
  | 60 => ⟨S4096, .i32⟩
  | 61 => ⟨S4096, .i32⟩
  | 62 => ⟨S8x1x1024x1024, .i32⟩
  | 63 => ⟨S_, .i32⟩
  | 64 => ⟨S_, .i32⟩
  | 65 => ⟨S4096, .i32⟩
  | 66 => ⟨S4096, .i1⟩
  | 67 => ⟨S_, .i32⟩
  | 68 => ⟨S_, .i32⟩
  | 69 => ⟨S4096, .i32⟩
  | 70 => ⟨S4096, .i32⟩
  | 71 => ⟨S_, .i32⟩
  | 72 => ⟨S_, .i32⟩
  | 73 => ⟨S4096, .i32⟩
  | 74 => ⟨S4096, .i32⟩
  | 75 => ⟨S_, .i32⟩
  | 76 => ⟨S_, .i32⟩
  | 77 => ⟨S4096, .i32⟩
  | 78 => ⟨S4096, .i32⟩
  | 79 => ⟨S_, .i32⟩
  | 80 => ⟨S_, .i32⟩
  | 81 => ⟨S4096, .i32⟩
  | 82 => ⟨S4096, .i32⟩
  | 83 => ⟨S4096x1, .i32⟩
  | 84 => ⟨S4096x1, .i32⟩
  | 85 => ⟨S4096x1, .i32⟩
  | 86 => ⟨S4096x1, .i32⟩
  | 87 => ⟨S4096x4, .i32⟩
  | _ => ⟨S8x1x1024x1024, .f32⟩

abbrev hbmTy (i : Nat) : BufTy := match i / 128 with
  | 0 => hbmTy0_0 i
  | 1 => hbmTy0_1 i
  | _ => ⟨S8x1x1024x1024, .f32⟩

abbrev bufTy : (tb : Table) → Fin (tcTables nBuf tb) → BufTy
  | .hbm, ⟨i, _⟩ => hbmTy i
  | .local _ .vmem, ⟨0, _⟩ => ⟨S1x1x1080x1074, .f32⟩
  | .local _ .vmem, ⟨1, _⟩ => ⟨S1x1x1080x1074, .f32⟩
  | .local _ .vmem, ⟨2, _⟩ => ⟨S1x1x1024x1024, .f32⟩
  | .local _ .vmem, ⟨3, _⟩ => ⟨S1x1x1024x1024, .f32⟩
  | .local _ .vmem, ⟨4, _⟩ => ⟨S1080x1024, .f32⟩
  | _, _ => ⟨S8x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_call1_v0 : Ref sig .tc := ⟨.hbm, 8, rfl⟩
abbrev main_call1_v1 : Ref sig .tc := ⟨.hbm, 9, rfl⟩
abbrev main_call1_call0_c : Ref sig .tc := ⟨.hbm, 10, rfl⟩
abbrev main_call1_call0_v0 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_c_1 : Ref sig .tc := ⟨.hbm, 15, rfl⟩
abbrev main_call2_v0 : Ref sig .tc := ⟨.hbm, 16, rfl⟩
abbrev main_call2_v1 : Ref sig .tc := ⟨.hbm, 17, rfl⟩
abbrev main_v6 : Ref sig .tc := ⟨.hbm, 18, rfl⟩
abbrev main_c_2 : Ref sig .tc := ⟨.hbm, 19, rfl⟩
abbrev main_v7 : Ref sig .tc := ⟨.hbm, 20, rfl⟩
abbrev main_v8 : Ref sig .tc := ⟨.hbm, 21, rfl⟩
abbrev main_c_3 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c_4 : Ref sig .tc := ⟨.hbm, 27, rfl⟩
abbrev main_v13 : Ref sig .tc := ⟨.hbm, 28, rfl⟩
abbrev main_v14 : Ref sig .tc := ⟨.hbm, 29, rfl⟩
abbrev main_call3_call0_c : Ref sig .tc := ⟨.hbm, 30, rfl⟩
abbrev main_call3_call0_v0 : Ref sig .tc := ⟨.hbm, 31, rfl⟩
abbrev main_v15 : Ref sig .tc := ⟨.hbm, 32, rfl⟩
abbrev main_c_5 : Ref sig .tc := ⟨.hbm, 33, rfl⟩
abbrev main_call4_v0 : Ref sig .tc := ⟨.hbm, 34, rfl⟩
abbrev main_call4_v1 : Ref sig .tc := ⟨.hbm, 35, rfl⟩
abbrev main_call4_v2 : Ref sig .tc := ⟨.hbm, 36, rfl⟩
abbrev main_call4_v3 : Ref sig .tc := ⟨.hbm, 37, rfl⟩
abbrev main_call4_v4 : Ref sig .tc := ⟨.hbm, 38, rfl⟩
abbrev main_call4_v5 : Ref sig .tc := ⟨.hbm, 39, rfl⟩
abbrev main_call4_v6 : Ref sig .tc := ⟨.hbm, 40, rfl⟩
abbrev main_call4_v7 : Ref sig .tc := ⟨.hbm, 41, rfl⟩
abbrev main_call4_c : Ref sig .tc := ⟨.hbm, 42, rfl⟩
abbrev main_call4_v8 : Ref sig .tc := ⟨.hbm, 43, rfl⟩
abbrev main_call4_v9 : Ref sig .tc := ⟨.hbm, 44, rfl⟩
abbrev main_call4_v10 : Ref sig .tc := ⟨.hbm, 45, rfl⟩
abbrev main_call4_c_0 : Ref sig .tc := ⟨.hbm, 46, rfl⟩
abbrev main_call4_v11 : Ref sig .tc := ⟨.hbm, 47, rfl⟩
abbrev main_call4_v12 : Ref sig .tc := ⟨.hbm, 48, rfl⟩
abbrev main_v16 : Ref sig .tc := ⟨.hbm, 49, rfl⟩
abbrev main_c_6 : Ref sig .tc := ⟨.hbm, 50, rfl⟩
abbrev main_call5_v0 : Ref sig .tc := ⟨.hbm, 51, rfl⟩
abbrev main_call5_c : Ref sig .tc := ⟨.hbm, 52, rfl⟩
abbrev main_call5_v1 : Ref sig .tc := ⟨.hbm, 53, rfl⟩
abbrev main_call5_c_0 : Ref sig .tc := ⟨.hbm, 54, rfl⟩
abbrev main_call5_v2 : Ref sig .tc := ⟨.hbm, 55, rfl⟩
abbrev main_call5_v3 : Ref sig .tc := ⟨.hbm, 56, rfl⟩
abbrev main_call5_v4 : Ref sig .tc := ⟨.hbm, 57, rfl⟩
abbrev main_call5_c_1 : Ref sig .tc := ⟨.hbm, 58, rfl⟩
abbrev main_call5_v5 : Ref sig .tc := ⟨.hbm, 59, rfl⟩
abbrev main_call5_v6 : Ref sig .tc := ⟨.hbm, 60, rfl⟩
abbrev main_call5_c_2 : Ref sig .tc := ⟨.hbm, 61, rfl⟩
abbrev main_call5_v7 : Ref sig .tc := ⟨.hbm, 62, rfl⟩
abbrev main_call5_v8 : Ref sig .tc := ⟨.hbm, 63, rfl⟩
abbrev main_call5_c_3 : Ref sig .tc := ⟨.hbm, 64, rfl⟩
abbrev main_call5_v9 : Ref sig .tc := ⟨.hbm, 65, rfl⟩
abbrev main_call5_v10 : Ref sig .tc := ⟨.hbm, 66, rfl⟩
abbrev main_call5_v11 : Ref sig .tc := ⟨.hbm, 67, rfl⟩
abbrev main_call5_v12 : Ref sig .tc := ⟨.hbm, 68, rfl⟩
abbrev main_call5_v13 : Ref sig .tc := ⟨.hbm, 69, rfl⟩
abbrev main_call5_v14 : Ref sig .tc := ⟨.hbm, 70, rfl⟩
abbrev main_v17 : Ref sig .tc := ⟨.hbm, 71, rfl⟩
abbrev main_c_7 : Ref sig .tc := ⟨.hbm, 72, rfl⟩
abbrev main_call6_v0 : Ref sig .tc := ⟨.hbm, 73, rfl⟩
abbrev main_call6_v1 : Ref sig .tc := ⟨.hbm, 74, rfl⟩
abbrev main_call6_v2 : Ref sig .tc := ⟨.hbm, 75, rfl⟩
abbrev main_call6_v3 : Ref sig .tc := ⟨.hbm, 76, rfl⟩
abbrev main_call6_v4 : Ref sig .tc := ⟨.hbm, 77, rfl⟩
abbrev main_call6_v5 : Ref sig .tc := ⟨.hbm, 78, rfl⟩
abbrev main_call6_v6 : Ref sig .tc := ⟨.hbm, 79, rfl⟩
abbrev main_call6_v7 : Ref sig .tc := ⟨.hbm, 80, rfl⟩
abbrev main_call6_c : Ref sig .tc := ⟨.hbm, 81, rfl⟩
abbrev main_call6_v8 : Ref sig .tc := ⟨.hbm, 82, rfl⟩
abbrev main_call6_v9 : Ref sig .tc := ⟨.hbm, 83, rfl⟩
abbrev main_call6_v10 : Ref sig .tc := ⟨.hbm, 84, rfl⟩
abbrev main_call6_c_0 : Ref sig .tc := ⟨.hbm, 85, rfl⟩
abbrev main_call6_v11 : Ref sig .tc := ⟨.hbm, 86, rfl⟩
abbrev main_call6_v12 : Ref sig .tc := ⟨.hbm, 87, rfl⟩
abbrev main_v18 : Ref sig .tc := ⟨.hbm, 88, rfl⟩
abbrev main_c_8 : Ref sig .tc := ⟨.hbm, 89, rfl⟩
abbrev main_call7_v0 : Ref sig .tc := ⟨.hbm, 90, rfl⟩
abbrev main_call7_c : Ref sig .tc := ⟨.hbm, 91, rfl⟩
abbrev main_call7_v1 : Ref sig .tc := ⟨.hbm, 92, rfl⟩
abbrev main_call7_c_0 : Ref sig .tc := ⟨.hbm, 93, rfl⟩
abbrev main_call7_v2 : Ref sig .tc := ⟨.hbm, 94, rfl⟩
abbrev main_call7_v3 : Ref sig .tc := ⟨.hbm, 95, rfl⟩
abbrev main_call7_v4 : Ref sig .tc := ⟨.hbm, 96, rfl⟩
abbrev main_call7_c_1 : Ref sig .tc := ⟨.hbm, 97, rfl⟩
abbrev main_call7_v5 : Ref sig .tc := ⟨.hbm, 98, rfl⟩
abbrev main_call7_v6 : Ref sig .tc := ⟨.hbm, 99, rfl⟩
abbrev main_call7_c_2 : Ref sig .tc := ⟨.hbm, 100, rfl⟩
abbrev main_call7_v7 : Ref sig .tc := ⟨.hbm, 101, rfl⟩
abbrev main_call7_v8 : Ref sig .tc := ⟨.hbm, 102, rfl⟩
abbrev main_call7_c_3 : Ref sig .tc := ⟨.hbm, 103, rfl⟩
abbrev main_call7_v9 : Ref sig .tc := ⟨.hbm, 104, rfl⟩
abbrev main_call7_v10 : Ref sig .tc := ⟨.hbm, 105, rfl⟩
abbrev main_call7_v11 : Ref sig .tc := ⟨.hbm, 106, rfl⟩
abbrev main_call7_v12 : Ref sig .tc := ⟨.hbm, 107, rfl⟩
abbrev main_call7_v13 : Ref sig .tc := ⟨.hbm, 108, rfl⟩
abbrev main_call7_v14 : Ref sig .tc := ⟨.hbm, 109, rfl⟩
abbrev main_v19 : Ref sig .tc := ⟨.hbm, 110, rfl⟩
abbrev main_c_9 : Ref sig .tc := ⟨.hbm, 111, rfl⟩
abbrev main_call8_v0 : Ref sig .tc := ⟨.hbm, 112, rfl⟩
abbrev main_call8_v1 : Ref sig .tc := ⟨.hbm, 113, rfl⟩
abbrev main_call8_v2 : Ref sig .tc := ⟨.hbm, 114, rfl⟩
abbrev main_call8_v3 : Ref sig .tc := ⟨.hbm, 115, rfl⟩
abbrev main_call8_v4 : Ref sig .tc := ⟨.hbm, 116, rfl⟩
abbrev main_call8_v5 : Ref sig .tc := ⟨.hbm, 117, rfl⟩
abbrev main_call8_v6 : Ref sig .tc := ⟨.hbm, 118, rfl⟩
abbrev main_call8_v7 : Ref sig .tc := ⟨.hbm, 119, rfl⟩
abbrev main_call8_c : Ref sig .tc := ⟨.hbm, 120, rfl⟩
abbrev main_call8_v8 : Ref sig .tc := ⟨.hbm, 121, rfl⟩
abbrev main_call8_v9 : Ref sig .tc := ⟨.hbm, 122, rfl⟩
abbrev main_call8_v10 : Ref sig .tc := ⟨.hbm, 123, rfl⟩
abbrev main_call8_c_0 : Ref sig .tc := ⟨.hbm, 124, rfl⟩
abbrev main_call8_v11 : Ref sig .tc := ⟨.hbm, 125, rfl⟩
abbrev main_call8_v12 : Ref sig .tc := ⟨.hbm, 126, rfl⟩
abbrev main_v20 : Ref sig .tc := ⟨.hbm, 127, rfl⟩
abbrev main_c_10 : Ref sig .tc := ⟨.hbm, 128, rfl⟩
abbrev main_call9_v0 : Ref sig .tc := ⟨.hbm, 129, rfl⟩
abbrev main_call9_c : Ref sig .tc := ⟨.hbm, 130, rfl⟩
abbrev main_call9_v1 : Ref sig .tc := ⟨.hbm, 131, rfl⟩
abbrev main_call9_c_0 : Ref sig .tc := ⟨.hbm, 132, rfl⟩
abbrev main_call9_v2 : Ref sig .tc := ⟨.hbm, 133, rfl⟩
abbrev main_call9_v3 : Ref sig .tc := ⟨.hbm, 134, rfl⟩
abbrev main_call9_v4 : Ref sig .tc := ⟨.hbm, 135, rfl⟩
abbrev main_call9_c_1 : Ref sig .tc := ⟨.hbm, 136, rfl⟩
abbrev main_call9_v5 : Ref sig .tc := ⟨.hbm, 137, rfl⟩
abbrev main_call9_v6 : Ref sig .tc := ⟨.hbm, 138, rfl⟩
abbrev main_call9_c_2 : Ref sig .tc := ⟨.hbm, 139, rfl⟩
abbrev main_call9_v7 : Ref sig .tc := ⟨.hbm, 140, rfl⟩
abbrev main_call9_v8 : Ref sig .tc := ⟨.hbm, 141, rfl⟩
abbrev main_call9_c_3 : Ref sig .tc := ⟨.hbm, 142, rfl⟩
abbrev main_call9_v9 : Ref sig .tc := ⟨.hbm, 143, rfl⟩
abbrev main_call9_v10 : Ref sig .tc := ⟨.hbm, 144, rfl⟩
abbrev main_call9_v11 : Ref sig .tc := ⟨.hbm, 145, rfl⟩
abbrev main_call9_v12 : Ref sig .tc := ⟨.hbm, 146, rfl⟩
abbrev main_call9_v13 : Ref sig .tc := ⟨.hbm, 147, rfl⟩
abbrev main_call9_v14 : Ref sig .tc := ⟨.hbm, 148, rfl⟩
abbrev main_v21 : Ref sig .tc := ⟨.hbm, 149, rfl⟩
abbrev main_c_11 : Ref sig .tc := ⟨.hbm, 150, rfl⟩
abbrev main_call10_v0 : Ref sig .tc := ⟨.hbm, 151, rfl⟩
abbrev main_call10_v1 : Ref sig .tc := ⟨.hbm, 152, rfl⟩
abbrev main_call10_v2 : Ref sig .tc := ⟨.hbm, 153, rfl⟩
abbrev main_call10_v3 : Ref sig .tc := ⟨.hbm, 154, rfl⟩
abbrev main_call10_v4 : Ref sig .tc := ⟨.hbm, 155, rfl⟩
abbrev main_call10_v5 : Ref sig .tc := ⟨.hbm, 156, rfl⟩
abbrev main_call10_v6 : Ref sig .tc := ⟨.hbm, 157, rfl⟩
abbrev main_call10_v7 : Ref sig .tc := ⟨.hbm, 158, rfl⟩
abbrev main_call10_c : Ref sig .tc := ⟨.hbm, 159, rfl⟩
abbrev main_call10_v8 : Ref sig .tc := ⟨.hbm, 160, rfl⟩
abbrev main_call10_v9 : Ref sig .tc := ⟨.hbm, 161, rfl⟩
abbrev main_call10_v10 : Ref sig .tc := ⟨.hbm, 162, rfl⟩
abbrev main_call10_c_0 : Ref sig .tc := ⟨.hbm, 163, rfl⟩
abbrev main_call10_v11 : Ref sig .tc := ⟨.hbm, 164, rfl⟩
abbrev main_call10_v12 : Ref sig .tc := ⟨.hbm, 165, rfl⟩
abbrev main_v22 : Ref sig .tc := ⟨.hbm, 166, rfl⟩
abbrev main_c_12 : Ref sig .tc := ⟨.hbm, 167, rfl⟩
abbrev main_call11_v0 : Ref sig .tc := ⟨.hbm, 168, rfl⟩
abbrev main_call11_c : Ref sig .tc := ⟨.hbm, 169, rfl⟩
abbrev main_call11_v1 : Ref sig .tc := ⟨.hbm, 170, rfl⟩
abbrev main_call11_c_0 : Ref sig .tc := ⟨.hbm, 171, rfl⟩
abbrev main_call11_v2 : Ref sig .tc := ⟨.hbm, 172, rfl⟩
abbrev main_call11_v3 : Ref sig .tc := ⟨.hbm, 173, rfl⟩
abbrev main_call11_v4 : Ref sig .tc := ⟨.hbm, 174, rfl⟩
abbrev main_call11_c_1 : Ref sig .tc := ⟨.hbm, 175, rfl⟩
abbrev main_call11_v5 : Ref sig .tc := ⟨.hbm, 176, rfl⟩
abbrev main_call11_v6 : Ref sig .tc := ⟨.hbm, 177, rfl⟩
abbrev main_call11_c_2 : Ref sig .tc := ⟨.hbm, 178, rfl⟩
abbrev main_call11_v7 : Ref sig .tc := ⟨.hbm, 179, rfl⟩
abbrev main_call11_v8 : Ref sig .tc := ⟨.hbm, 180, rfl⟩
abbrev main_call11_c_3 : Ref sig .tc := ⟨.hbm, 181, rfl⟩
abbrev main_call11_v9 : Ref sig .tc := ⟨.hbm, 182, rfl⟩
abbrev main_call11_v10 : Ref sig .tc := ⟨.hbm, 183, rfl⟩
abbrev main_call11_v11 : Ref sig .tc := ⟨.hbm, 184, rfl⟩
abbrev main_call11_v12 : Ref sig .tc := ⟨.hbm, 185, rfl⟩
abbrev main_call11_v13 : Ref sig .tc := ⟨.hbm, 186, rfl⟩
abbrev main_call11_v14 : Ref sig .tc := ⟨.hbm, 187, rfl⟩
abbrev main_v23 : Ref sig .tc := ⟨.hbm, 188, rfl⟩
abbrev main_v24 : Ref sig .tc := ⟨.hbm, 189, rfl⟩
abbrev main_v25 : Ref sig .tc := ⟨.hbm, 190, rfl⟩
abbrev main_c_13 : Ref sig .tc := ⟨.hbm, 191, rfl⟩
abbrev main_v26 : Ref sig .tc := ⟨.hbm, 192, rfl⟩
abbrev main_v27 : Ref sig .tc := ⟨.hbm, 193, rfl⟩
abbrev main_v28 : Ref sig .tc := ⟨.hbm, 194, rfl⟩
abbrev main_c_14 : Ref sig .tc := ⟨.hbm, 195, rfl⟩
abbrev main_call12_v0 : Ref sig .tc := ⟨.hbm, 196, rfl⟩
abbrev main_call12_v1 : Ref sig .tc := ⟨.hbm, 197, rfl⟩
abbrev main_v29 : Ref sig .tc := ⟨.hbm, 198, rfl⟩
abbrev main_c_15 : Ref sig .tc := ⟨.hbm, 199, rfl⟩
abbrev main_call13_v0 : Ref sig .tc := ⟨.hbm, 200, rfl⟩
abbrev main_call13_v1 : Ref sig .tc := ⟨.hbm, 201, rfl⟩
abbrev main_v30 : Ref sig .tc := ⟨.hbm, 202, rfl⟩
abbrev main_c_16 : Ref sig .tc := ⟨.hbm, 203, rfl⟩
abbrev main_call14_v0 : Ref sig .tc := ⟨.hbm, 204, rfl⟩
abbrev main_call14_v1 : Ref sig .tc := ⟨.hbm, 205, rfl⟩
abbrev main_v31 : Ref sig .tc := ⟨.hbm, 206, rfl⟩
abbrev main_c_17 : Ref sig .tc := ⟨.hbm, 207, rfl⟩
abbrev main_call15_v0 : Ref sig .tc := ⟨.hbm, 208, rfl⟩
abbrev main_call15_v1 : Ref sig .tc := ⟨.hbm, 209, rfl⟩
abbrev main_v32 : Ref sig .tc := ⟨.hbm, 210, rfl⟩
abbrev main_v33 : Ref sig .tc := ⟨.hbm, 211, rfl⟩
abbrev main_v34 : Ref sig .tc := ⟨.hbm, 212, rfl⟩
abbrev main_v35 : Ref sig .tc := ⟨.hbm, 213, rfl⟩
abbrev main_v36 : Ref sig .tc := ⟨.hbm, 214, rfl⟩
abbrev main_v37 : Ref sig .tc := ⟨.hbm, 215, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x1080x1074 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  pads_S8x1x1024x1024_S8x1x1080x1074_000_000_25310_25250 : S8x1x1024x1024.Pads (![0, 0, 25, 25] : Fin 4 → Nat) ![0, 0, 31, 25] ![0, 0, 0, 0] S8x1x1080x1074
  h_S_ : 0 < S_.numel
  inb_S1x1x1080x1074_S1x1x120x1074_0_0_0_0 : ∀ a, (![0, 0, 0, 0] : Fin 4 → Nat) a + S1x1x120x1074.size a ≤ S1x1x1080x1074.size a
  h_S1x1x120x1074 : 0 < S1x1x120x1074.numel
  shapeCasts_S1x1x120x1074_S120x1074 : S1x1x120x1074.ShapeCasts S120x1074
  slices_S120x1074_o0_0_S120x1024 : S120x1074.Slices ![0, 0] S120x1024
  slices_S120x1074_o0_1_S120x1024 : S120x1074.Slices ![0, 1] S120x1024
  slices_S120x1074_o0_2_S120x1024 : S120x1074.Slices ![0, 2] S120x1024
  slices_S120x1074_o0_3_S120x1024 : S120x1074.Slices ![0, 3] S120x1024
  slices_S120x1074_o0_4_S120x1024 : S120x1074.Slices ![0, 4] S120x1024
  slices_S120x1074_o0_5_S120x1024 : S120x1074.Slices ![0, 5] S120x1024
  slices_S120x1074_o0_6_S120x1024 : S120x1074.Slices ![0, 6] S120x1024
  slices_S120x1074_o0_7_S120x1024 : S120x1074.Slices ![0, 7] S120x1024
  slices_S120x1074_o0_8_S120x1024 : S120x1074.Slices ![0, 8] S120x1024
  slices_S120x1074_o0_9_S120x1024 : S120x1074.Slices ![0, 9] S120x1024
  slices_S120x1074_o0_10_S120x1024 : S120x1074.Slices ![0, 10] S120x1024
  slices_S120x1074_o0_11_S120x1024 : S120x1074.Slices ![0, 11] S120x1024
  slices_S120x1074_o0_12_S120x1024 : S120x1074.Slices ![0, 12] S120x1024
  slices_S120x1074_o0_13_S120x1024 : S120x1074.Slices ![0, 13] S120x1024
  slices_S120x1074_o0_14_S120x1024 : S120x1074.Slices ![0, 14] S120x1024
  slices_S120x1074_o0_15_S120x1024 : S120x1074.Slices ![0, 15] S120x1024
  slices_S120x1074_o0_16_S120x1024 : S120x1074.Slices ![0, 16] S120x1024
  slices_S120x1074_o0_17_S120x1024 : S120x1074.Slices ![0, 17] S120x1024
  slices_S120x1074_o0_18_S120x1024 : S120x1074.Slices ![0, 18] S120x1024
  slices_S120x1074_o0_19_S120x1024 : S120x1074.Slices ![0, 19] S120x1024
  slices_S120x1074_o0_20_S120x1024 : S120x1074.Slices ![0, 20] S120x1024
  slices_S120x1074_o0_21_S120x1024 : S120x1074.Slices ![0, 21] S120x1024
  slices_S120x1074_o0_22_S120x1024 : S120x1074.Slices ![0, 22] S120x1024
  slices_S120x1074_o0_23_S120x1024 : S120x1074.Slices ![0, 23] S120x1024
  slices_S120x1074_o0_24_S120x1024 : S120x1074.Slices ![0, 24] S120x1024
  slices_S120x1074_o0_25_S120x1024 : S120x1074.Slices ![0, 25] S120x1024
  slices_S120x1074_o0_26_S120x1024 : S120x1074.Slices ![0, 26] S120x1024
  slices_S120x1074_o0_27_S120x1024 : S120x1074.Slices ![0, 27] S120x1024
  slices_S120x1074_o0_28_S120x1024 : S120x1074.Slices ![0, 28] S120x1024
  slices_S120x1074_o0_29_S120x1024 : S120x1074.Slices ![0, 29] S120x1024
  slices_S120x1074_o0_30_S120x1024 : S120x1074.Slices ![0, 30] S120x1024
  slices_S120x1074_o0_31_S120x1024 : S120x1074.Slices ![0, 31] S120x1024
  slices_S120x1074_o0_32_S120x1024 : S120x1074.Slices ![0, 32] S120x1024
  slices_S120x1074_o0_33_S120x1024 : S120x1074.Slices ![0, 33] S120x1024
  slices_S120x1074_o0_34_S120x1024 : S120x1074.Slices ![0, 34] S120x1024
  slices_S120x1074_o0_35_S120x1024 : S120x1074.Slices ![0, 35] S120x1024
  slices_S120x1074_o0_36_S120x1024 : S120x1074.Slices ![0, 36] S120x1024
  slices_S120x1074_o0_37_S120x1024 : S120x1074.Slices ![0, 37] S120x1024
  slices_S120x1074_o0_38_S120x1024 : S120x1074.Slices ![0, 38] S120x1024
  slices_S120x1074_o0_39_S120x1024 : S120x1074.Slices ![0, 39] S120x1024
  slices_S120x1074_o0_40_S120x1024 : S120x1074.Slices ![0, 40] S120x1024
  slices_S120x1074_o0_41_S120x1024 : S120x1074.Slices ![0, 41] S120x1024
  slices_S120x1074_o0_42_S120x1024 : S120x1074.Slices ![0, 42] S120x1024
  slices_S120x1074_o0_43_S120x1024 : S120x1074.Slices ![0, 43] S120x1024
  slices_S120x1074_o0_44_S120x1024 : S120x1074.Slices ![0, 44] S120x1024
  slices_S120x1074_o0_45_S120x1024 : S120x1074.Slices ![0, 45] S120x1024
  slices_S120x1074_o0_46_S120x1024 : S120x1074.Slices ![0, 46] S120x1024
  slices_S120x1074_o0_47_S120x1024 : S120x1074.Slices ![0, 47] S120x1024
  slices_S120x1074_o0_48_S120x1024 : S120x1074.Slices ![0, 48] S120x1024
  slices_S120x1074_o0_49_S120x1024 : S120x1074.Slices ![0, 49] S120x1024
  slices_S120x1074_o0_50_S120x1024 : S120x1074.Slices ![0, 50] S120x1024
  inb_S1080x1024_S120x1024_0_0 : ∀ a, (![0, 0] : Fin 2 → Nat) a + S120x1024.size a ≤ S1080x1024.size a
  h_S120x1024 : 0 < S120x1024.numel
  shapeCasts_S120x1024_S120x1024 : S120x1024.ShapeCasts S120x1024
  inb_S1x1x1080x1074_S1x1x120x1074_0_0_120_0 : ∀ a, (![0, 0, 120, 0] : Fin 4 → Nat) a + S1x1x120x1074.size a ≤ S1x1x1080x1074.size a
  inb_S1080x1024_S120x1024_120_0 : ∀ a, (![120, 0] : Fin 2 → Nat) a + S120x1024.size a ≤ S1080x1024.size a
  inb_S1x1x1080x1074_S1x1x120x1074_0_0_240_0 : ∀ a, (![0, 0, 240, 0] : Fin 4 → Nat) a + S1x1x120x1074.size a ≤ S1x1x1080x1074.size a
  inb_S1080x1024_S120x1024_240_0 : ∀ a, (![240, 0] : Fin 2 → Nat) a + S120x1024.size a ≤ S1080x1024.size a
  inb_S1x1x1080x1074_S1x1x120x1074_0_0_360_0 : ∀ a, (![0, 0, 360, 0] : Fin 4 → Nat) a + S1x1x120x1074.size a ≤ S1x1x1080x1074.size a
  inb_S1080x1024_S120x1024_360_0 : ∀ a, (![360, 0] : Fin 2 → Nat) a + S120x1024.size a ≤ S1080x1024.size a
  inb_S1x1x1080x1074_S1x1x120x1074_0_0_480_0 : ∀ a, (![0, 0, 480, 0] : Fin 4 → Nat) a + S1x1x120x1074.size a ≤ S1x1x1080x1074.size a
  inb_S1080x1024_S120x1024_480_0 : ∀ a, (![480, 0] : Fin 2 → Nat) a + S120x1024.size a ≤ S1080x1024.size a
  inb_S1x1x1080x1074_S1x1x120x1074_0_0_600_0 : ∀ a, (![0, 0, 600, 0] : Fin 4 → Nat) a + S1x1x120x1074.size a ≤ S1x1x1080x1074.size a
  inb_S1080x1024_S120x1024_600_0 : ∀ a, (![600, 0] : Fin 2 → Nat) a + S120x1024.size a ≤ S1080x1024.size a
  inb_S1x1x1080x1074_S1x1x120x1074_0_0_720_0 : ∀ a, (![0, 0, 720, 0] : Fin 4 → Nat) a + S1x1x120x1074.size a ≤ S1x1x1080x1074.size a
  inb_S1080x1024_S120x1024_720_0 : ∀ a, (![720, 0] : Fin 2 → Nat) a + S120x1024.size a ≤ S1080x1024.size a
  inb_S1x1x1080x1074_S1x1x120x1074_0_0_840_0 : ∀ a, (![0, 0, 840, 0] : Fin 4 → Nat) a + S1x1x120x1074.size a ≤ S1x1x1080x1074.size a
  inb_S1080x1024_S120x1024_840_0 : ∀ a, (![840, 0] : Fin 2 → Nat) a + S120x1024.size a ≤ S1080x1024.size a
  inb_S1x1x1080x1074_S1x1x120x1074_0_0_960_0 : ∀ a, (![0, 0, 960, 0] : Fin 4 → Nat) a + S1x1x120x1074.size a ≤ S1x1x1080x1074.size a
  inb_S1080x1024_S120x1024_960_0 : ∀ a, (![960, 0] : Fin 2 → Nat) a + S120x1024.size a ≤ S1080x1024.size a
  inb_S1080x1024_S184x1024_0_0 : ∀ a, (![0, 0] : Fin 2 → Nat) a + S184x1024.size a ≤ S1080x1024.size a
  h_S184x1024 : 0 < S184x1024.numel
  slices_S184x1024_o0_0_S128x1024 : S184x1024.Slices ![0, 0] S128x1024
  slices_S184x1024_o1_0_S128x1024 : S184x1024.Slices ![1, 0] S128x1024
  slices_S184x1024_o2_0_S128x1024 : S184x1024.Slices ![2, 0] S128x1024
  slices_S184x1024_o3_0_S128x1024 : S184x1024.Slices ![3, 0] S128x1024
  slices_S184x1024_o4_0_S128x1024 : S184x1024.Slices ![4, 0] S128x1024
  slices_S184x1024_o5_0_S128x1024 : S184x1024.Slices ![5, 0] S128x1024
  slices_S184x1024_o6_0_S128x1024 : S184x1024.Slices ![6, 0] S128x1024
  slices_S184x1024_o7_0_S128x1024 : S184x1024.Slices ![7, 0] S128x1024
  slices_S184x1024_o8_0_S128x1024 : S184x1024.Slices ![8, 0] S128x1024
  slices_S184x1024_o9_0_S128x1024 : S184x1024.Slices ![9, 0] S128x1024
  slices_S184x1024_o10_0_S128x1024 : S184x1024.Slices ![10, 0] S128x1024
  slices_S184x1024_o11_0_S128x1024 : S184x1024.Slices ![11, 0] S128x1024
  slices_S184x1024_o12_0_S128x1024 : S184x1024.Slices ![12, 0] S128x1024
  slices_S184x1024_o13_0_S128x1024 : S184x1024.Slices ![13, 0] S128x1024
  slices_S184x1024_o14_0_S128x1024 : S184x1024.Slices ![14, 0] S128x1024
  slices_S184x1024_o15_0_S128x1024 : S184x1024.Slices ![15, 0] S128x1024
  slices_S184x1024_o16_0_S128x1024 : S184x1024.Slices ![16, 0] S128x1024
  slices_S184x1024_o17_0_S128x1024 : S184x1024.Slices ![17, 0] S128x1024
  slices_S184x1024_o18_0_S128x1024 : S184x1024.Slices ![18, 0] S128x1024
  slices_S184x1024_o19_0_S128x1024 : S184x1024.Slices ![19, 0] S128x1024
  slices_S184x1024_o20_0_S128x1024 : S184x1024.Slices ![20, 0] S128x1024
  slices_S184x1024_o21_0_S128x1024 : S184x1024.Slices ![21, 0] S128x1024
  slices_S184x1024_o22_0_S128x1024 : S184x1024.Slices ![22, 0] S128x1024
  slices_S184x1024_o23_0_S128x1024 : S184x1024.Slices ![23, 0] S128x1024
  slices_S184x1024_o24_0_S128x1024 : S184x1024.Slices ![24, 0] S128x1024
  slices_S184x1024_o25_0_S128x1024 : S184x1024.Slices ![25, 0] S128x1024
  slices_S184x1024_o26_0_S128x1024 : S184x1024.Slices ![26, 0] S128x1024
  slices_S184x1024_o27_0_S128x1024 : S184x1024.Slices ![27, 0] S128x1024
  slices_S184x1024_o28_0_S128x1024 : S184x1024.Slices ![28, 0] S128x1024
  slices_S184x1024_o29_0_S128x1024 : S184x1024.Slices ![29, 0] S128x1024
  slices_S184x1024_o30_0_S128x1024 : S184x1024.Slices ![30, 0] S128x1024
  slices_S184x1024_o31_0_S128x1024 : S184x1024.Slices ![31, 0] S128x1024
  slices_S184x1024_o32_0_S128x1024 : S184x1024.Slices ![32, 0] S128x1024
  slices_S184x1024_o33_0_S128x1024 : S184x1024.Slices ![33, 0] S128x1024
  slices_S184x1024_o34_0_S128x1024 : S184x1024.Slices ![34, 0] S128x1024
  slices_S184x1024_o35_0_S128x1024 : S184x1024.Slices ![35, 0] S128x1024
  slices_S184x1024_o36_0_S128x1024 : S184x1024.Slices ![36, 0] S128x1024
  slices_S184x1024_o37_0_S128x1024 : S184x1024.Slices ![37, 0] S128x1024
  slices_S184x1024_o38_0_S128x1024 : S184x1024.Slices ![38, 0] S128x1024
  slices_S184x1024_o39_0_S128x1024 : S184x1024.Slices ![39, 0] S128x1024
  slices_S184x1024_o40_0_S128x1024 : S184x1024.Slices ![40, 0] S128x1024
  slices_S184x1024_o41_0_S128x1024 : S184x1024.Slices ![41, 0] S128x1024
  slices_S184x1024_o42_0_S128x1024 : S184x1024.Slices ![42, 0] S128x1024
  slices_S184x1024_o43_0_S128x1024 : S184x1024.Slices ![43, 0] S128x1024
  slices_S184x1024_o44_0_S128x1024 : S184x1024.Slices ![44, 0] S128x1024
  slices_S184x1024_o45_0_S128x1024 : S184x1024.Slices ![45, 0] S128x1024
  slices_S184x1024_o46_0_S128x1024 : S184x1024.Slices ![46, 0] S128x1024
  slices_S184x1024_o47_0_S128x1024 : S184x1024.Slices ![47, 0] S128x1024
  slices_S184x1024_o48_0_S128x1024 : S184x1024.Slices ![48, 0] S128x1024
  slices_S184x1024_o49_0_S128x1024 : S184x1024.Slices ![49, 0] S128x1024
  slices_S184x1024_o50_0_S128x1024 : S184x1024.Slices ![50, 0] S128x1024
  inb_S1x1x1080x1074_S1x1x160x1074_0_0_0_0 : ∀ a, (![0, 0, 0, 0] : Fin 4 → Nat) a + S1x1x160x1074.size a ≤ S1x1x1080x1074.size a
  h_S1x1x160x1074 : 0 < S1x1x160x1074.numel
  shapeCasts_S1x1x160x1074_S160x1074 : S1x1x160x1074.ShapeCasts S160x1074
  slices_S160x1074_o25_25_S128x1024 : S160x1074.Slices ![25, 25] S128x1024
  natLt_1_32 : 1 < 32
  inb_S1x1x1024x1024_S1x1x128x1024_0_0_0_0 : ∀ a, (![0, 0, 0, 0] : Fin 4 → Nat) a + S1x1x128x1024.size a ≤ S1x1x1024x1024.size a
  h_S1x1x128x1024 : 0 < S1x1x128x1024.numel
  shapeCasts_S1x1x128x1024_S128x1024 : S1x1x128x1024.ShapeCasts S128x1024
  shapeCasts_S128x1024_S1x1x128x1024 : S128x1024.ShapeCasts S1x1x128x1024
  inb_S1080x1024_S184x1024_128_0 : ∀ a, (![128, 0] : Fin 2 → Nat) a + S184x1024.size a ≤ S1080x1024.size a
  inb_S1x1x1080x1074_S1x1x160x1074_0_0_128_0 : ∀ a, (![0, 0, 128, 0] : Fin 4 → Nat) a + S1x1x160x1074.size a ≤ S1x1x1080x1074.size a
  inb_S1x1x1024x1024_S1x1x128x1024_0_0_128_0 : ∀ a, (![0, 0, 128, 0] : Fin 4 → Nat) a + S1x1x128x1024.size a ≤ S1x1x1024x1024.size a
  inb_S1080x1024_S184x1024_256_0 : ∀ a, (![256, 0] : Fin 2 → Nat) a + S184x1024.size a ≤ S1080x1024.size a
  inb_S1x1x1080x1074_S1x1x160x1074_0_0_256_0 : ∀ a, (![0, 0, 256, 0] : Fin 4 → Nat) a + S1x1x160x1074.size a ≤ S1x1x1080x1074.size a
  inb_S1x1x1024x1024_S1x1x128x1024_0_0_256_0 : ∀ a, (![0, 0, 256, 0] : Fin 4 → Nat) a + S1x1x128x1024.size a ≤ S1x1x1024x1024.size a
  inb_S1080x1024_S184x1024_384_0 : ∀ a, (![384, 0] : Fin 2 → Nat) a + S184x1024.size a ≤ S1080x1024.size a
  inb_S1x1x1080x1074_S1x1x160x1074_0_0_384_0 : ∀ a, (![0, 0, 384, 0] : Fin 4 → Nat) a + S1x1x160x1074.size a ≤ S1x1x1080x1074.size a
  inb_S1x1x1024x1024_S1x1x128x1024_0_0_384_0 : ∀ a, (![0, 0, 384, 0] : Fin 4 → Nat) a + S1x1x128x1024.size a ≤ S1x1x1024x1024.size a
  inb_S1080x1024_S184x1024_512_0 : ∀ a, (![512, 0] : Fin 2 → Nat) a + S184x1024.size a ≤ S1080x1024.size a
  inb_S1x1x1080x1074_S1x1x160x1074_0_0_512_0 : ∀ a, (![0, 0, 512, 0] : Fin 4 → Nat) a + S1x1x160x1074.size a ≤ S1x1x1080x1074.size a
  inb_S1x1x1024x1024_S1x1x128x1024_0_0_512_0 : ∀ a, (![0, 0, 512, 0] : Fin 4 → Nat) a + S1x1x128x1024.size a ≤ S1x1x1024x1024.size a
  inb_S1080x1024_S184x1024_640_0 : ∀ a, (![640, 0] : Fin 2 → Nat) a + S184x1024.size a ≤ S1080x1024.size a
  inb_S1x1x1080x1074_S1x1x160x1074_0_0_640_0 : ∀ a, (![0, 0, 640, 0] : Fin 4 → Nat) a + S1x1x160x1074.size a ≤ S1x1x1080x1074.size a
  inb_S1x1x1024x1024_S1x1x128x1024_0_0_640_0 : ∀ a, (![0, 0, 640, 0] : Fin 4 → Nat) a + S1x1x128x1024.size a ≤ S1x1x1024x1024.size a
  inb_S1080x1024_S184x1024_768_0 : ∀ a, (![768, 0] : Fin 2 → Nat) a + S184x1024.size a ≤ S1080x1024.size a
  inb_S1x1x1080x1074_S1x1x160x1074_0_0_768_0 : ∀ a, (![0, 0, 768, 0] : Fin 4 → Nat) a + S1x1x160x1074.size a ≤ S1x1x1080x1074.size a
  inb_S1x1x1024x1024_S1x1x128x1024_0_0_768_0 : ∀ a, (![0, 0, 768, 0] : Fin 4 → Nat) a + S1x1x128x1024.size a ≤ S1x1x1024x1024.size a
  inb_S1080x1024_S184x1024_896_0 : ∀ a, (![896, 0] : Fin 2 → Nat) a + S184x1024.size a ≤ S1080x1024.size a
  inb_S1x1x1080x1074_S1x1x160x1074_0_0_896_0 : ∀ a, (![0, 0, 896, 0] : Fin 4 → Nat) a + S1x1x160x1074.size a ≤ S1x1x1080x1074.size a
  inb_S1x1x1024x1024_S1x1x128x1024_0_0_896_0 : ∀ a, (![0, 0, 896, 0] : Fin 4 → Nat) a + S1x1x128x1024.size a ≤ S1x1x1024x1024.size a
  bcast_S_S8x1x1024x1024 : S_.BroadcastsInDim S8x1x1024x1024 (![] : Fin 0 → Fin S8x1x1024x1024.rank)
  shapeCasts_S8x1x1024x1024_S8388608 : S8x1x1024x1024.ShapeCasts S8388608
  bcast_S_S_ : S_.BroadcastsInDim S_ (![] : Fin 0 → Fin S_.rank)
  reduceWindows_S8388608_S8388608_w8388608s1p8388607_0 : S8388608.ReduceWindows (![8388608] : Fin 1 → Nat) ![1] ![8388607] ![0] S8388608
  bcast_S_S4096 : S_.BroadcastsInDim S4096 (![] : Fin 0 → Fin S4096.rank)
  bcast_S_S8388608 : S_.BroadcastsInDim S8388608 (![] : Fin 0 → Fin S8388608.rank)
  bcast_S8388608_S8388608x1_0 : S8388608.BroadcastsInDim S8388608x1 (![0] : Fin 1 → Fin S8388608x1.rank)
  reduceWindows_S4096_S4096_w4096s1p4095_0 : S4096.ReduceWindows (![4096] : Fin 1 → Nat) ![1] ![4095] ![0] S4096
  reducesTo_S8x1x1024x1024_S_d0_1_2_3 : S8x1x1024x1024.ReducesTo [0, 1, 2, 3] S_
  bcast_S4096_S4096x1_0 : S4096.BroadcastsInDim S4096x1 (![0] : Fin 1 → Fin S4096x1.rank)
  concatenates_S4096x1_S4096x1_S4096x1_S4096x1_S4096x4_d1 : Shape.Concatenates [S4096x1, S4096x1, S4096x1, S4096x1] S4096x4 1
  scatter_S4096_S8388608x1_S8388608_n_0_0_1_wf : ScatterDims.WF S4096 S8388608x1 S8388608 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1080x1074.size a ≤ S8x1x1080x1074.size a
  hwx0_0 : ∀ i : grid0.Coords, EltTy.bits .f32 = 32 ∨ (Rect.block (s := S8x1x1080x1074) S1x1x1080x1074.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024x1024.size a ≤ S8x1x1024x1024.size a
  hwx0_1 : ∀ i : grid0.Coords, EltTy.bits .f32 = 32 ∨ (Rect.block (s := S8x1x1024x1024) S1x1x1024x1024.size (cc0_transform_1 i) (hinb0_1 i)).WholeWords (EltTy.packing .f32)

variable [Facts₀]

def scatter_S4096_S8388608x1_S8388608_n_0_0_1 : ScatterDims S4096 S8388608x1 S8388608 where
  updateWindowDims := []
  insertedWindowDims := [0]
  scatterDimsToOperandDims := [0]
  indexVectorDim := 1
  wf := scatter_S4096_S8388608x1_S8388608_n_0_0_1_wf

abbrev win0_0 : Pipeline.Window sig grid0 :=
  Pipeline.Window.ofSpec (Memref.whole main_v0) S1x1x1080x1074.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x1x1024x1024 : Shape := ⟨4, ![8, 1, 1024, 1024]⟩
abbrev S_ : Shape := ⟨0, ![]⟩
abbrev S8388608 : Shape := ⟨1, ![8388608]⟩
abbrev S4096 : Shape := ⟨1, ![4096]⟩
abbrev S8388608x1 : Shape := ⟨2, ![8388608, 1]⟩
abbrev S4096x1 : Shape := ⟨2, ![4096, 1]⟩
abbrev S4096x4 : Shape := ⟨2, ![4096, 4]⟩

abbrev nBuf : Space → Nat
  | .hbm => 217
  | .vmem => 0
  | .smem => 0
  | _ => 0

abbrev hbmTy0_0 (i : Nat) : BufTy := match i % 128 with
  | 0 => ⟨S8x1x1024x1024, .f32⟩
  | 1 => ⟨S_, .f32⟩
  | 2 => ⟨S_, .f32⟩
  | 3 => ⟨S8x1x1024x1024, .f32⟩
  | 4 => ⟨S8x1x1024x1024, .i1⟩
  | 5 => ⟨S_, .f32⟩
  | 6 => ⟨S8x1x1024x1024, .f32⟩
  | 7 => ⟨S8x1x1024x1024, .i1⟩
  | 8 => ⟨S8x1x1024x1024, .i1⟩
  | 9 => ⟨S8388608, .i1⟩
  | 10 => ⟨S8388608, .i32⟩
  | 11 => ⟨S_, .i32⟩
  | 12 => ⟨S_, .i32⟩
  | 13 => ⟨S8388608, .i32⟩
  | 14 => ⟨S_, .i32⟩
  | 15 => ⟨S4096, .i32⟩
  | 16 => ⟨S_, .i32⟩
  | 17 => ⟨S_, .i32⟩
  | 18 => ⟨S8388608, .i32⟩
  | 19 => ⟨S8388608, .i32⟩
  | 20 => ⟨S_, .i32⟩
  | 21 => ⟨S8388608, .i32⟩
  | 22 => ⟨S8388608, .i1⟩
  | 23 => ⟨S_, .i32⟩
  | 24 => ⟨S8388608, .i32⟩
  | 25 => ⟨S8388608, .i32⟩
  | 26 => ⟨S8388608, .i32⟩
  | 27 => ⟨S8388608x1, .i32⟩
  | 28 => ⟨S_, .i32⟩
  | 29 => ⟨S8388608, .i32⟩
  | 30 => ⟨S4096, .i32⟩
  | 31 => ⟨S_, .i32⟩
  | 32 => ⟨S_, .i32⟩
  | 33 => ⟨S4096, .i32⟩
  | 34 => ⟨S_, .i32⟩
  | 35 => ⟨S4096, .i32⟩
  | 36 => ⟨S4096, .i32⟩
  | 37 => ⟨S4096, .i32⟩
  | 38 => ⟨S_, .i32⟩
  | 39 => ⟨S4096, .i32⟩
  | 40 => ⟨S4096, .i1⟩
  | 41 => ⟨S4096, .i32⟩
  | 42 => ⟨S4096, .i32⟩
  | 43 => ⟨S_, .i32⟩
  | 44 => ⟨S4096, .i32⟩
  | 45 => ⟨S4096, .i1⟩
  | 46 => ⟨S4096, .i1⟩
  | 47 => ⟨S_, .i32⟩
  | 48 => ⟨S4096, .i32⟩
  | 49 => ⟨S4096, .i32⟩
  | 50 => ⟨S4096, .i32⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S4096, .i32⟩
  | 58 => ⟨S4096, .i32⟩
  | 59 => ⟨S_, .i32⟩
  | 60 => ⟨S4096, .i32⟩
  | 61 => ⟨S4096, .i1⟩
  | 62 => ⟨S_, .i32⟩
  | 63 => ⟨S4096, .i32⟩
  | 64 => ⟨S4096, .i1⟩
  | 65 => ⟨S_, .i32⟩
  | 66 => ⟨S_, .i1⟩
  | 67 => ⟨S4096, .i1⟩
  | 68 => ⟨S4096, .i1⟩
  | 69 => ⟨S4096, .i1⟩
  | 70 => ⟨S4096, .i32⟩
  | 71 => ⟨S4096, .i32⟩
  | 72 => ⟨S4096, .i32⟩
  | 73 => ⟨S_, .i32⟩
  | 74 => ⟨S4096, .i32⟩
  | 75 => ⟨S4096, .i32⟩
  | 76 => ⟨S4096, .i32⟩
  | 77 => ⟨S_, .i32⟩
  | 78 => ⟨S4096, .i32⟩
  | 79 => ⟨S4096, .i1⟩
  | 80 => ⟨S4096, .i32⟩
  | 81 => ⟨S4096, .i32⟩
  | 82 => ⟨S_, .i32⟩
  | 83 => ⟨S4096, .i32⟩
  | 84 => ⟨S4096, .i1⟩
  | 85 => ⟨S4096, .i1⟩
  | 86 => ⟨S_, .i32⟩
  | 87 => ⟨S4096, .i32⟩
  | 88 => ⟨S4096, .i32⟩
  | 89 => ⟨S4096, .i32⟩
  | 90 => ⟨S_, .i32⟩
  | 91 => ⟨S_, .i32⟩
  | 92 => ⟨S_, .i32⟩
  | 93 => ⟨S_, .i1⟩
  | 94 => ⟨S_, .i32⟩
  | 95 => ⟨S_, .i32⟩
  | 96 => ⟨S4096, .i32⟩
  | 97 => ⟨S4096, .i32⟩
  | 98 => ⟨S_, .i32⟩
  | 99 => ⟨S4096, .i32⟩
  | 100 => ⟨S4096, .i1⟩
  | 101 => ⟨S_, .i32⟩
  | 102 => ⟨S4096, .i32⟩
  | 103 => ⟨S4096, .i1⟩
  | 104 => ⟨S_, .i32⟩
  | 105 => ⟨S_, .i1⟩
  | 106 => ⟨S4096, .i1⟩
  | 107 => ⟨S4096, .i1⟩
  | 108 => ⟨S4096, .i1⟩
  | 109 => ⟨S4096, .i32⟩
  | 110 => ⟨S4096, .i32⟩
  | 111 => ⟨S4096, .i32⟩
  | 112 => ⟨S_, .i32⟩
  | 113 => ⟨S4096, .i32⟩
  | 114 => ⟨S4096, .i32⟩
  | 115 => ⟨S4096, .i32⟩
  | 116 => ⟨S_, .i32⟩
  | 117 => ⟨S4096, .i32⟩
  | 118 => ⟨S4096, .i1⟩
  | 119 => ⟨S4096, .i32⟩
  | 120 => ⟨S4096, .i32⟩
  | 121 => ⟨S_, .i32⟩
  | 122 => ⟨S4096, .i32⟩
  | 123 => ⟨S4096, .i1⟩
  | 124 => ⟨S4096, .i1⟩
  | 125 => ⟨S_, .i32⟩
  | 126 => ⟨S4096, .i32⟩
  | 127 => ⟨S4096, .i32⟩
  | _ => ⟨S8x1x1024x1024, .f32⟩

abbrev hbmTy0_1 (i : Nat) : BufTy := match i % 128 with
  | 0 => ⟨S4096, .i32⟩
  | 1 => ⟨S_, .i32⟩
  | 2 => ⟨S_, .i32⟩
  | 3 => ⟨S_, .i32⟩
  | 4 => ⟨S_, .i1⟩
  | 5 => ⟨S_, .i32⟩
  | 6 => ⟨S_, .i32⟩
  | 7 => ⟨S4096, .i32⟩
  | 8 => ⟨S4096, .i32⟩
  | 9 => ⟨S_, .i32⟩
  | 10 => ⟨S4096, .i32⟩
  | 11 => ⟨S4096, .i1⟩
  | 12 => ⟨S_, .i32⟩
  | 13 => ⟨S4096, .i32⟩
  | 14 => ⟨S4096, .i1⟩
  | 15 => ⟨S_, .i32⟩
  | 16 => ⟨S_, .i1⟩
  | 17 => ⟨S4096, .i1⟩
  | 18 => ⟨S4096, .i1⟩
  | 19 => ⟨S4096, .i1⟩
  | 20 => ⟨S4096, .i32⟩
  | 21 => ⟨S4096, .i32⟩
  | 22 => ⟨S4096, .i32⟩
  | 23 => ⟨S_, .i32⟩
  | 24 => ⟨S4096, .i32⟩
  | 25 => ⟨S4096, .i32⟩
  | 26 => ⟨S4096, .i32⟩
  | 27 => ⟨S_, .i32⟩
  | 28 => ⟨S4096, .i32⟩
  | 29 => ⟨S4096, .i1⟩
  | 30 => ⟨S4096, .i32⟩
  | 31 => ⟨S4096, .i32⟩
  | 32 => ⟨S_, .i32⟩
  | 33 => ⟨S4096, .i32⟩
  | 34 => ⟨S4096, .i1⟩
  | 35 => ⟨S4096, .i1⟩
  | 36 => ⟨S_, .i32⟩
  | 37 => ⟨S4096, .i32⟩
  | 38 => ⟨S4096, .i32⟩
  | 39 => ⟨S4096, .i32⟩
  | 40 => ⟨S_, .i32⟩
  | 41 => ⟨S_, .i32⟩
  | 42 => ⟨S_, .i32⟩
  | 43 => ⟨S_, .i1⟩
  | 44 => ⟨S_, .i32⟩
  | 45 => ⟨S_, .i32⟩
  | 46 => ⟨S4096, .i32⟩
  | 47 => ⟨S4096, .i32⟩
  | 48 => ⟨S_, .i32⟩
  | 49 => ⟨S4096, .i32⟩
  | 50 => ⟨S4096, .i1⟩
  | 51 => ⟨S_, .i32⟩
  | 52 => ⟨S4096, .i32⟩
  | 53 => ⟨S4096, .i1⟩
  | 54 => ⟨S_, .i32⟩
  | 55 => ⟨S_, .i1⟩
  | 56 => ⟨S4096, .i1⟩
  | 57 => ⟨S4096, .i1⟩
  | 58 => ⟨S4096, .i1⟩
  | 59 => ⟨S4096, .i32⟩
  | 60 => ⟨S4096, .i32⟩
  | 61 => ⟨S4096, .i32⟩
  | 62 => ⟨S4096, .i32⟩
  | 63 => ⟨S8x1x1024x1024, .i32⟩
  | 64 => ⟨S_, .i32⟩
  | 65 => ⟨S_, .i32⟩
  | 66 => ⟨S4096, .i32⟩
  | 67 => ⟨S4096, .i1⟩
  | 68 => ⟨S_, .i32⟩
  | 69 => ⟨S_, .i32⟩
  | 70 => ⟨S4096, .i32⟩
  | 71 => ⟨S4096, .i32⟩
  | 72 => ⟨S_, .i32⟩
  | 73 => ⟨S_, .i32⟩
  | 74 => ⟨S4096, .i32⟩
  | 75 => ⟨S4096, .i32⟩
  | 76 => ⟨S_, .i32⟩
  | 77 => ⟨S_, .i32⟩
  | 78 => ⟨S4096, .i32⟩
  | 79 => ⟨S4096, .i32⟩
  | 80 => ⟨S_, .i32⟩
  | 81 => ⟨S_, .i32⟩
  | 82 => ⟨S4096, .i32⟩
  | 83 => ⟨S4096, .i32⟩
  | 84 => ⟨S4096x1, .i32⟩
  | 85 => ⟨S4096x1, .i32⟩
  | 86 => ⟨S4096x1, .i32⟩
  | 87 => ⟨S4096x1, .i32⟩
  | 88 => ⟨S4096x4, .i32⟩
  | _ => ⟨S8x1x1024x1024, .f32⟩

abbrev hbmTy (i : Nat) : BufTy := match i / 128 with
  | 0 => hbmTy0_0 i
  | 1 => hbmTy0_1 i
  | _ => ⟨S8x1x1024x1024, .f32⟩

abbrev bufTy : (tb : Table) → Fin (tcTables nBuf tb) → BufTy
  | .hbm, ⟨i, _⟩ => hbmTy i
  | _, _ => ⟨S8x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_call0_c : Ref sig .tc := ⟨.hbm, 11, rfl⟩
abbrev main_call0_call0_v0 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_c_1 : Ref sig .tc := ⟨.hbm, 16, rfl⟩
abbrev main_call1_v0 : Ref sig .tc := ⟨.hbm, 17, rfl⟩
abbrev main_call1_v1 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_4 : Ref sig .tc := ⟨.hbm, 28, rfl⟩
abbrev main_v15 : Ref sig .tc := ⟨.hbm, 29, rfl⟩
abbrev main_v16 : Ref sig .tc := ⟨.hbm, 30, rfl⟩
abbrev main_call2_call0_c : Ref sig .tc := ⟨.hbm, 31, rfl⟩
abbrev main_call2_call0_v0 : Ref sig .tc := ⟨.hbm, 32, rfl⟩
abbrev main_v17 : Ref sig .tc := ⟨.hbm, 33, rfl⟩
abbrev main_c_5 : Ref sig .tc := ⟨.hbm, 34, rfl⟩
abbrev main_call3_v0 : Ref sig .tc := ⟨.hbm, 35, rfl⟩
abbrev main_call3_v1 : Ref sig .tc := ⟨.hbm, 36, rfl⟩
abbrev main_call3_v2 : Ref sig .tc := ⟨.hbm, 37, rfl⟩
abbrev main_call3_v3 : Ref sig .tc := ⟨.hbm, 38, rfl⟩
abbrev main_call3_v4 : Ref sig .tc := ⟨.hbm, 39, rfl⟩
abbrev main_call3_v5 : Ref sig .tc := ⟨.hbm, 40, rfl⟩
abbrev main_call3_v6 : Ref sig .tc := ⟨.hbm, 41, rfl⟩
abbrev main_call3_v7 : Ref sig .tc := ⟨.hbm, 42, rfl⟩
abbrev main_call3_c : Ref sig .tc := ⟨.hbm, 43, rfl⟩
abbrev main_call3_v8 : Ref sig .tc := ⟨.hbm, 44, rfl⟩
abbrev main_call3_v9 : Ref sig .tc := ⟨.hbm, 45, rfl⟩
abbrev main_call3_v10 : Ref sig .tc := ⟨.hbm, 46, rfl⟩
abbrev main_call3_c_0 : Ref sig .tc := ⟨.hbm, 47, rfl⟩
abbrev main_call3_v11 : Ref sig .tc := ⟨.hbm, 48, rfl⟩
abbrev main_call3_v12 : Ref sig .tc := ⟨.hbm, 49, rfl⟩
abbrev main_v18 : Ref sig .tc := ⟨.hbm, 50, rfl⟩
abbrev main_c_6 : Ref sig .tc := ⟨.hbm, 51, rfl⟩
abbrev main_call4_v0 : Ref sig .tc := ⟨.hbm, 52, rfl⟩
abbrev main_call4_c : Ref sig .tc := ⟨.hbm, 53, rfl⟩
abbrev main_call4_v1 : Ref sig .tc := ⟨.hbm, 54, rfl⟩
abbrev main_call4_c_0 : Ref sig .tc := ⟨.hbm, 55, rfl⟩
abbrev main_call4_v2 : Ref sig .tc := ⟨.hbm, 56, rfl⟩
abbrev main_call4_v3 : Ref sig .tc := ⟨.hbm, 57, rfl⟩
abbrev main_call4_v4 : Ref sig .tc := ⟨.hbm, 58, rfl⟩
abbrev main_call4_c_1 : Ref sig .tc := ⟨.hbm, 59, rfl⟩
abbrev main_call4_v5 : Ref sig .tc := ⟨.hbm, 60, rfl⟩
abbrev main_call4_v6 : Ref sig .tc := ⟨.hbm, 61, rfl⟩
abbrev main_call4_c_2 : Ref sig .tc := ⟨.hbm, 62, rfl⟩
abbrev main_call4_v7 : Ref sig .tc := ⟨.hbm, 63, rfl⟩
abbrev main_call4_v8 : Ref sig .tc := ⟨.hbm, 64, rfl⟩
abbrev main_call4_c_3 : Ref sig .tc := ⟨.hbm, 65, rfl⟩
abbrev main_call4_v9 : Ref sig .tc := ⟨.hbm, 66, rfl⟩
abbrev main_call4_v10 : Ref sig .tc := ⟨.hbm, 67, rfl⟩
abbrev main_call4_v11 : Ref sig .tc := ⟨.hbm, 68, rfl⟩
abbrev main_call4_v12 : Ref sig .tc := ⟨.hbm, 69, rfl⟩
abbrev main_call4_v13 : Ref sig .tc := ⟨.hbm, 70, rfl⟩
abbrev main_call4_v14 : Ref sig .tc := ⟨.hbm, 71, rfl⟩
abbrev main_v19 : Ref sig .tc := ⟨.hbm, 72, rfl⟩
abbrev main_c_7 : Ref sig .tc := ⟨.hbm, 73, rfl⟩
abbrev main_call5_v0 : Ref sig .tc := ⟨.hbm, 74, rfl⟩
abbrev main_call5_v1 : Ref sig .tc := ⟨.hbm, 75, rfl⟩
abbrev main_call5_v2 : Ref sig .tc := ⟨.hbm, 76, rfl⟩
abbrev main_call5_v3 : Ref sig .tc := ⟨.hbm, 77, rfl⟩
abbrev main_call5_v4 : Ref sig .tc := ⟨.hbm, 78, rfl⟩
abbrev main_call5_v5 : Ref sig .tc := ⟨.hbm, 79, rfl⟩
abbrev main_call5_v6 : Ref sig .tc := ⟨.hbm, 80, rfl⟩
abbrev main_call5_v7 : Ref sig .tc := ⟨.hbm, 81, rfl⟩
abbrev main_call5_c : Ref sig .tc := ⟨.hbm, 82, rfl⟩
abbrev main_call5_v8 : Ref sig .tc := ⟨.hbm, 83, rfl⟩
abbrev main_call5_v9 : Ref sig .tc := ⟨.hbm, 84, rfl⟩
abbrev main_call5_v10 : Ref sig .tc := ⟨.hbm, 85, rfl⟩
abbrev main_call5_c_0 : Ref sig .tc := ⟨.hbm, 86, rfl⟩
abbrev main_call5_v11 : Ref sig .tc := ⟨.hbm, 87, rfl⟩
abbrev main_call5_v12 : Ref sig .tc := ⟨.hbm, 88, rfl⟩
abbrev main_v20 : Ref sig .tc := ⟨.hbm, 89, rfl⟩
abbrev main_c_8 : Ref sig .tc := ⟨.hbm, 90, rfl⟩
abbrev main_call6_v0 : Ref sig .tc := ⟨.hbm, 91, rfl⟩
abbrev main_call6_c : Ref sig .tc := ⟨.hbm, 92, rfl⟩
abbrev main_call6_v1 : Ref sig .tc := ⟨.hbm, 93, rfl⟩
abbrev main_call6_c_0 : Ref sig .tc := ⟨.hbm, 94, rfl⟩
abbrev main_call6_v2 : Ref sig .tc := ⟨.hbm, 95, rfl⟩
abbrev main_call6_v3 : Ref sig .tc := ⟨.hbm, 96, rfl⟩
abbrev main_call6_v4 : Ref sig .tc := ⟨.hbm, 97, rfl⟩
abbrev main_call6_c_1 : Ref sig .tc := ⟨.hbm, 98, rfl⟩
abbrev main_call6_v5 : Ref sig .tc := ⟨.hbm, 99, rfl⟩
abbrev main_call6_v6 : Ref sig .tc := ⟨.hbm, 100, rfl⟩
abbrev main_call6_c_2 : Ref sig .tc := ⟨.hbm, 101, rfl⟩
abbrev main_call6_v7 : Ref sig .tc := ⟨.hbm, 102, rfl⟩
abbrev main_call6_v8 : Ref sig .tc := ⟨.hbm, 103, rfl⟩
abbrev main_call6_c_3 : Ref sig .tc := ⟨.hbm, 104, rfl⟩
abbrev main_call6_v9 : Ref sig .tc := ⟨.hbm, 105, rfl⟩
abbrev main_call6_v10 : Ref sig .tc := ⟨.hbm, 106, rfl⟩
abbrev main_call6_v11 : Ref sig .tc := ⟨.hbm, 107, rfl⟩
abbrev main_call6_v12 : Ref sig .tc := ⟨.hbm, 108, rfl⟩
abbrev main_call6_v13 : Ref sig .tc := ⟨.hbm, 109, rfl⟩
abbrev main_call6_v14 : Ref sig .tc := ⟨.hbm, 110, rfl⟩
abbrev main_v21 : Ref sig .tc := ⟨.hbm, 111, rfl⟩
abbrev main_c_9 : Ref sig .tc := ⟨.hbm, 112, rfl⟩
abbrev main_call7_v0 : Ref sig .tc := ⟨.hbm, 113, rfl⟩
abbrev main_call7_v1 : Ref sig .tc := ⟨.hbm, 114, rfl⟩
abbrev main_call7_v2 : Ref sig .tc := ⟨.hbm, 115, rfl⟩
abbrev main_call7_v3 : Ref sig .tc := ⟨.hbm, 116, rfl⟩
abbrev main_call7_v4 : Ref sig .tc := ⟨.hbm, 117, rfl⟩
abbrev main_call7_v5 : Ref sig .tc := ⟨.hbm, 118, rfl⟩
abbrev main_call7_v6 : Ref sig .tc := ⟨.hbm, 119, rfl⟩
abbrev main_call7_v7 : Ref sig .tc := ⟨.hbm, 120, rfl⟩
abbrev main_call7_c : Ref sig .tc := ⟨.hbm, 121, rfl⟩
abbrev main_call7_v8 : Ref sig .tc := ⟨.hbm, 122, rfl⟩
abbrev main_call7_v9 : Ref sig .tc := ⟨.hbm, 123, rfl⟩
abbrev main_call7_v10 : Ref sig .tc := ⟨.hbm, 124, rfl⟩
abbrev main_call7_c_0 : Ref sig .tc := ⟨.hbm, 125, rfl⟩
abbrev main_call7_v11 : Ref sig .tc := ⟨.hbm, 126, rfl⟩
abbrev main_call7_v12 : Ref sig .tc := ⟨.hbm, 127, rfl⟩
abbrev main_v22 : Ref sig .tc := ⟨.hbm, 128, rfl⟩
abbrev main_c_10 : Ref sig .tc := ⟨.hbm, 129, rfl⟩
abbrev main_call8_v0 : Ref sig .tc := ⟨.hbm, 130, rfl⟩
abbrev main_call8_c : Ref sig .tc := ⟨.hbm, 131, rfl⟩
abbrev main_call8_v1 : Ref sig .tc := ⟨.hbm, 132, rfl⟩
abbrev main_call8_c_0 : Ref sig .tc := ⟨.hbm, 133, rfl⟩
abbrev main_call8_v2 : Ref sig .tc := ⟨.hbm, 134, rfl⟩
abbrev main_call8_v3 : Ref sig .tc := ⟨.hbm, 135, rfl⟩
abbrev main_call8_v4 : Ref sig .tc := ⟨.hbm, 136, rfl⟩
abbrev main_call8_c_1 : Ref sig .tc := ⟨.hbm, 137, rfl⟩
abbrev main_call8_v5 : Ref sig .tc := ⟨.hbm, 138, rfl⟩
abbrev main_call8_v6 : Ref sig .tc := ⟨.hbm, 139, rfl⟩
abbrev main_call8_c_2 : Ref sig .tc := ⟨.hbm, 140, rfl⟩
abbrev main_call8_v7 : Ref sig .tc := ⟨.hbm, 141, rfl⟩
abbrev main_call8_v8 : Ref sig .tc := ⟨.hbm, 142, rfl⟩
abbrev main_call8_c_3 : Ref sig .tc := ⟨.hbm, 143, rfl⟩
abbrev main_call8_v9 : Ref sig .tc := ⟨.hbm, 144, rfl⟩
abbrev main_call8_v10 : Ref sig .tc := ⟨.hbm, 145, rfl⟩
abbrev main_call8_v11 : Ref sig .tc := ⟨.hbm, 146, rfl⟩
abbrev main_call8_v12 : Ref sig .tc := ⟨.hbm, 147, rfl⟩
abbrev main_call8_v13 : Ref sig .tc := ⟨.hbm, 148, rfl⟩
abbrev main_call8_v14 : Ref sig .tc := ⟨.hbm, 149, rfl⟩
abbrev main_v23 : Ref sig .tc := ⟨.hbm, 150, rfl⟩
abbrev main_c_11 : Ref sig .tc := ⟨.hbm, 151, rfl⟩
abbrev main_call9_v0 : Ref sig .tc := ⟨.hbm, 152, rfl⟩
abbrev main_call9_v1 : Ref sig .tc := ⟨.hbm, 153, rfl⟩
abbrev main_call9_v2 : Ref sig .tc := ⟨.hbm, 154, rfl⟩
abbrev main_call9_v3 : Ref sig .tc := ⟨.hbm, 155, rfl⟩
abbrev main_call9_v4 : Ref sig .tc := ⟨.hbm, 156, rfl⟩
abbrev main_call9_v5 : Ref sig .tc := ⟨.hbm, 157, rfl⟩
abbrev main_call9_v6 : Ref sig .tc := ⟨.hbm, 158, rfl⟩
abbrev main_call9_v7 : Ref sig .tc := ⟨.hbm, 159, rfl⟩
abbrev main_call9_c : Ref sig .tc := ⟨.hbm, 160, rfl⟩
abbrev main_call9_v8 : Ref sig .tc := ⟨.hbm, 161, rfl⟩
abbrev main_call9_v9 : Ref sig .tc := ⟨.hbm, 162, rfl⟩
abbrev main_call9_v10 : Ref sig .tc := ⟨.hbm, 163, rfl⟩
abbrev main_call9_c_0 : Ref sig .tc := ⟨.hbm, 164, rfl⟩
abbrev main_call9_v11 : Ref sig .tc := ⟨.hbm, 165, rfl⟩
abbrev main_call9_v12 : Ref sig .tc := ⟨.hbm, 166, rfl⟩
abbrev main_v24 : Ref sig .tc := ⟨.hbm, 167, rfl⟩
abbrev main_c_12 : Ref sig .tc := ⟨.hbm, 168, rfl⟩
abbrev main_call10_v0 : Ref sig .tc := ⟨.hbm, 169, rfl⟩
abbrev main_call10_c : Ref sig .tc := ⟨.hbm, 170, rfl⟩
abbrev main_call10_v1 : Ref sig .tc := ⟨.hbm, 171, rfl⟩
abbrev main_call10_c_0 : Ref sig .tc := ⟨.hbm, 172, rfl⟩
abbrev main_call10_v2 : Ref sig .tc := ⟨.hbm, 173, rfl⟩
abbrev main_call10_v3 : Ref sig .tc := ⟨.hbm, 174, rfl⟩
abbrev main_call10_v4 : Ref sig .tc := ⟨.hbm, 175, rfl⟩
abbrev main_call10_c_1 : Ref sig .tc := ⟨.hbm, 176, rfl⟩
abbrev main_call10_v5 : Ref sig .tc := ⟨.hbm, 177, rfl⟩
abbrev main_call10_v6 : Ref sig .tc := ⟨.hbm, 178, rfl⟩
abbrev main_call10_c_2 : Ref sig .tc := ⟨.hbm, 179, rfl⟩
abbrev main_call10_v7 : Ref sig .tc := ⟨.hbm, 180, rfl⟩
abbrev main_call10_v8 : Ref sig .tc := ⟨.hbm, 181, rfl⟩
abbrev main_call10_c_3 : Ref sig .tc := ⟨.hbm, 182, rfl⟩
abbrev main_call10_v9 : Ref sig .tc := ⟨.hbm, 183, rfl⟩
abbrev main_call10_v10 : Ref sig .tc := ⟨.hbm, 184, rfl⟩
abbrev main_call10_v11 : Ref sig .tc := ⟨.hbm, 185, rfl⟩
abbrev main_call10_v12 : Ref sig .tc := ⟨.hbm, 186, rfl⟩
abbrev main_call10_v13 : Ref sig .tc := ⟨.hbm, 187, rfl⟩
abbrev main_call10_v14 : Ref sig .tc := ⟨.hbm, 188, rfl⟩
abbrev main_v25 : Ref sig .tc := ⟨.hbm, 189, rfl⟩
abbrev main_v26 : Ref sig .tc := ⟨.hbm, 190, rfl⟩
abbrev main_v27 : Ref sig .tc := ⟨.hbm, 191, rfl⟩
abbrev main_c_13 : Ref sig .tc := ⟨.hbm, 192, rfl⟩
abbrev main_v28 : Ref sig .tc := ⟨.hbm, 193, rfl⟩
abbrev main_v29 : Ref sig .tc := ⟨.hbm, 194, rfl⟩
abbrev main_v30 : Ref sig .tc := ⟨.hbm, 195, rfl⟩
abbrev main_c_14 : Ref sig .tc := ⟨.hbm, 196, rfl⟩
abbrev main_call11_v0 : Ref sig .tc := ⟨.hbm, 197, rfl⟩
abbrev main_call11_v1 : Ref sig .tc := ⟨.hbm, 198, rfl⟩
abbrev main_v31 : Ref sig .tc := ⟨.hbm, 199, rfl⟩
abbrev main_c_15 : Ref sig .tc := ⟨.hbm, 200, rfl⟩
abbrev main_call12_v0 : Ref sig .tc := ⟨.hbm, 201, rfl⟩
abbrev main_call12_v1 : Ref sig .tc := ⟨.hbm, 202, rfl⟩
abbrev main_v32 : Ref sig .tc := ⟨.hbm, 203, rfl⟩
abbrev main_c_16 : Ref sig .tc := ⟨.hbm, 204, rfl⟩
abbrev main_call13_v0 : Ref sig .tc := ⟨.hbm, 205, rfl⟩
abbrev main_call13_v1 : Ref sig .tc := ⟨.hbm, 206, rfl⟩
abbrev main_v33 : Ref sig .tc := ⟨.hbm, 207, rfl⟩
abbrev main_c_17 : Ref sig .tc := ⟨.hbm, 208, rfl⟩
abbrev main_call14_v0 : Ref sig .tc := ⟨.hbm, 209, rfl⟩
abbrev main_call14_v1 : Ref sig .tc := ⟨.hbm, 210, rfl⟩
abbrev main_v34 : Ref sig .tc := ⟨.hbm, 211, rfl⟩
abbrev main_v35 : Ref sig .tc := ⟨.hbm, 212, rfl⟩
abbrev main_v36 : Ref sig .tc := ⟨.hbm, 213, rfl⟩
abbrev main_v37 : Ref sig .tc := ⟨.hbm, 214, rfl⟩
abbrev main_v38 : Ref sig .tc := ⟨.hbm, 215, rfl⟩
abbrev main_v39 : Ref sig .tc := ⟨.hbm, 216, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S8x1x1024x1024_S8x1x1024x1024_w1s1p0_0_w1s1p0_0_w51s1p25_25_w51s1p25_25 : S8x1x1024x1024.ReduceWindows (![1, 1, 51, 51] : Fin 4 → Nat) ![1, 1, 1, 1] ![0, 0, 25, 25] ![0, 0, 25, 25] S8x1x1024x1024
  h_S_ : 0 < S_.numel
  bcast_S_S8x1x1024x1024 : S_.BroadcastsInDim S8x1x1024x1024 (![] : Fin 0 → Fin S8x1x1024x1024.rank)
  shapeCasts_S8x1x1024x1024_S8388608 : S8x1x1024x1024.ShapeCasts S8388608
  natLt_1_32 : 1 < 32
  reduceWindows_S8388608_S8388608_w8388608s1p8388607_0 : S8388608.ReduceWindows (![8388608] : Fin 1 → Nat) ![1] ![8388607] ![0] S8388608
  bcast_S_S4096 : S_.BroadcastsInDim S4096 (![] : Fin 0 → Fin S4096.rank)
  bcast_S_S8388608 : S_.BroadcastsInDim S8388608 (![] : Fin 0 → Fin S8388608.rank)
  bcast_S8388608_S8388608x1_0 : S8388608.BroadcastsInDim S8388608x1 (![0] : Fin 1 → Fin S8388608x1.rank)
  reduceWindows_S4096_S4096_w4096s1p4095_0 : S4096.ReduceWindows (![4096] : Fin 1 → Nat) ![1] ![4095] ![0] S4096
  reducesTo_S8x1x1024x1024_S_d0_1_2_3 : S8x1x1024x1024.ReducesTo [0, 1, 2, 3] S_
  bcast_S4096_S4096x1_0 : S4096.BroadcastsInDim S4096x1 (![0] : Fin 1 → Fin S4096x1.rank)
  concatenates_S4096x1_S4096x1_S4096x1_S4096x1_S4096x4_d1 : Shape.Concatenates [S4096x1, S4096x1, S4096x1, S4096x1] S4096x4 1
  scatter_S4096_S8388608x1_S8388608_n_0_0_1_wf : ScatterDims.WF S4096 S8388608x1 S8388608 [] [0] [0] 1

variable [Facts₀]

def scatter_S4096_S8388608x1_S8388608_n_0_0_1 : ScatterDims S4096 S8388608x1 S8388608 where
  updateWindowDims := []
  insertedWindowDims := [0]
  scatterDimsToOperandDims := [0]
  indexVectorDim := 1
  wf := scatter_S4096_S8388608x1_S8388608_n_0_0_1_wf

class Facts : Prop extends Facts₀ where

variable [Facts]
-- ==== Proof.KernelFr.Body.lean ====
/-
  One grid point of the peak-detection kernel, run symbolically. The body reads the point's padded image block
  (1080 x 1074), writes the row-wise running maximum of every 51 consecutive columns into a scratch of 1080 x 1024
  in nine slabs of 120 rows, reads that scratch back in eight overlapping slabs of 184 rows to take the column-wise
  maximum of 51 consecutive rows, compares with the centre of the window and with one half, and stores the 0/1 mask
  into the point's output block in eight slabs of 128 rows. Stated here: started with the input block at contents
  x0 and the output block and the scratch at anything, the body ends with the input block unchanged and the other
  two holding the listed pieces (last store first), which the symbolic run finds.
-/
import proofs.«136169_j81922206204546_2_alg».proof.Proof.Gen.Kernel.Launch
import proofs.«136169_j81922206204546_2_alg».proof.Proof.Gen.Kernel.Skeleton
import proofs.«136169_j81922206204546_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the output block (`L1`) and in the scratch (`LS0`), with the triple that
    says so. -/
noncomputable def kernelRun0 (c : Dev nD) (i : grid0.Coords)
    (arg1 : Memref sig .tc .vmem S1x1x1080x1074 .f32) (harg1 : arg1.IsWhole)
    (arg2 : Memref sig .tc .vmem S1x1x1024x1024 .f32) (harg2 : arg2.IsWhole)
    (arg3 : Memref sig .tc .vmem S1080x1024 .f32) (harg3 : arg3.IsWhole)
    (x0 : Vec F S1x1x1080x1074 .f32) :
    Σ' (L1 : List (View.Piece (Elt F) S1x1x1024x1024 .f32)), { LS0 : List (View.Piece (Elt F) S1080x1024 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0)) -∗ K ⟨⟩))
          ⊢ wp frame (wpE (defs₀ (F := F)) Variants.none c none) E (cc0__nms_kernel i arg1 harg1 arg2 harg2 arg3 harg3) K } := by
  refine ⟨?_, ?_, fun E K => ?run⟩
  case run =>
    simp only [cc0__nms_kernel_eq_skeleton]; unfold cc0__nms_kernel_skel
    unfold owns
    iintro ⟨⟨%f0, %hf0, H0⟩, ⟨%d1, %f1, -, H1⟩, ⟨%ds0, %fs0, -, HS0⟩, Hk⟩
    obtain rfl := harg1.eq_unread hf0
    sl_exec
    sl_step
    iapply Hk
    isplitl [H0]
    · iexists _; isplitr; · ipureintro; exact harg1.read_unread _
      iexact H0
    isplitl [H1]; · iexists _; iexact H1
    iexists _; iexact HS0

end Cert.Kernel.Fr

end
-- ==== Proof.KernelFr.Kit.lean ====
/-
  The program around its one pallas_call: two stretches of host lines build the padded image (a constant minus
  infinity, then the pad to 1080 x 1074 per image), the region computes the 0/1 peak mask, and thirty-one stretches
  of host lines turn the mask into the table of peak coordinates. Stated here: what every buffer holds when the region
  is entered (`V0`), that the program is those lines, the region, and the later lines in order (`hmain`), and that no
  later line allocates, leaves the device buffers, or writes the argument, the padded image or the mask.
-/
import proofs.«136169_j81922206204546_2_alg».proof.Proof.KernelFr.Body

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host lines before the region, stretch by stretch. -/
abbrev preOps : List (List (HloOp τ sig (Elt F))) := [hostOps0, hostOps0_1]
/-- The host lines after the region, stretch by stretch. -/
abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26, hostOps1_27, hostOps1_28, hostOps1_29, hostOps1_30]

/-- Core `c`'s buffer contents when the region is entered: the memory after the lines before it. -/
abbrev V0 (c : Dev nD) : Valuation τ sig (Elt F) := StableHlo.after (List.flatten (preOps (F := F))) (fun b => m (c, b))
/-- The same read at a TensorCore reference. -/
abbrev V (c : Dev nD) (b : Ref sig .tc) : Buf (Elt F) ((c : Thread nD τ).loc b) := V0 m c (Proc.devRef .tc b)

/-- No write to the argument, the padded image or the mask. -/
def Untouched (op : HloOp τ sig (Elt F)) : Prop :=
  Proc.devRef (τ := τ) .tc main_arg0 ∉ op.writes ∧ Proc.devRef (τ := τ) .tc main_v0 ∉ op.writes ∧ Proc.devRef (τ := τ) .tc main_v1 ∉ op.writes

/-- Closes "no operation of this stretch writes the argument, the padded image or the mask": each operation writes
    its one result buffer, a different reference. -/
macro "untouched_tac" : tactic => `(tactic| (
  simp only [List.Forall]
  repeat' constructor
  all_goals (
    simp only [StableHlo.nullary_writes, StableHlo.unary_writes, StableHlo.binary_writes, StableHlo.ternary_writes,
      StableHlo.quaternary_writes, StableHlo.reshape_writes, StableHlo.binaryIndexed_writes, StableHlo.nary_writes,
      StableHlo.unaryIndexed_writes, Finset.mem_singleton]
    exact StableHlo.devRef_ne_of_ne (by decide))))

/-- Closes "no operation of this stretch allocates". -/
macro "fresh_tac" : tactic => `(tactic| (simp only [List.Forall]; repeat' constructor))

theorem hostOps1_untouched : (hostOps1 : List (HloOp τ sig (Elt F))).Forall fun op => Untouched op := by untouched_tac
theorem hostOps1_fresh : (hostOps1 : List (HloOp τ sig (Elt F))).Forall fun op => op.fresh = ∅ := by fresh_tac
theorem hostOps1_1_untouched : (hostOps1_1 : List (HloOp τ sig (Elt F))).Forall fun op => Untouched op := by untouched_tac
theorem hostOps1_1_fresh : (hostOps1_1 : List (HloOp τ sig (Elt F))).Forall fun op => op.fresh = ∅ := by fresh_tac
theorem hostOps1_2_untouched : (hostOps1_2 : List (HloOp τ sig (Elt F))).Forall fun op => Untouched op := by untouched_tac
theorem hostOps1_2_fresh : (hostOps1_2 : List (HloOp τ sig (Elt F))).Forall fun op => op.fresh = ∅ := by fresh_tac
theorem hostOps1_3_untouched : (hostOps1_3 : List (HloOp τ sig (Elt F))).Forall fun op => Untouched op := by untouched_tac
theorem hostOps1_3_fresh : (hostOps1_3 : List (HloOp τ sig (Elt F))).Forall fun op => op.fresh = ∅ := by fresh_tac
theorem hostOps1_4_untouched : (hostOps1_4 : List (HloOp τ sig (Elt F))).Forall fun op => Untouched op := by untouched_tac
theorem hostOps1_4_fresh : (hostOps1_4 : List (HloOp τ sig (Elt F))).Forall fun op => op.fresh = ∅ := by fresh_tac
theorem hostOps1_5_untouched : (hostOps1_5 : List (HloOp τ sig (Elt F))).Forall fun op => Untouched op := by untouched_tac
theorem hostOps1_5_fresh : (hostOps1_5 : List (HloOp τ sig (Elt F))).Forall fun op => op.fresh = ∅ := by fresh_tac
theorem hostOps1_6_untouched : (hostOps1_6 : List (HloOp τ sig (Elt F))).Forall fun op => Untouched op := by untouched_tac
theorem hostOps1_6_fresh : (hostOps1_6 : List (HloOp τ sig (Elt F))).Forall fun op => op.fresh = ∅ := by fresh_tac
theorem hostOps1_7_untouched : (hostOps1_7 : List (HloOp τ sig (Elt F))).Forall fun op => Untouched op := by untouched_tac
theorem hostOps1_7_fresh : (hostOps1_7 : List (HloOp τ sig (Elt F))).Forall fun op => op.fresh = ∅ := by fresh_tac
theorem hostOps1_8_untouched : (hostOps1_8 : List (HloOp τ sig (Elt F))).Forall fun op => Untouched op := by untouched_tac
theorem hostOps1_8_fresh : (hostOps1_8 : List (HloOp τ sig (Elt F))).Forall fun op => op.fresh = ∅ := by fresh_tac
theorem hostOps1_9_untouched : (hostOps1_9 : List (HloOp τ sig (Elt F))).Forall fun op => Untouched op := by untouched_tac
theorem hostOps1_9_fresh : (hostOps1_9 : List (HloOp τ sig (Elt F))).Forall fun op => op.fresh = ∅ := by fresh_tac
theorem hostOps1_10_untouched : (hostOps1_10 : List (HloOp τ sig (Elt F))).Forall fun op => Untouched op := by untouched_tac
theorem hostOps1_10_fresh : (hostOps1_10 : List (HloOp τ sig (Elt F))).Forall fun op => op.fresh = ∅ := by fresh_tac
theorem hostOps1_11_untouched : (hostOps1_11 : List (HloOp τ sig (Elt F))).Forall fun op => Untouched op := by untouched_tac
theorem hostOps1_11_fresh : (hostOps1_11 : List (HloOp τ sig (Elt F))).Forall fun op => op.fresh = ∅ := by fresh_tac
theorem hostOps1_12_untouched : (hostOps1_12 : List (HloOp τ sig (Elt F))).Forall fun op => Untouched op := by untouched_tac
theorem hostOps1_12_fresh : (hostOps1_12 : List (HloOp τ sig (Elt F))).Forall fun op => op.fresh = ∅ := by fresh_tac
theorem hostOps1_13_untouched : (hostOps1_13 : List (HloOp τ sig (Elt F))).Forall fun op => Untouched op := by untouched_tac
theorem hostOps1_13_fresh : (hostOps1_13 : List (HloOp τ sig (Elt F))).Forall fun op => op.fresh = ∅ := by fresh_tac
theorem hostOps1_14_untouched : (hostOps1_14 : List (HloOp τ sig (Elt F))).Forall fun op => Untouched op := by untouched_tac
theorem hostOps1_14_fresh : (hostOps1_14 : List (HloOp τ sig (Elt F))).Forall fun op => op.fresh = ∅ := by fresh_tac
theorem hostOps1_15_untouched : (hostOps1_15 : List (HloOp τ sig (Elt F))).Forall fun op => Untouched op := by untouched_tac
theorem hostOps1_15_fresh : (hostOps1_15 : List (HloOp τ sig (Elt F))).Forall fun op => op.fresh = ∅ := by fresh_tac
theorem hostOps1_16_untouched : (hostOps1_16 : List (HloOp τ sig (Elt F))).Forall fun op => Untouched op := by untouched_tac
theorem hostOps1_16_fresh : (hostOps1_16 : List (HloOp τ sig (Elt F))).Forall fun op => op.fresh = ∅ := by fresh_tac
theorem hostOps1_17_untouched : (hostOps1_17 : List (HloOp τ sig (Elt F))).Forall fun op => Untouched op := by untouched_tac
theorem hostOps1_17_fresh : (hostOps1_17 : List (HloOp τ sig (Elt F))).Forall fun op => op.fresh = ∅ := by fresh_tac
theorem hostOps1_18_untouched : (hostOps1_18 : List (HloOp τ sig (Elt F))).Forall fun op => Untouched op := by untouched_tac
theorem hostOps1_18_fresh : (hostOps1_18 : List (HloOp τ sig (Elt F))).Forall fun op => op.fresh = ∅ := by fresh_tac
theorem hostOps1_19_untouched : (hostOps1_19 : List (HloOp τ sig (Elt F))).Forall fun op => Untouched op := by untouched_tac
theorem hostOps1_19_fresh : (hostOps1_19 : List (HloOp τ sig (Elt F))).Forall fun op => op.fresh = ∅ := by fresh_tac
theorem hostOps1_20_untouched : (hostOps1_20 : List (HloOp τ sig (Elt F))).Forall fun op => Untouched op := by untouched_tac
theorem hostOps1_20_fresh : (hostOps1_20 : List (HloOp τ sig (Elt F))).Forall fun op => op.fresh = ∅ := by fresh_tac
theorem hostOps1_21_untouched : (hostOps1_21 : List (HloOp τ sig (Elt F))).Forall fun op => Untouched op := by untouched_tac
theorem hostOps1_21_fresh : (hostOps1_21 : List (HloOp τ sig (Elt F))).Forall fun op => op.fresh = ∅ := by fresh_tac
theorem hostOps1_22_untouched : (hostOps1_22 : List (HloOp τ sig (Elt F))).Forall fun op => Untouched op := by untouched_tac
theorem hostOps1_22_fresh : (hostOps1_22 : List (HloOp τ sig (Elt F))).Forall fun op => op.fresh = ∅ := by fresh_tac
theorem hostOps1_23_untouched : (hostOps1_23 : List (HloOp τ sig (Elt F))).Forall fun op => Untouched op := by untouched_tac
theorem hostOps1_23_fresh : (hostOps1_23 : List (HloOp τ sig (Elt F))).Forall fun op => op.fresh = ∅ := by fresh_tac
theorem hostOps1_24_untouched : (hostOps1_24 : List (HloOp τ sig (Elt F))).Forall fun op => Untouched op := by untouched_tac
theorem hostOps1_24_fresh : (hostOps1_24 : List (HloOp τ sig (Elt F))).Forall fun op => op.fresh = ∅ := by fresh_tac
theorem hostOps1_25_untouched : (hostOps1_25 : List (HloOp τ sig (Elt F))).Forall fun op => Untouched op := by untouched_tac
theorem hostOps1_25_fresh : (hostOps1_25 : List (HloOp τ sig (Elt F))).Forall fun op => op.fresh = ∅ := by fresh_tac
theorem hostOps1_26_untouched : (hostOps1_26 : List (HloOp τ sig (Elt F))).Forall fun op => Untouched op := by untouched_tac
theorem hostOps1_26_fresh : (hostOps1_26 : List (HloOp τ sig (Elt F))).Forall fun op => op.fresh = ∅ := by fresh_tac
theorem hostOps1_27_untouched : (hostOps1_27 : List (HloOp τ sig (Elt F))).Forall fun op => Untouched op := by untouched_tac
theorem hostOps1_27_fresh : (hostOps1_27 : List (HloOp τ sig (Elt F))).Forall fun op => op.fresh = ∅ := by fresh_tac
theorem hostOps1_28_untouched : (hostOps1_28 : List (HloOp τ sig (Elt F))).Forall fun op => Untouched op := by untouched_tac
theorem hostOps1_28_fresh : (hostOps1_28 : List (HloOp τ sig (Elt F))).Forall fun op => op.fresh = ∅ := by fresh_tac
theorem hostOps1_29_untouched : (hostOps1_29 : List (HloOp τ sig (Elt F))).Forall fun op => Untouched op := by untouched_tac
theorem hostOps1_29_fresh : (hostOps1_29 : List (HloOp τ sig (Elt F))).Forall fun op => op.fresh = ∅ := by fresh_tac
theorem hostOps1_30_untouched : (hostOps1_30 : List (HloOp τ sig (Elt F))).Forall fun op => Untouched op := by untouched_tac
theorem hostOps1_30_fresh : (hostOps1_30 : List (HloOp τ sig (Elt F))).Forall fun op => op.fresh = ∅ := by fresh_tac
theorem hostOps0_fresh : (hostOps0 : List (HloOp τ sig (Elt F))).Forall fun op => op.fresh = ∅ := by fresh_tac
theorem hostOps0_1_fresh : (hostOps0_1 : List (HloOp τ sig (Elt F))).Forall fun op => op.fresh = ∅ := by fresh_tac

theorem tail_untouched : (tailOps (F := F)).Forall fun ops => ops.Forall fun op => Untouched op :=
  ⟨hostOps1_untouched, hostOps1_1_untouched, hostOps1_2_untouched, hostOps1_3_untouched, hostOps1_4_untouched, hostOps1_5_untouched, hostOps1_6_untouched, hostOps1_7_untouched, hostOps1_8_untouched, hostOps1_9_untouched, hostOps1_10_untouched, hostOps1_11_untouched, hostOps1_12_untouched, hostOps1_13_untouched, hostOps1_14_untouched, hostOps1_15_untouched, hostOps1_16_untouched, hostOps1_17_untouched, hostOps1_18_untouched, hostOps1_19_untouched, hostOps1_20_untouched, hostOps1_21_untouched, hostOps1_22_untouched, hostOps1_23_untouched, hostOps1_24_untouched, hostOps1_25_untouched, hostOps1_26_untouched, hostOps1_27_untouched, hostOps1_28_untouched, hostOps1_29_untouched, hostOps1_30_untouched⟩
theorem tail_fresh : (tailOps (F := F)).Forall fun ops => ops.Forall fun op => op.fresh = ∅ :=
  ⟨hostOps1_fresh, hostOps1_1_fresh, hostOps1_2_fresh, hostOps1_3_fresh, hostOps1_4_fresh, hostOps1_5_fresh, hostOps1_6_fresh, hostOps1_7_fresh, hostOps1_8_fresh, hostOps1_9_fresh, hostOps1_10_fresh, hostOps1_11_fresh, hostOps1_12_fresh, hostOps1_13_fresh, hostOps1_14_fresh, hostOps1_15_fresh, hostOps1_16_fresh, hostOps1_17_fresh, hostOps1_18_fresh, hostOps1_19_fresh, hostOps1_20_fresh, hostOps1_21_fresh, hostOps1_22_fresh, hostOps1_23_fresh, hostOps1_24_fresh, hostOps1_25_fresh, hostOps1_26_fresh, hostOps1_27_fresh, hostOps1_28_fresh, hostOps1_29_fresh, hostOps1_30_fresh⟩
theorem tail_sub : (tailOps (F := F)).Forall fun ops => ops.Forall fun op => op.bufs ⊆ StableHlo.tcRefs τ sig :=
  ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub, hostOps1_13_sub, hostOps1_14_sub, hostOps1_15_sub, hostOps1_16_sub, hostOps1_17_sub, hostOps1_18_sub, hostOps1_19_sub, hostOps1_20_sub, hostOps1_21_sub, hostOps1_22_sub, hostOps1_23_sub, hostOps1_24_sub, hostOps1_25_sub, hostOps1_26_sub, hostOps1_27_sub, hostOps1_28_sub, hostOps1_29_sub, hostOps1_30_sub⟩

/-- Every later operation leaves the three buffers alone. -/
theorem tail_untouched_mem (op : HloOp τ sig (Elt F)) (hop : op ∈ List.flatten (tailOps (F := F))) : Untouched op := by
  obtain ⟨ops, hops, hop'⟩ := List.mem_flatten.mp hop
  exact (List.forall_iff_forall_mem.mp ((List.forall_iff_forall_mem.mp tail_untouched) ops hops)) op hop'

/-- The argument holds after the later lines what it held before them. -/
theorem tail_keeps_arg0 (W : Valuation τ sig (Elt F)) :
    StableHlo.after (List.flatten (tailOps (F := F))) W (Proc.devRef .tc main_arg0) = W (Proc.devRef .tc main_arg0) :=
  StableHlo.after_of_forall_not_mem _ _ fun op hop => (tail_untouched_mem op hop).1

/-- The program is the earlier lines, the region, the later lines: it reduces to the region continued by the later
    lines, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main preOps tailOps ⟨hostOps0_sub, hostOps0_1_sub⟩
    ⟨hostOps0_fresh, hostOps0_1_fresh⟩ main_chain

/-- The later lines touch unscoped TensorCore buffers only. -/
theorem sfx_sub : ∀ ops ∈ (tailOps (F := F)), ∀ op ∈ ops,
    op.bufs ⊆ Pipeline.tailRefs sig Pipeline.Prefetch.none spec0 := by
  rw [Pipeline.tailRefs_none spec0 launch0.win.arr_unscoped]
  intro ops hops op hop
  exact Pipeline.sub_ucRefs op ((List.forall_iff_forall_mem.mp ((List.forall_iff_forall_mem.mp tail_sub) ops hops)) op hop)
/-- They allocate nothing. -/
theorem sfx_fresh : ∀ ops ∈ (tailOps (F := F)), ∀ op ∈ ops, op.fresh = ∅ := fun ops hops op hop =>
  (List.forall_iff_forall_mem.mp ((List.forall_iff_forall_mem.mp tail_fresh) ops hops)) op hop
/-- And they write neither the padded image nor the mask. -/
theorem sfx_keeps : ∀ ops ∈ (tailOps (F := F)), ∀ op ∈ ops,
    ∀ w, Proc.devRef .tc (Pipeline.arrRef spec0 w) ∉ op.writes := by
  intro ops hops op hop w
  have h := (List.forall_iff_forall_mem.mp ((List.forall_iff_forall_mem.mp tail_untouched) ops hops)) op hop
  fin_cases w
  · exact h.2.1
  · exact h.2.2

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The staging buffers and the scratch as the pipeline passes them -/

abbrev ms0_0 (t : Fin cfg0.N) : Memref sig .tc .vmem S1x1x1080x1074 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x1024x1024 .f32 := win0_1.stage (cfg0.slots t 1)
abbrev hs0_1 (t : Fin cfg0.N) : (ms0_1 t).IsWhole := hstage0_1 ((cfg0.slots t 1).cast nbuf0_1)
/-- The scratch holding the row-wise running maxima: a whole buffer of the kernel's own. -/
abbrev scM0_0 : Memref sig .tc .vmem S1080x1024 .f32 := Memref.whole cc0_scratch0

/-- What the region's invariant is made of: the scratch at some contents and the generator register at some state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Fr

end
-- ==== Proof.KernelFr.Frame.lean ====
/-
  The frame of the program: every weakly fair execution terminates, nothing faults, and the argument array ends as
  it began. The region's proof data: the padded image is an input, so its staging buffer holds the point's block before
  and after the body; the mask block after the body is what the body's eight slab stores leave, read back; between
  points nothing is remembered (the scratch of running maxima is rewritten whole at every point before it is read), so
  the invariant is the scratch at anything and the generator register at some state. After the region the later lines
  never write the argument, so it is found as the memory had it.
-/
import proofs.«136169_j81922206204546_2_alg».proof.Proof.KernelFr.Kit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of the mask's window, through which its contents are stated (the choice does not matter). -/
abbrev VO0_1 : View sig .tc .vmem S1x1x1024x1024 .f32 := (Memref.whole cc0_stg1_0 : Memref sig .tc .vmem S1x1x1024x1024 .f32).view

/-- The eight slab stores of 128 rows tile the mask block, so they cover it. -/
theorem cover0_1 (c : Dev nD) (i : grid0.Coords)
    (arg1 : Memref sig .tc .vmem S1x1x1080x1074 .f32) (harg1 : arg1.IsWhole)
    (arg2 : Memref sig .tc .vmem S1x1x1024x1024 .f32) (harg2 : arg2.IsWhole)
    (arg3 : Memref sig .tc .vmem S1080x1024 .f32) (harg3 : arg3.IsWhole)
    (x0 : Vec F S1x1x1080x1074 .f32) (y : S1x1x1024x1024.Idx) :
    ∃ pc ∈ (kernelRun0 c i arg1 harg1 arg2 harg2 arg3 harg3 x0).1, y ∈ pc.1.set :=
  View.cover_of_tiledL (kernelRun0 c i arg1 harg1 arg2 harg2 arg3 harg3 x0).1 S1x1x128x1024.size (by sl_kernel_rfl) y

/-- The nine slab stores of 120 rows tile the scratch, so they cover it. -/
theorem scover0_0 (c : Dev nD) (i : grid0.Coords)
    (arg1 : Memref sig .tc .vmem S1x1x1080x1074 .f32) (harg1 : arg1.IsWhole)
    (arg2 : Memref sig .tc .vmem S1x1x1024x1024 .f32) (harg2 : arg2.IsWhole)
    (arg3 : Memref sig .tc .vmem S1080x1024 .f32) (harg3 : arg3.IsWhole)
    (x0 : Vec F S1x1x1080x1074 .f32) (y : S1080x1024.Idx) :
    ∃ pc ∈ (kernelRun0 c i arg1 harg1 arg2 harg2 arg3 harg3 x0).2.1, y ∈ pc.1.set :=
  View.cover_of_tiledL (kernelRun0 c i arg1 harg1 arg2 harg2 arg3 harg3 x0).2.1 S120x1024.size (by sl_kernel_rfl) y

/-- What the body leaves in the mask's staging buffer: its pieces read back. -/
def out0_1 (c : Dev nD) (i : grid0.Coords)
    (arg1 : Memref sig .tc .vmem S1x1x1080x1074 .f32) (harg1 : arg1.IsWhole)
    (arg2 : Memref sig .tc .vmem S1x1x1024x1024 .f32) (harg2 : arg2.IsWhole)
    (arg3 : Memref sig .tc .vmem S1080x1024 .f32) (harg3 : arg3.IsWhole)
    (x0 : Vec F S1x1x1080x1074 .f32) : Vec F S1x1x1024x1024 .f32 :=
  VO0_1.read (Elt F) (VO0_1.writes (Elt F) VO0_1.junk (kernelRun0 c i arg1 harg1 arg2 harg2 arg3 harg3 x0).1)

/-- The mask block of grid point `t`: the body run on the point's block of the padded image. -/
def outAt (c : Dev nD) (t : Fin cfg0.N) : Vec F S1x1x1024x1024 .f32 :=
  out0_1 c (grid0.coords t) (ms0_0 t) (hs0_0 t) (ms0_1 t) (hs0_1 t) scM0_0 (Memref.isWhole_whole _) (iblk m c 0 t)

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = outAt m c t := by dsimp only [dats]

theorem before0_0 (c : Dev nD) (t : Fin cfg0.N) (d) : (dats m 0 c).before 0 t d = iblk m c 0 t :=
  before0_0_of m (dats m 0 c) (A_eq m c 0) (after0_0 m c) t d

theorem liveAt0_0 : ∀ t : Fin cfg0.N, cfg0.idle 0 (grid0.coords t) = false := by decide +kernel
theorem liveAt0_1 : ∀ t : Fin cfg0.N, cfg0.idle 1 (grid0.coords t) = false := by decide +kernel

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t)

set_option maxHeartbeats 4800000 in
/-- The body at any point: handed the padded block, the mask's buffer at anything and the scratch at anything, it
    returns the padded block as it was, the mask's buffer at the read-back of its stores, and the scratch at some
    contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  unfold outAt out0_1; (try dsimp only)
  iintro ⟨⟨HS0, Hg⟩, Ho, ⟨%d0, H0⟩, ⟨%d1, H1⟩⟩
  iapply ((kernelRun0 c (grid0.coords t) _ _ _ _ _ _ (iblk m c 0 t)).2.2 Set.univ _)
  isplitl [H0]; · iexact H0
  isplitl [H1]; · iexists _; iexact H1
  isplitl [HS0]; · iexact HS0
  iintro ⟨H0, ⟨%e1, H1⟩, ⟨%es0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  unfold owns; iexists _; isplitr
  swap; · iexact H1
  ipureintro; exact View.read_writes_of_cover _ _ _ _ _ (cover0_1 c _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of the program terminates; at the end the padded image and the mask hold what the
    library computes from the proof data, and every other unscoped buffer what the later lines leave. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The lines before the region do not write the argument. -/
theorem pre_keeps_arg0 (c : Dev nD) : V0 m c (Proc.devRef .tc main_arg0) = m ((c : Thread nD τ).loc main_arg0) := rfl

/-- Nor does anything after: at the end the argument is as the memory had it. -/
theorem arg0_kept (c : Dev nD) :
    Pipeline.afterTail₀ cfgs (dats m) 0 (V0 m) tailOps c main_arg0 = m ((c : Thread nD τ).loc main_arg0) := by
  unfold Pipeline.afterTail₀
  rw [tail_keeps_arg0, Pipeline.withArrays_of_ne _ c _ _ main_arg0 (fun w => by fin_cases w <;> decide)]
  exact pre_keeps_arg0 m c

/-- The frame claim, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2 main_arg0 (Pipeline.mem_restRefs_of main_arg0 rfl (fun w => by fin_cases w <;> decide))).trans (arg0_kept m c)) (run_main m ρ)

end Cert.Kernel.Fr

end
-- ==== Proof.KernelIdealFr.Body.lean ====
/-
  One grid point of the peak-detection kernel, run symbolically. The body reads the point's padded image block
  (1080 x 1074), writes the row-wise running maximum of every 51 consecutive columns into a scratch of 1080 x 1024
  in nine slabs of 120 rows, reads that scratch back in eight overlapping slabs of 184 rows to take the column-wise
  maximum of 51 consecutive rows, compares with the centre of the window and with one half, and stores the 0/1 mask
  into the point's output block in eight slabs of 128 rows. Stated here: started with the input block at contents
  x0 and the output block and the scratch at anything, the body ends with the input block unchanged and the other
  two holding the listed pieces (last store first), which the symbolic run finds.
-/
import proofs.«136169_j81922206204546_2_alg».proof.Proof.Gen.KernelIdeal.Launch
import proofs.«136169_j81922206204546_2_alg».proof.Proof.Gen.KernelIdeal.Skeleton
import proofs.«136169_j81922206204546_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the output block (`L1`) and in the scratch (`LS0`), with the triple that
    says so. -/
noncomputable def kernelRun0 (c : Dev nD) (i : grid0.Coords)
    (arg1 : Memref sig .tc .vmem S1x1x1080x1074 .f32) (harg1 : arg1.IsWhole)
    (arg2 : Memref sig .tc .vmem S1x1x1024x1024 .f32) (harg2 : arg2.IsWhole)
    (arg3 : Memref sig .tc .vmem S1080x1024 .f32) (harg3 : arg3.IsWhole)
    (x0 : Vec F S1x1x1080x1074 .f32) :
    Σ' (L1 : List (View.Piece (Elt F) S1x1x1024x1024 .f32)), { LS0 : List (View.Piece (Elt F) S1080x1024 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0)) -∗ K ⟨⟩))
          ⊢ wp frame (wpE (defs₀ (F := F)) Variants.none c none) E (cc0__nms_kernel i arg1 harg1 arg2 harg2 arg3 harg3) K } := by
  refine ⟨?_, ?_, fun E K => ?run⟩
  case run =>
    simp only [cc0__nms_kernel_eq_skeleton]; unfold cc0__nms_kernel_skel
    unfold owns
    iintro ⟨⟨%f0, %hf0, H0⟩, ⟨%d1, %f1, -, H1⟩, ⟨%ds0, %fs0, -, HS0⟩, Hk⟩
    obtain rfl := harg1.eq_unread hf0
    sl_exec
    sl_step
    iapply Hk
    isplitl [H0]
    · iexists _; isplitr; · ipureintro; exact harg1.read_unread _
      iexact H0
    isplitl [H1]; · iexists _; iexact H1
    iexists _; iexact HS0

end Cert.KernelIdeal.Fr

end
-- ==== Proof.KernelIdealFr.Kit.lean ====
/-
  The program around its one pallas_call: two stretches of host lines build the padded image (a constant minus
  infinity, then the pad to 1080 x 1074 per image), the region computes the 0/1 peak mask, and thirty-one stretches
  of host lines turn the mask into the table of peak coordinates. Stated here: what every buffer holds when the region
  is entered (`V0`), that the program is those lines, the region, and the later lines in order (`hmain`), and that no
  later line allocates, leaves the device buffers, or writes the argument, the padded image or the mask.
-/
import proofs.«136169_j81922206204546_2_alg».proof.Proof.KernelIdealFr.Body

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host lines before the region, stretch by stretch. -/
abbrev preOps : List (List (HloOp τ sig (Elt F))) := [hostOps0, hostOps0_1]
/-- The host lines after the region, stretch by stretch. -/
abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26, hostOps1_27, hostOps1_28, hostOps1_29, hostOps1_30]

/-- Core `c`'s buffer contents when the region is entered: the memory after the lines before it. -/
abbrev V0 (c : Dev nD) : Valuation τ sig (Elt F) := StableHlo.after (List.flatten (preOps (F := F))) (fun b => m (c, b))
/-- The same read at a TensorCore reference. -/
abbrev V (c : Dev nD) (b : Ref sig .tc) : Buf (Elt F) ((c : Thread nD τ).loc b) := V0 m c (Proc.devRef .tc b)

/-- No write to the argument, the padded image or the mask. -/
def Untouched (op : HloOp τ sig (Elt F)) : Prop :=
  Proc.devRef (τ := τ) .tc main_arg0 ∉ op.writes ∧ Proc.devRef (τ := τ) .tc main_v0 ∉ op.writes ∧ Proc.devRef (τ := τ) .tc main_v1 ∉ op.writes

/-- Closes "no operation of this stretch writes the argument, the padded image or the mask": each operation writes
    its one result buffer, a different reference. -/
macro "untouched_tac" : tactic => `(tactic| (
  simp only [List.Forall]
  repeat' constructor
  all_goals (
    simp only [StableHlo.nullary_writes, StableHlo.unary_writes, StableHlo.binary_writes, StableHlo.ternary_writes,
      StableHlo.quaternary_writes, StableHlo.reshape_writes, StableHlo.binaryIndexed_writes, StableHlo.nary_writes,
      StableHlo.unaryIndexed_writes, Finset.mem_singleton]
    exact StableHlo.devRef_ne_of_ne (by decide))))

/-- Closes "no operation of this stretch allocates". -/
macro "fresh_tac" : tactic => `(tactic| (simp only [List.Forall]; repeat' constructor))

theorem hostOps1_untouched : (hostOps1 : List (HloOp τ sig (Elt F))).Forall fun op => Untouched op := by untouched_tac
theorem hostOps1_fresh : (hostOps1 : List (HloOp τ sig (Elt F))).Forall fun op => op.fresh = ∅ := by fresh_tac
theorem hostOps1_1_untouched : (hostOps1_1 : List (HloOp τ sig (Elt F))).Forall fun op => Untouched op := by untouched_tac
theorem hostOps1_1_fresh : (hostOps1_1 : List (HloOp τ sig (Elt F))).Forall fun op => op.fresh = ∅ := by fresh_tac
theorem hostOps1_2_untouched : (hostOps1_2 : List (HloOp τ sig (Elt F))).Forall fun op => Untouched op := by untouched_tac
theorem hostOps1_2_fresh : (hostOps1_2 : List (HloOp τ sig (Elt F))).Forall fun op => op.fresh = ∅ := by fresh_tac
theorem hostOps1_3_untouched : (hostOps1_3 : List (HloOp τ sig (Elt F))).Forall fun op => Untouched op := by untouched_tac
theorem hostOps1_3_fresh : (hostOps1_3 : List (HloOp τ sig (Elt F))).Forall fun op => op.fresh = ∅ := by fresh_tac
theorem hostOps1_4_untouched : (hostOps1_4 : List (HloOp τ sig (Elt F))).Forall fun op => Untouched op := by untouched_tac
theorem hostOps1_4_fresh : (hostOps1_4 : List (HloOp τ sig (Elt F))).Forall fun op => op.fresh = ∅ := by fresh_tac
theorem hostOps1_5_untouched : (hostOps1_5 : List (HloOp τ sig (Elt F))).Forall fun op => Untouched op := by untouched_tac
theorem hostOps1_5_fresh : (hostOps1_5 : List (HloOp τ sig (Elt F))).Forall fun op => op.fresh = ∅ := by fresh_tac
theorem hostOps1_6_untouched : (hostOps1_6 : List (HloOp τ sig (Elt F))).Forall fun op => Untouched op := by untouched_tac
theorem hostOps1_6_fresh : (hostOps1_6 : List (HloOp τ sig (Elt F))).Forall fun op => op.fresh = ∅ := by fresh_tac
theorem hostOps1_7_untouched : (hostOps1_7 : List (HloOp τ sig (Elt F))).Forall fun op => Untouched op := by untouched_tac
theorem hostOps1_7_fresh : (hostOps1_7 : List (HloOp τ sig (Elt F))).Forall fun op => op.fresh = ∅ := by fresh_tac
theorem hostOps1_8_untouched : (hostOps1_8 : List (HloOp τ sig (Elt F))).Forall fun op => Untouched op := by untouched_tac
theorem hostOps1_8_fresh : (hostOps1_8 : List (HloOp τ sig (Elt F))).Forall fun op => op.fresh = ∅ := by fresh_tac
theorem hostOps1_9_untouched : (hostOps1_9 : List (HloOp τ sig (Elt F))).Forall fun op => Untouched op := by untouched_tac
theorem hostOps1_9_fresh : (hostOps1_9 : List (HloOp τ sig (Elt F))).Forall fun op => op.fresh = ∅ := by fresh_tac
theorem hostOps1_10_untouched : (hostOps1_10 : List (HloOp τ sig (Elt F))).Forall fun op => Untouched op := by untouched_tac
theorem hostOps1_10_fresh : (hostOps1_10 : List (HloOp τ sig (Elt F))).Forall fun op => op.fresh = ∅ := by fresh_tac
theorem hostOps1_11_untouched : (hostOps1_11 : List (HloOp τ sig (Elt F))).Forall fun op => Untouched op := by untouched_tac
theorem hostOps1_11_fresh : (hostOps1_11 : List (HloOp τ sig (Elt F))).Forall fun op => op.fresh = ∅ := by fresh_tac
theorem hostOps1_12_untouched : (hostOps1_12 : List (HloOp τ sig (Elt F))).Forall fun op => Untouched op := by untouched_tac
theorem hostOps1_12_fresh : (hostOps1_12 : List (HloOp τ sig (Elt F))).Forall fun op => op.fresh = ∅ := by fresh_tac
theorem hostOps1_13_untouched : (hostOps1_13 : List (HloOp τ sig (Elt F))).Forall fun op => Untouched op := by untouched_tac
theorem hostOps1_13_fresh : (hostOps1_13 : List (HloOp τ sig (Elt F))).Forall fun op => op.fresh = ∅ := by fresh_tac
theorem hostOps1_14_untouched : (hostOps1_14 : List (HloOp τ sig (Elt F))).Forall fun op => Untouched op := by untouched_tac
theorem hostOps1_14_fresh : (hostOps1_14 : List (HloOp τ sig (Elt F))).Forall fun op => op.fresh = ∅ := by fresh_tac
theorem hostOps1_15_untouched : (hostOps1_15 : List (HloOp τ sig (Elt F))).Forall fun op => Untouched op := by untouched_tac
theorem hostOps1_15_fresh : (hostOps1_15 : List (HloOp τ sig (Elt F))).Forall fun op => op.fresh = ∅ := by fresh_tac
theorem hostOps1_16_untouched : (hostOps1_16 : List (HloOp τ sig (Elt F))).Forall fun op => Untouched op := by untouched_tac
theorem hostOps1_16_fresh : (hostOps1_16 : List (HloOp τ sig (Elt F))).Forall fun op => op.fresh = ∅ := by fresh_tac
theorem hostOps1_17_untouched : (hostOps1_17 : List (HloOp τ sig (Elt F))).Forall fun op => Untouched op := by untouched_tac
theorem hostOps1_17_fresh : (hostOps1_17 : List (HloOp τ sig (Elt F))).Forall fun op => op.fresh = ∅ := by fresh_tac
theorem hostOps1_18_untouched : (hostOps1_18 : List (HloOp τ sig (Elt F))).Forall fun op => Untouched op := by untouched_tac
theorem hostOps1_18_fresh : (hostOps1_18 : List (HloOp τ sig (Elt F))).Forall fun op => op.fresh = ∅ := by fresh_tac
theorem hostOps1_19_untouched : (hostOps1_19 : List (HloOp τ sig (Elt F))).Forall fun op => Untouched op := by untouched_tac
theorem hostOps1_19_fresh : (hostOps1_19 : List (HloOp τ sig (Elt F))).Forall fun op => op.fresh = ∅ := by fresh_tac
theorem hostOps1_20_untouched : (hostOps1_20 : List (HloOp τ sig (Elt F))).Forall fun op => Untouched op := by untouched_tac
theorem hostOps1_20_fresh : (hostOps1_20 : List (HloOp τ sig (Elt F))).Forall fun op => op.fresh = ∅ := by fresh_tac
theorem hostOps1_21_untouched : (hostOps1_21 : List (HloOp τ sig (Elt F))).Forall fun op => Untouched op := by untouched_tac
theorem hostOps1_21_fresh : (hostOps1_21 : List (HloOp τ sig (Elt F))).Forall fun op => op.fresh = ∅ := by fresh_tac
theorem hostOps1_22_untouched : (hostOps1_22 : List (HloOp τ sig (Elt F))).Forall fun op => Untouched op := by untouched_tac
theorem hostOps1_22_fresh : (hostOps1_22 : List (HloOp τ sig (Elt F))).Forall fun op => op.fresh = ∅ := by fresh_tac
theorem hostOps1_23_untouched : (hostOps1_23 : List (HloOp τ sig (Elt F))).Forall fun op => Untouched op := by untouched_tac
theorem hostOps1_23_fresh : (hostOps1_23 : List (HloOp τ sig (Elt F))).Forall fun op => op.fresh = ∅ := by fresh_tac
theorem hostOps1_24_untouched : (hostOps1_24 : List (HloOp τ sig (Elt F))).Forall fun op => Untouched op := by untouched_tac
theorem hostOps1_24_fresh : (hostOps1_24 : List (HloOp τ sig (Elt F))).Forall fun op => op.fresh = ∅ := by fresh_tac
theorem hostOps1_25_untouched : (hostOps1_25 : List (HloOp τ sig (Elt F))).Forall fun op => Untouched op := by untouched_tac
theorem hostOps1_25_fresh : (hostOps1_25 : List (HloOp τ sig (Elt F))).Forall fun op => op.fresh = ∅ := by fresh_tac
theorem hostOps1_26_untouched : (hostOps1_26 : List (HloOp τ sig (Elt F))).Forall fun op => Untouched op := by untouched_tac
theorem hostOps1_26_fresh : (hostOps1_26 : List (HloOp τ sig (Elt F))).Forall fun op => op.fresh = ∅ := by fresh_tac
theorem hostOps1_27_untouched : (hostOps1_27 : List (HloOp τ sig (Elt F))).Forall fun op => Untouched op := by untouched_tac
theorem hostOps1_27_fresh : (hostOps1_27 : List (HloOp τ sig (Elt F))).Forall fun op => op.fresh = ∅ := by fresh_tac
theorem hostOps1_28_untouched : (hostOps1_28 : List (HloOp τ sig (Elt F))).Forall fun op => Untouched op := by untouched_tac
theorem hostOps1_28_fresh : (hostOps1_28 : List (HloOp τ sig (Elt F))).Forall fun op => op.fresh = ∅ := by fresh_tac
theorem hostOps1_29_untouched : (hostOps1_29 : List (HloOp τ sig (Elt F))).Forall fun op => Untouched op := by untouched_tac
theorem hostOps1_29_fresh : (hostOps1_29 : List (HloOp τ sig (Elt F))).Forall fun op => op.fresh = ∅ := by fresh_tac
theorem hostOps1_30_untouched : (hostOps1_30 : List (HloOp τ sig (Elt F))).Forall fun op => Untouched op := by untouched_tac
theorem hostOps1_30_fresh : (hostOps1_30 : List (HloOp τ sig (Elt F))).Forall fun op => op.fresh = ∅ := by fresh_tac
theorem hostOps0_fresh : (hostOps0 : List (HloOp τ sig (Elt F))).Forall fun op => op.fresh = ∅ := by fresh_tac
theorem hostOps0_1_fresh : (hostOps0_1 : List (HloOp τ sig (Elt F))).Forall fun op => op.fresh = ∅ := by fresh_tac

theorem tail_untouched : (tailOps (F := F)).Forall fun ops => ops.Forall fun op => Untouched op :=
  ⟨hostOps1_untouched, hostOps1_1_untouched, hostOps1_2_untouched, hostOps1_3_untouched, hostOps1_4_untouched, hostOps1_5_untouched, hostOps1_6_untouched, hostOps1_7_untouched, hostOps1_8_untouched, hostOps1_9_untouched, hostOps1_10_untouched, hostOps1_11_untouched, hostOps1_12_untouched, hostOps1_13_untouched, hostOps1_14_untouched, hostOps1_15_untouched, hostOps1_16_untouched, hostOps1_17_untouched, hostOps1_18_untouched, hostOps1_19_untouched, hostOps1_20_untouched, hostOps1_21_untouched, hostOps1_22_untouched, hostOps1_23_untouched, hostOps1_24_untouched, hostOps1_25_untouched, hostOps1_26_untouched, hostOps1_27_untouched, hostOps1_28_untouched, hostOps1_29_untouched, hostOps1_30_untouched⟩
theorem tail_fresh : (tailOps (F := F)).Forall fun ops => ops.Forall fun op => op.fresh = ∅ :=
  ⟨hostOps1_fresh, hostOps1_1_fresh, hostOps1_2_fresh, hostOps1_3_fresh, hostOps1_4_fresh, hostOps1_5_fresh, hostOps1_6_fresh, hostOps1_7_fresh, hostOps1_8_fresh, hostOps1_9_fresh, hostOps1_10_fresh, hostOps1_11_fresh, hostOps1_12_fresh, hostOps1_13_fresh, hostOps1_14_fresh, hostOps1_15_fresh, hostOps1_16_fresh, hostOps1_17_fresh, hostOps1_18_fresh, hostOps1_19_fresh, hostOps1_20_fresh, hostOps1_21_fresh, hostOps1_22_fresh, hostOps1_23_fresh, hostOps1_24_fresh, hostOps1_25_fresh, hostOps1_26_fresh, hostOps1_27_fresh, hostOps1_28_fresh, hostOps1_29_fresh, hostOps1_30_fresh⟩
theorem tail_sub : (tailOps (F := F)).Forall fun ops => ops.Forall fun op => op.bufs ⊆ StableHlo.tcRefs τ sig :=
  ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub, hostOps1_13_sub, hostOps1_14_sub, hostOps1_15_sub, hostOps1_16_sub, hostOps1_17_sub, hostOps1_18_sub, hostOps1_19_sub, hostOps1_20_sub, hostOps1_21_sub, hostOps1_22_sub, hostOps1_23_sub, hostOps1_24_sub, hostOps1_25_sub, hostOps1_26_sub, hostOps1_27_sub, hostOps1_28_sub, hostOps1_29_sub, hostOps1_30_sub⟩

/-- Every later operation leaves the three buffers alone. -/
theorem tail_untouched_mem (op : HloOp τ sig (Elt F)) (hop : op ∈ List.flatten (tailOps (F := F))) : Untouched op := by
  obtain ⟨ops, hops, hop'⟩ := List.mem_flatten.mp hop
  exact (List.forall_iff_forall_mem.mp ((List.forall_iff_forall_mem.mp tail_untouched) ops hops)) op hop'

/-- The argument holds after the later lines what it held before them. -/
theorem tail_keeps_arg0 (W : Valuation τ sig (Elt F)) :
    StableHlo.after (List.flatten (tailOps (F := F))) W (Proc.devRef .tc main_arg0) = W (Proc.devRef .tc main_arg0) :=
  StableHlo.after_of_forall_not_mem _ _ fun op hop => (tail_untouched_mem op hop).1

/-- The program is the earlier lines, the region, the later lines: it reduces to the region continued by the later
    lines, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main preOps tailOps ⟨hostOps0_sub, hostOps0_1_sub⟩
    ⟨hostOps0_fresh, hostOps0_1_fresh⟩ main_chain

/-- The later lines touch unscoped TensorCore buffers only. -/
theorem sfx_sub : ∀ ops ∈ (tailOps (F := F)), ∀ op ∈ ops,
    op.bufs ⊆ Pipeline.tailRefs sig Pipeline.Prefetch.none spec0 := by
  rw [Pipeline.tailRefs_none spec0 launch0.win.arr_unscoped]
  intro ops hops op hop
  exact Pipeline.sub_ucRefs op ((List.forall_iff_forall_mem.mp ((List.forall_iff_forall_mem.mp tail_sub) ops hops)) op hop)
/-- They allocate nothing. -/
theorem sfx_fresh : ∀ ops ∈ (tailOps (F := F)), ∀ op ∈ ops, op.fresh = ∅ := fun ops hops op hop =>
  (List.forall_iff_forall_mem.mp ((List.forall_iff_forall_mem.mp tail_fresh) ops hops)) op hop
/-- And they write neither the padded image nor the mask. -/
theorem sfx_keeps : ∀ ops ∈ (tailOps (F := F)), ∀ op ∈ ops,
    ∀ w, Proc.devRef .tc (Pipeline.arrRef spec0 w) ∉ op.writes := by
  intro ops hops op hop w
  have h := (List.forall_iff_forall_mem.mp ((List.forall_iff_forall_mem.mp tail_untouched) ops hops)) op hop
  fin_cases w
  · exact h.2.1
  · exact h.2.2

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The staging buffers and the scratch as the pipeline passes them -/

abbrev ms0_0 (t : Fin cfg0.N) : Memref sig .tc .vmem S1x1x1080x1074 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x1024x1024 .f32 := win0_1.stage (cfg0.slots t 1)
abbrev hs0_1 (t : Fin cfg0.N) : (ms0_1 t).IsWhole := hstage0_1 ((cfg0.slots t 1).cast nbuf0_1)
/-- The scratch holding the row-wise running maxima: a whole buffer of the kernel's own. -/
abbrev scM0_0 : Memref sig .tc .vmem S1080x1024 .f32 := Memref.whole cc0_scratch0

/-- What the region's invariant is made of: the scratch at some contents and the generator register at some state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Fr

end
-- ==== Proof.KernelIdealFr.Frame.lean ====
/-
  The frame of the program: every weakly fair execution terminates, nothing faults, and the argument array ends as
  it began. The region's proof data: the padded image is an input, so its staging buffer holds the point's block before
  and after the body; the mask block after the body is what the body's eight slab stores leave, read back; between
  points nothing is remembered (the scratch of running maxima is rewritten whole at every point before it is read), so
  the invariant is the scratch at anything and the generator register at some state. After the region the later lines
  never write the argument, so it is found as the memory had it.
-/
import proofs.«136169_j81922206204546_2_alg».proof.Proof.KernelIdealFr.Kit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of the mask's window, through which its contents are stated (the choice does not matter). -/
abbrev VO0_1 : View sig .tc .vmem S1x1x1024x1024 .f32 := (Memref.whole cc0_stg1_0 : Memref sig .tc .vmem S1x1x1024x1024 .f32).view

/-- The eight slab stores of 128 rows tile the mask block, so they cover it. -/
theorem cover0_1 (c : Dev nD) (i : grid0.Coords)
    (arg1 : Memref sig .tc .vmem S1x1x1080x1074 .f32) (harg1 : arg1.IsWhole)
    (arg2 : Memref sig .tc .vmem S1x1x1024x1024 .f32) (harg2 : arg2.IsWhole)
    (arg3 : Memref sig .tc .vmem S1080x1024 .f32) (harg3 : arg3.IsWhole)
    (x0 : Vec F S1x1x1080x1074 .f32) (y : S1x1x1024x1024.Idx) :
    ∃ pc ∈ (kernelRun0 c i arg1 harg1 arg2 harg2 arg3 harg3 x0).1, y ∈ pc.1.set :=
  View.cover_of_tiledL (kernelRun0 c i arg1 harg1 arg2 harg2 arg3 harg3 x0).1 S1x1x128x1024.size (by sl_kernel_rfl) y

/-- The nine slab stores of 120 rows tile the scratch, so they cover it. -/
theorem scover0_0 (c : Dev nD) (i : grid0.Coords)
    (arg1 : Memref sig .tc .vmem S1x1x1080x1074 .f32) (harg1 : arg1.IsWhole)
    (arg2 : Memref sig .tc .vmem S1x1x1024x1024 .f32) (harg2 : arg2.IsWhole)
    (arg3 : Memref sig .tc .vmem S1080x1024 .f32) (harg3 : arg3.IsWhole)
    (x0 : Vec F S1x1x1080x1074 .f32) (y : S1080x1024.Idx) :
    ∃ pc ∈ (kernelRun0 c i arg1 harg1 arg2 harg2 arg3 harg3 x0).2.1, y ∈ pc.1.set :=
  View.cover_of_tiledL (kernelRun0 c i arg1 harg1 arg2 harg2 arg3 harg3 x0).2.1 S120x1024.size (by sl_kernel_rfl) y

/-- What the body leaves in the mask's staging buffer: its pieces read back. -/
def out0_1 (c : Dev nD) (i : grid0.Coords)
    (arg1 : Memref sig .tc .vmem S1x1x1080x1074 .f32) (harg1 : arg1.IsWhole)
    (arg2 : Memref sig .tc .vmem S1x1x1024x1024 .f32) (harg2 : arg2.IsWhole)
    (arg3 : Memref sig .tc .vmem S1080x1024 .f32) (harg3 : arg3.IsWhole)
    (x0 : Vec F S1x1x1080x1074 .f32) : Vec F S1x1x1024x1024 .f32 :=
  VO0_1.read (Elt F) (VO0_1.writes (Elt F) VO0_1.junk (kernelRun0 c i arg1 harg1 arg2 harg2 arg3 harg3 x0).1)

/-- The mask block of grid point `t`: the body run on the point's block of the padded image. -/
def outAt (c : Dev nD) (t : Fin cfg0.N) : Vec F S1x1x1024x1024 .f32 :=
  out0_1 c (grid0.coords t) (ms0_0 t) (hs0_0 t) (ms0_1 t) (hs0_1 t) scM0_0 (Memref.isWhole_whole _) (iblk m c 0 t)

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = outAt m c t := by dsimp only [dats]

theorem before0_0 (c : Dev nD) (t : Fin cfg0.N) (d) : (dats m 0 c).before 0 t d = iblk m c 0 t :=
  before0_0_of m (dats m 0 c) (A_eq m c 0) (after0_0 m c) t d

theorem liveAt0_0 : ∀ t : Fin cfg0.N, cfg0.idle 0 (grid0.coords t) = false := by decide +kernel
theorem liveAt0_1 : ∀ t : Fin cfg0.N, cfg0.idle 1 (grid0.coords t) = false := by decide +kernel

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t)

set_option maxHeartbeats 4800000 in
/-- The body at any point: handed the padded block, the mask's buffer at anything and the scratch at anything, it
    returns the padded block as it was, the mask's buffer at the read-back of its stores, and the scratch at some
    contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  unfold outAt out0_1; (try dsimp only)
  iintro ⟨⟨HS0, Hg⟩, Ho, ⟨%d0, H0⟩, ⟨%d1, H1⟩⟩
  iapply ((kernelRun0 c (grid0.coords t) _ _ _ _ _ _ (iblk m c 0 t)).2.2 Set.univ _)
  isplitl [H0]; · iexact H0
  isplitl [H1]; · iexists _; iexact H1
  isplitl [HS0]; · iexact HS0
  iintro ⟨H0, ⟨%e1, H1⟩, ⟨%es0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  unfold owns; iexists _; isplitr
  swap; · iexact H1
  ipureintro; exact View.read_writes_of_cover _ _ _ _ _ (cover0_1 c _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of the program terminates; at the end the padded image and the mask hold what the
    library computes from the proof data, and every other unscoped buffer what the later lines leave. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The lines before the region do not write the argument. -/
theorem pre_keeps_arg0 (c : Dev nD) : V0 m c (Proc.devRef .tc main_arg0) = m ((c : Thread nD τ).loc main_arg0) := rfl

/-- Nor does anything after: at the end the argument is as the memory had it. -/
theorem arg0_kept (c : Dev nD) :
    Pipeline.afterTail₀ cfgs (dats m) 0 (V0 m) tailOps c main_arg0 = m ((c : Thread nD τ).loc main_arg0) := by
  unfold Pipeline.afterTail₀
  rw [tail_keeps_arg0, Pipeline.withArrays_of_ne _ c _ _ main_arg0 (fun w => by fin_cases w <;> decide)]
  exact pre_keeps_arg0 m c

/-- The frame claim, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2 main_arg0 (Pipeline.mem_restRefs_of main_arg0 rfl (fun w => by fin_cases w <;> decide))).trans (arg0_kept m c)) (run_main m ρ)

end Cert.KernelIdeal.Fr

end
-- ==== Proof.RefRun.lean ====
/-
  The reference program read as a list of host operations. It takes the maximum of every 51 x 51 window of the
  image (padded by 25 on each side of the two image axes with minus infinity), marks the pixels that equal their
  window's maximum and whose window's maximum exceeds one half, and then turns that mask into the table of the
  first 4096 marked positions in row-major order: a prefix sum of the mask gives each marked pixel its rank, a
  scatter-add counts how many ranks lie below each of 4096 slots, a second prefix sum turns the counts into the flat
  position of the k-th marked pixel, four quotient-and-remainder pairs split the flat position into its four
  coordinates, slots beyond the number of marked pixels get -1, and the four columns are laid side by side.
  Each outlined function's body is restated once as a list over the call's buffers; the program is the chain of
  its stretches, and every weakly fair execution ends with each buffer at the fold of the operations.
-/
import proofs.«136169_j81922206204546_2_alg».proof.ReferenceIdeal
import proofs.«136169_j81922206204546_2_alg».proof.Proof.Gen.ReferenceIdeal
import Idealize.ShloMosaic.Lib.StableHlo.Run
import Idealize.ShloMosaic.Lib.Pipeline.Regions

set_option maxRecDepth 16384

noncomputable section

namespace Cert.ReferenceIdeal.Hand

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

/-- The operations of one call: the inclusive prefix sum of 8388608 integers, as one window reduction padded 8388607 low. -/
abbrev ops_cumsum_0 (arg0 : StableHlo.TRef sig ⟨S8388608, .i32⟩) (φ : fn_cumsum_0.Bufs) : List (HloOp τ sig (Elt F)) :=
  [ StableHlo.TRef.nullary φ.c (constantI S_ 32 0#32),
    StableHlo.TRef.unary φ.c φ.v0 (broadcastInDim S_ ![] bcast_S_S_),
    StableHlo.TRef.binary arg0 φ.v0 φ.v1 (fun x v => Host.reduceWindow IntOp.addi ![8388608] ![1] ![8388607] ![0] x v reduceWindows_S8388608_S8388608_w8388608s1p8388607_0 h_S_) ]

/-- The operations of one call: the flattened mask as integers, then its prefix sum. -/
abbrev ops_cumsum (arg0 : StableHlo.TRef sig ⟨S8x1x1024x1024, .i1⟩) (φ : fn_cumsum.Bufs) : List (HloOp τ sig (Elt F)) :=
  [ StableHlo.TRef.reshape arg0 φ.v0 rfl shapeCasts_S8x1x1024x1024_S8388608,
    StableHlo.TRef.unary φ.v0 φ.v1 (extui 32 · natLt_1_32) ] ++
  ops_cumsum_0 φ.v1 φ.call0

/-- The operations of one call: the maximum with a scalar lower bound. -/
abbrev ops_clip (arg0 : StableHlo.TRef sig ⟨S8388608, .i32⟩) (arg1 : StableHlo.TRef sig ⟨S_, .i32⟩) (φ : fn_clip.Bufs) : List (HloOp τ sig (Elt F)) :=
  [ StableHlo.TRef.unary arg1 φ.v0 id,
    StableHlo.TRef.unary φ.v0 φ.v1 (broadcastInDim S8388608 ![] bcast_S_S8388608),
    StableHlo.TRef.binary φ.v1 arg0 φ.v2 maxsi ]

/-- The operations of one call: the inclusive prefix sum of 4096 integers. -/
abbrev ops_cumsum_2 (arg0 : StableHlo.TRef sig ⟨S4096, .i32⟩) (φ : fn_cumsum_2.Bufs) : List (HloOp τ sig (Elt F)) :=
  [ StableHlo.TRef.nullary φ.c (constantI S_ 32 0#32),
    StableHlo.TRef.unary φ.c φ.v0 (broadcastInDim S_ ![] bcast_S_S_),
    StableHlo.TRef.binary arg0 φ.v0 φ.v1 (fun x v => Host.reduceWindow IntOp.addi ![4096] ![1] ![4095] ![0] x v reduceWindows_S4096_S4096_w4096s1p4095_0 h_S_) ]

/-- The operations of one call: the prefix sum of 4096 integers. -/
abbrev ops_cumsum_1 (arg0 : StableHlo.TRef sig ⟨S4096, .i32⟩) (φ : fn_cumsum_1.Bufs) : List (HloOp τ sig (Elt F)) :=
  ops_cumsum_2 arg0 φ.call0

/-- The operations of one call: the elementwise choice between two vectors. -/
abbrev ops_where (arg0 : StableHlo.TRef sig ⟨S4096, .i1⟩) (arg1 : StableHlo.TRef sig ⟨S4096, .i32⟩) (arg2 : StableHlo.TRef sig ⟨S4096, .i32⟩) (φ : fn_where.Bufs) : List (HloOp τ sig (Elt F)) :=
  [ StableHlo.TRef.ternary arg0 arg1 arg2 φ.v0 select ]

/-- The operations of one call: the truncated quotient by a scalar divisor, less one where the signs differ and the remainder is not zero. -/
abbrev ops_floor_divide (arg0 : StableHlo.TRef sig ⟨S4096, .i32⟩) (arg1 : StableHlo.TRef sig ⟨S_, .i32⟩) (φ : fn_floor_divide.Bufs) : List (HloOp τ sig (Elt F)) :=
  [ StableHlo.TRef.unary arg1 φ.v0 (broadcastInDim S4096 ![] bcast_S_S4096),
    StableHlo.TRef.binary arg0 φ.v0 φ.v1 Host.divsi,
    StableHlo.TRef.unary arg0 φ.v2 signi,
    StableHlo.TRef.unary arg1 φ.v3 signi,
    StableHlo.TRef.unary φ.v3 φ.v4 (broadcastInDim S4096 ![] bcast_S_S4096),
    StableHlo.TRef.binary φ.v2 φ.v4 φ.v5 (cmpi .ne),
    StableHlo.TRef.unary arg1 φ.v6 (broadcastInDim S4096 ![] bcast_S_S4096),
    StableHlo.TRef.binary arg0 φ.v6 φ.v7 Host.remsi,
    StableHlo.TRef.nullary φ.c (constantI S_ 32 0#32),
    StableHlo.TRef.unary φ.c φ.v8 (broadcastInDim S4096 ![] bcast_S_S4096),
    StableHlo.TRef.binary φ.v7 φ.v8 φ.v9 (cmpi .ne),
    StableHlo.TRef.binary φ.v5 φ.v9 φ.v10 andi,
    StableHlo.TRef.nullary φ.c_0 (constantI S_ 32 1#32),
    StableHlo.TRef.unary φ.c_0 φ.v11 (broadcastInDim S4096 ![] bcast_S_S4096),
    StableHlo.TRef.binary φ.v1 φ.v11 φ.v12 subi ] ++
  ops_where φ.v10 φ.v12 φ.v1 φ.call0

/-- The operations of one call: the choice between two scalars. -/
abbrev ops_where_3 (arg0 : StableHlo.TRef sig ⟨S_, .i1⟩) (arg1 : StableHlo.TRef sig ⟨S_, .i32⟩) (arg2 : StableHlo.TRef sig ⟨S_, .i32⟩) (φ : fn_where_3.Bufs) : List (HloOp τ sig (Elt F)) :=
  [ StableHlo.TRef.ternary arg0 arg1 arg2 φ.v0 select ]

/-- The operations of one call: the truncated remainder by a scalar divisor (a zero divisor replaced by one), plus the divisor where it is not zero and its sign differs from the divisor's. -/
abbrev ops_remainder (arg0 : StableHlo.TRef sig ⟨S4096, .i32⟩) (arg1 : StableHlo.TRef sig ⟨S_, .i32⟩) (φ : fn_remainder.Bufs) : List (HloOp τ sig (Elt F)) :=
  [ StableHlo.TRef.unary arg1 φ.v0 id,
    StableHlo.TRef.nullary φ.c (constantI S_ 32 0#32),
    StableHlo.TRef.binary φ.v0 φ.c φ.v1 (cmpi .eq),
    StableHlo.TRef.nullary φ.c_0 (constantI S_ 32 1#32) ] ++
  ops_where_3 φ.v1 φ.c_0 φ.v0 φ.call0 ++
  [ StableHlo.TRef.unary φ.call0.v0 φ.v3 (broadcastInDim S4096 ![] bcast_S_S4096),
    StableHlo.TRef.binary arg0 φ.v3 φ.v4 Host.remsi,
    StableHlo.TRef.nullary φ.c_1 (constantI S_ 32 0#32),
    StableHlo.TRef.unary φ.c_1 φ.v5 (broadcastInDim S4096 ![] bcast_S_S4096),
    StableHlo.TRef.binary φ.v4 φ.v5 φ.v6 (cmpi .ne),
    StableHlo.TRef.nullary φ.c_2 (constantI S_ 32 0#32),
    StableHlo.TRef.unary φ.c_2 φ.v7 (broadcastInDim S4096 ![] bcast_S_S4096),
    StableHlo.TRef.binary φ.v4 φ.v7 φ.v8 (cmpi .slt),
    StableHlo.TRef.nullary φ.c_3 (constantI S_ 32 0#32),
    StableHlo.TRef.binary φ.call0.v0 φ.c_3 φ.v9 (cmpi .slt),
    StableHlo.TRef.unary φ.v9 φ.v10 (broadcastInDim S4096 ![] bcast_S_S4096),
    StableHlo.TRef.binary φ.v8 φ.v10 φ.v11 (cmpi .ne),
    StableHlo.TRef.binary φ.v11 φ.v6 φ.v12 andi,
    StableHlo.TRef.unary φ.call0.v0 φ.v13 (broadcastInDim S4096 ![] bcast_S_S4096),
    StableHlo.TRef.binary φ.v4 φ.v13 φ.v14 addi,
    StableHlo.TRef.ternary φ.v12 φ.v14 φ.v4 φ.v15 select ]

/-- The operations of one call: the elementwise choice between a scalar and a vector. -/
abbrev ops_where_4 (arg0 : StableHlo.TRef sig ⟨S4096, .i1⟩) (arg1 : StableHlo.TRef sig ⟨S_, .i32⟩) (arg2 : StableHlo.TRef sig ⟨S4096, .i32⟩) (φ : fn_where_4.Bufs) : List (HloOp τ sig (Elt F)) :=
  [ StableHlo.TRef.unary arg1 φ.v0 id,
    StableHlo.TRef.unary φ.v0 φ.v1 (broadcastInDim S4096 ![] bcast_S_S4096),
    StableHlo.TRef.ternary arg0 φ.v1 arg2 φ.v2 select ]

/-! ## The program's stretches: runs of its own operations, and each call -/

abbrev refOps0 : List (HloOp τ sig (Elt F)) :=
  [ StableHlo.nullary main_cst (constant S_ .f32 0xFF800000#32),
    StableHlo.unary main_cst main_v0 (broadcastInDim S_ ![] bcast_S_S_ : (⟨S_, .f32⟩ : BufTy).Contents (Elt F) → (⟨S_, .f32⟩ : BufTy).Contents (Elt F)),
    StableHlo.binary main_arg0 main_v0 main_v1 ((fun x v => Host.reduceWindow FloatOps.maximumf ![1, 1, 51, 51] ![1, 1, 1, 1] ![0, 0, 25, 25] ![0, 0, 25, 25] x v reduceWindows_S8x1x1024x1024_S8x1x1024x1024_w1s1p0_0_w1s1p0_0_w51s1p25_25_w51s1p25_25 h_S_) : (⟨S8x1x1024x1024, .f32⟩ : BufTy).Contents (Elt F) → (⟨S_, .f32⟩ : BufTy).Contents (Elt F) → (⟨S8x1x1024x1024, .f32⟩ : BufTy).Contents (Elt F)),
    StableHlo.binary main_arg0 main_v1 main_v2 (cmpf .oeq : (⟨S8x1x1024x1024, .f32⟩ : BufTy).Contents (Elt F) → (⟨S8x1x1024x1024, .f32⟩ : BufTy).Contents (Elt F) → (⟨S8x1x1024x1024, .i1⟩ : BufTy).Contents (Elt F)),
    StableHlo.nullary main_cst_0 (constant S_ .f32 0x3F000000#32),
    StableHlo.unary main_cst_0 main_v3 (broadcastInDim S8x1x1024x1024 ![] bcast_S_S8x1x1024x1024 : (⟨S_, .f32⟩ : BufTy).Contents (Elt F) → (⟨S8x1x1024x1024, .f32⟩ : BufTy).Contents (Elt F)),
    StableHlo.binary main_v1 main_v3 main_v4 (cmpf .ogt : (⟨S8x1x1024x1024, .f32⟩ : BufTy).Contents (Elt F) → (⟨S8x1x1024x1024, .f32⟩ : BufTy).Contents (Elt F) → (⟨S8x1x1024x1024, .i1⟩ : BufTy).Contents (Elt F)),
    StableHlo.binary main_v2 main_v4 main_v5 (andi : (⟨S8x1x1024x1024, .i1⟩ : BufTy).Contents (Elt F) → (⟨S8x1x1024x1024, .i1⟩ : BufTy).Contents (Elt F) → (⟨S8x1x1024x1024, .i1⟩ : BufTy).Contents (Elt F)) ]
abbrev refOps1 : List (HloOp τ sig (Elt F)) :=
  ops_cumsum (.of main_v5) main_call0
abbrev refOps2 : List (HloOp τ sig (Elt F)) :=
  [ StableHlo.nullary main_c (constantI S_ 32 0#32),
    StableHlo.unary main_c main_v7 (broadcastInDim S4096 ![] bcast_S_S4096 : (⟨S_, .i32⟩ : BufTy).Contents (Elt F) → (⟨S4096, .i32⟩ : BufTy).Contents (Elt F)),
    StableHlo.nullary main_c_1 (constantI S_ 32 0#32) ]
abbrev refOps3 : List (HloOp τ sig (Elt F)) :=
  ops_clip (.of main_v6) (.of main_c_1) main_call1
abbrev refOps4 : List (HloOp τ sig (Elt F)) :=
  [ StableHlo.nullary main_c_2 (constantI S_ 32 0#32),
    StableHlo.unary main_c_2 main_v9 (broadcastInDim S8388608 ![] bcast_S_S8388608 : (⟨S_, .i32⟩ : BufTy).Contents (Elt F) → (⟨S8388608, .i32⟩ : BufTy).Contents (Elt F)),
    StableHlo.binary main_v8 main_v9 main_v10 (cmpi .slt : (⟨S8388608, .i32⟩ : BufTy).Contents (Elt F) → (⟨S8388608, .i32⟩ : BufTy).Contents (Elt F) → (⟨S8388608, .i1⟩ : BufTy).Contents (Elt F)),
    StableHlo.nullary main_c_3 (constantI S_ 32 4096#32),
    StableHlo.unary main_c_3 main_v11 (broadcastInDim S8388608 ![] bcast_S_S8388608 : (⟨S_, .i32⟩ : BufTy).Contents (Elt F) → (⟨S8388608, .i32⟩ : BufTy).Contents (Elt F)),
    StableHlo.binary main_v8 main_v11 main_v12 (addi : (⟨S8388608, .i32⟩ : BufTy).Contents (Elt F) → (⟨S8388608, .i32⟩ : BufTy).Contents (Elt F) → (⟨S8388608, .i32⟩ : BufTy).Contents (Elt F)),
    StableHlo.ternary main_v10 main_v12 main_v8 main_v13 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.unary main_v13 main_v14 (broadcastInDim S8388608x1 ![0] bcast_S8388608_S8388608x1_0 : (⟨S8388608, .i32⟩ : BufTy).Contents (Elt F) → (⟨S8388608x1, .i32⟩ : BufTy).Contents (Elt F)),
    StableHlo.nullary main_c_4 (constantI S_ 32 1#32),
    StableHlo.unary main_c_4 main_v15 (broadcastInDim S8388608 ![] bcast_S_S8388608 : (⟨S_, .i32⟩ : BufTy).Contents (Elt F) → (⟨S8388608, .i32⟩ : BufTy).Contents (Elt F)),
    StableHlo.ternary main_v7 main_v14 main_v15 main_v16 ((fun x i u => Host.scatter scatter_S4096_S8388608x1_S8388608_n_0_0_1 IntOp.addi x i u) : (⟨S4096, .i32⟩ : BufTy).Contents (Elt F) → (⟨S8388608x1, .i32⟩ : BufTy).Contents (Elt F) → (⟨S8388608, .i32⟩ : BufTy).Contents (Elt F) → (⟨S4096, .i32⟩ : BufTy).Contents (Elt F)) ]
abbrev refOps5 : List (HloOp τ sig (Elt F)) :=
  ops_cumsum_1 (.of main_v16) main_call2
abbrev refOps6 : List (HloOp τ sig (Elt F)) :=
  [ StableHlo.nullary main_c_5 (constantI S_ 32 1048576#32) ]
abbrev refOps7 : List (HloOp τ sig (Elt F)) :=
  ops_floor_divide (.of main_v17) (.of main_c_5) main_call3
abbrev refOps8 : List (HloOp τ sig (Elt F)) :=
  [ StableHlo.nullary main_c_6 (constantI S_ 32 8#32) ]
abbrev refOps9 : List (HloOp τ sig (Elt F)) :=
  ops_remainder (.of main_v18) (.of main_c_6) main_call4
abbrev refOps10 : List (HloOp τ sig (Elt F)) :=
  [ StableHlo.nullary main_c_7 (constantI S_ 32 1048576#32) ]
abbrev refOps11 : List (HloOp τ sig (Elt F)) :=
  ops_floor_divide (.of main_v17) (.of main_c_7) main_call5
abbrev refOps12 : List (HloOp τ sig (Elt F)) :=
  [ StableHlo.nullary main_c_8 (constantI S_ 32 1#32) ]
abbrev refOps13 : List (HloOp τ sig (Elt F)) :=
  ops_remainder (.of main_v20) (.of main_c_8) main_call6
abbrev refOps14 : List (HloOp τ sig (Elt F)) :=
  [ StableHlo.nullary main_c_9 (constantI S_ 32 1024#32) ]
abbrev refOps15 : List (HloOp τ sig (Elt F)) :=
  ops_floor_divide (.of main_v17) (.of main_c_9) main_call7
abbrev refOps16 : List (HloOp τ sig (Elt F)) :=
  [ StableHlo.nullary main_c_10 (constantI S_ 32 1024#32) ]
abbrev refOps17 : List (HloOp τ sig (Elt F)) :=
  ops_remainder (.of main_v22) (.of main_c_10) main_call8
abbrev refOps18 : List (HloOp τ sig (Elt F)) :=
  [ StableHlo.nullary main_c_11 (constantI S_ 32 1#32) ]
abbrev refOps19 : List (HloOp τ sig (Elt F)) :=
  ops_floor_divide (.of main_v17) (.of main_c_11) main_call9
abbrev refOps20 : List (HloOp τ sig (Elt F)) :=
  [ StableHlo.nullary main_c_12 (constantI S_ 32 1024#32) ]
abbrev refOps21 : List (HloOp τ sig (Elt F)) :=
  ops_remainder (.of main_v24) (.of main_c_12) main_call10
abbrev refOps22 : List (HloOp τ sig (Elt F)) :=
  [ StableHlo.nullary main_v26 (iotaInDim S4096 32 0),
    StableHlo.unary main_v5 main_v27 ((extui 32 · natLt_1_32) : (⟨S8x1x1024x1024, .i1⟩ : BufTy).Contents (Elt F) → (⟨S8x1x1024x1024, .i32⟩ : BufTy).Contents (Elt F)),
    StableHlo.nullary main_c_13 (constantI S_ 32 0#32),
    StableHlo.binary main_v27 main_c_13 main_v28 ((fun x v => Host.reduce IntOp.addi x v reducesTo_S8x1x1024x1024_S_d0_1_2_3 h_S_) : (⟨S8x1x1024x1024, .i32⟩ : BufTy).Contents (Elt F) → (⟨S_, .i32⟩ : BufTy).Contents (Elt F) → (⟨S_, .i32⟩ : BufTy).Contents (Elt F)),
    StableHlo.unary main_v28 main_v29 (broadcastInDim S4096 ![] bcast_S_S4096 : (⟨S_, .i32⟩ : BufTy).Contents (Elt F) → (⟨S4096, .i32⟩ : BufTy).Contents (Elt F)),
    StableHlo.binary main_v26 main_v29 main_v30 (cmpi .sge : (⟨S4096, .i32⟩ : BufTy).Contents (Elt F) → (⟨S4096, .i32⟩ : BufTy).Contents (Elt F) → (⟨S4096, .i1⟩ : BufTy).Contents (Elt F)),
    StableHlo.nullary main_c_14 (constantI S_ 32 4294967295#32) ]
abbrev refOps23 : List (HloOp τ sig (Elt F)) :=
  ops_where_4 (.of main_v30) (.of main_c_14) (.of main_v19) main_call11
abbrev refOps24 : List (HloOp τ sig (Elt F)) :=
  [ StableHlo.nullary main_c_15 (constantI S_ 32 4294967295#32) ]
abbrev refOps25 : List (HloOp τ sig (Elt F)) :=
  ops_where_4 (.of main_v30) (.of main_c_15) (.of main_v21) main_call12
abbrev refOps26 : List (HloOp τ sig (Elt F)) :=
  [ StableHlo.nullary main_c_16 (constantI S_ 32 4294967295#32) ]
abbrev refOps27 : List (HloOp τ sig (Elt F)) :=
  ops_where_4 (.of main_v30) (.of main_c_16) (.of main_v23) main_call13
abbrev refOps28 : List (HloOp τ sig (Elt F)) :=
  [ StableHlo.nullary main_c_17 (constantI S_ 32 4294967295#32) ]
abbrev refOps29 : List (HloOp τ sig (Elt F)) :=
  ops_where_4 (.of main_v30) (.of main_c_17) (.of main_v25) main_call14
abbrev refOps30 : List (HloOp τ sig (Elt F)) :=
  [ StableHlo.unary main_v31 main_v35 (broadcastInDim S4096x1 ![0] bcast_S4096_S4096x1_0 : (⟨S4096, .i32⟩ : BufTy).Contents (Elt F) → (⟨S4096x1, .i32⟩ : BufTy).Contents (Elt F)),
    StableHlo.unary main_v32 main_v36 (broadcastInDim S4096x1 ![0] bcast_S4096_S4096x1_0 : (⟨S4096, .i32⟩ : BufTy).Contents (Elt F) → (⟨S4096x1, .i32⟩ : BufTy).Contents (Elt F)),
    StableHlo.unary main_v33 main_v37 (broadcastInDim S4096x1 ![0] bcast_S4096_S4096x1_0 : (⟨S4096, .i32⟩ : BufTy).Contents (Elt F) → (⟨S4096x1, .i32⟩ : BufTy).Contents (Elt F)),
    StableHlo.unary main_v34 main_v38 (broadcastInDim S4096x1 ![0] bcast_S4096_S4096x1_0 : (⟨S4096, .i32⟩ : BufTy).Contents (Elt F) → (⟨S4096x1, .i32⟩ : BufTy).Contents (Elt F)),
    StableHlo.nary ![main_v35, main_v36, main_v37, main_v38] main_v39 (fun u => concatenate S4096x4 1 [⟨S4096x1, u 0⟩, ⟨S4096x1, u 1⟩, ⟨S4096x1, u 2⟩, ⟨S4096x1, u 3⟩] concatenates_S4096x1_S4096x1_S4096x1_S4096x1_S4096x4_d1) ]

/-- All stretches, in order. -/
abbrev refOpss : List (List (HloOp τ sig (Elt F))) := [refOps0, refOps1, refOps2, refOps3, refOps4, refOps5, refOps6, refOps7, refOps8, refOps9, refOps10, refOps11, refOps12, refOps13, refOps14, refOps15, refOps16, refOps17, refOps18, refOps19, refOps20, refOps21, refOps22, refOps23, refOps24, refOps25, refOps26, refOps27, refOps28, refOps29, refOps30]

/-- The program is the chain of its stretches (checked by unfolding the printed program). -/
theorem main_chain (c : Dev nD) : main (F := F) c = (Pipeline.chain ((refOpss (F := F)).map StableHlo.seq) :
    Prog (TpuEff nD τ sig (Elt F) (Pipeline.Sig Λ₀ (Fin 0) fun p => (pcfgs (F := F) p).Adm) .tc) PUnit) := by
  chain_rfl

/-- Stretches run one after the other are their concatenation run as one line. -/
theorem chain_seqs {Λ : Labels} : ∀ opss : List (List (HloOp τ sig (Elt F))),
    (Pipeline.chain (opss.map StableHlo.seq) : Prog (TpuEff nD τ sig (Elt F) Λ .tc) PUnit) = StableHlo.seq opss.flatten
  | [] => rfl
  | ops :: opss => by rw [List.map_cons, Pipeline.chain_cons, chain_seqs opss, List.flatten_cons, seq_append]

/-- The program's operations as one list. -/
abbrev ops : List (HloOp τ sig (Elt F)) := (refOpss (F := F)).flatten

theorem main_eq (c : Dev nD) : main (F := F) c = seq ops := (main_chain c).trans (chain_seqs _)

end Cert.ReferenceIdeal.Hand

end
-- ==== Proof.RefFrame.lean ====
/-
  The reference runs to the end and leaves its argument alone. Every operation of the program reads and writes
  device buffers of the TensorCore only, allocates nothing, and writes one buffer of its own, never the argument;
  so every weakly fair execution terminates with each buffer at the fold of the operations over the initial memory,
  and the argument's buffer, which no operation writes, is as it was.
-/
import proofs.«136169_j81922206204546_2_alg».proof.Proof.RefRun

set_option maxRecDepth 16384

noncomputable section

namespace Cert.ReferenceIdeal.Hand

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

theorem scopedRefs_eq : (Finset.univ.filter fun b : Ref sig .tc => b.isScoped) = ∅ := by decide
theorem scopedSems_eq : (Finset.univ.filter fun sm : SemLoc sig => sm.isScoped .tc) = ∅ := by decide

set_option maxHeartbeats 4000000 in
/-- Operation by operation: device buffers only, nothing allocated, the argument not written. -/
theorem ops_facts : ∀ op ∈ (ops (F := F)),
    op.bufs ⊆ tcRefs τ sig ∧ op.fresh = ∅ ∧ Proc.devRef (τ := τ) .tc main_arg0 ∉ op.writes := by
  intro op hop
  simp only [ops, refOpss, refOps0, refOps1, refOps2, refOps3, refOps4, refOps5, refOps6, refOps7, refOps8, refOps9, refOps10, refOps11, refOps12, refOps13, refOps14, refOps15, refOps16, refOps17, refOps18, refOps19, refOps20, refOps21, refOps22, refOps23, refOps24, refOps25, refOps26, refOps27, refOps28, refOps29, refOps30,
    ops_cumsum_0, ops_cumsum, ops_clip, ops_cumsum_2, ops_cumsum_1, ops_where, ops_floor_divide, ops_where_3, ops_remainder, ops_where_4,
    List.flatten_cons, List.flatten_nil, List.append_nil, List.mem_append, List.mem_cons, List.mem_nil_iff, _root_.or_false, _root_.false_or] at hop
  repeat' (rcases hop with hop | hop)
  all_goals (
    refine ⟨?_, rfl, ?_⟩
    · simp only [nullary_bufs_sub, unary_bufs_sub, binary_bufs_sub, ternary_bufs_sub, quaternary_bufs_sub, reshape_bufs_sub,
        nary_bufs_sub, binaryIndexed_bufs_sub, unaryIndexed_bufs_sub]
    · simp only [nullary_writes, unary_writes, binary_writes, ternary_writes, quaternary_writes, reshape_writes,
        nary_writes, binaryIndexed_writes, unaryIndexed_writes, Finset.mem_singleton]
      exact devRef_ne_of_ne (by decide))

/-- Every weakly fair execution terminates with each buffer at the fold of the operations. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after (ops (F := F)) (launchContents m d) (Proc.devRef .tc b) :=
  run_seq scopedRefs_eq scopedSems_eq defs main (fun _ => ops) main_eq
    (fun _ => List.forall_iff_forall_mem.mpr fun op h => (ops_facts op h).1) m ρ (fun _ op h => (ops_facts op h).2.1)

/-- The argument ends as it began. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c main_arg0).trans
    ((after_of_forall_not_mem _ _ fun op hop => (ops_facts op hop).2.2).trans rfl)) (run m ρ)

end Cert.ReferenceIdeal.Hand

end
-- ==== Proof.LibUnitAxes.lean ====
/-
  Reading through a change of shape that only drops or adds two leading axes of extent one: the block [1, 1, a, b]
  viewed as the matrix [a, b] holds at (r, c) what the block holds at (0, 0, r, c), and the other way round. Both
  indices have the same row-major position r * b + c, which is all a change of shape preserves.
-/
import Idealize.ShloMosaic.Lib.Pipeline.Value
import Idealize.ShloMosaic.Lib.ValueIdx

namespace Cert.LibUnitAxes

open Idealize.ShloMosaic Idealize.ShloMosaic.ValueIdx

variable {α : Type} {a b : ℕ}

/-- The block [1, 1, a, b] viewed [a, b] reads (0, 0, r, c) at (r, c). -/
theorem shapeCast_drop2_apply (v : (⟨4, ![1, 1, a, b]⟩ : Shape).Idx → α)
    (h : (⟨4, ![1, 1, a, b]⟩ : Shape).ShapeCasts ⟨2, ![a, b]⟩) (r : Fin a) (c : Fin b) :
    shapeCast ⟨2, ![a, b]⟩ v h (ix2 r c) = v (ix4 (0 : Fin 1) (0 : Fin 1) r c) := by
  refine shapeCast_apply v h _ _ ?_
  rw [Shape.rowMajor_val_four, Shape.rowMajor_val_two]
  show ((0 * 1 + 0) * a + r.val) * b + c.val = r.val * b + c.val
  simp

/-- The matrix [a, b] viewed as the block [1, 1, a, b] reads (r, c) at (z, w, r, c). -/
theorem shapeCast_add2_apply (v : (⟨2, ![a, b]⟩ : Shape).Idx → α)
    (h : (⟨2, ![a, b]⟩ : Shape).ShapeCasts ⟨4, ![1, 1, a, b]⟩) (z w : Fin 1) (r : Fin a) (c : Fin b) :
    shapeCast ⟨4, ![1, 1, a, b]⟩ v h (ix4 z w r c) = v (ix2 r c) := by
  refine shapeCast_apply v h _ _ ?_
  rw [Shape.rowMajor_val_four, Shape.rowMajor_val_two]
  show r.val * b + c.val = ((z.val * 1 + w.val) * a + r.val) * b + c.val
  have hz : z.val = 0 := by omega
  have hw : w.val = 0 := by omega
  simp [hz, hw]

end Cert.LibUnitAxes
-- ==== Proof.LibWindowMax.lean ====
/-
  The maximum of a rectangular window taken two ways. A kernel takes it separably: along each row the running
  maximum of W+1 consecutive entries, then down each column the running maximum of H+1 consecutive row results. A
  window reduction takes it in one pass: a left fold of the maximum over some listing of all offsets of the window,
  starting from a value below everything. Both are the least upper bound of the same finite family, so they are
  equal; no arithmetic is involved, only that the maximum of a linear order is associative, commutative and
  idempotent, which is why the order and grouping of the comparisons do not matter.
-/
import Mathlib.Order.Lattice
import Mathlib.Order.MinMax
import Mathlib.Data.List.Basic

namespace Cert.WindowMax

variable {α : Type} [LinearOrder α]

/-- The running maximum of `g 0, …, g n`, taken left to right. -/
def runMax (g : ℕ → α) : ℕ → α
  | 0 => g 0
  | n + 1 => max (runMax g n) (g (n + 1))

/-- It is below a bound exactly when every term is. -/
theorem runMax_le_iff (g : ℕ → α) (n : ℕ) (b : α) : runMax g n ≤ b ↔ ∀ k ≤ n, g k ≤ b := by
  induction n with
  | zero => simp [runMax]
  | succ n ih =>
    simp only [runMax, max_le_iff, ih]
    constructor
    · rintro ⟨h1, h2⟩ k hk
      rcases Nat.lt_or_ge k (n + 1) with h | h
      · exact h1 k (Nat.lt_succ_iff.mp h)
      · obtain rfl : k = n + 1 := le_antisymm hk h
        exact h2
    · intro h
      exact ⟨fun k hk => h k (Nat.le_succ_of_le hk), h (n + 1) le_rfl⟩

/-- Every term is below it. -/
theorem le_runMax (g : ℕ → α) (n k : ℕ) (hk : k ≤ n) : g k ≤ runMax g n :=
  (runMax_le_iff g n _).mp le_rfl k hk

/-- A left fold of the maximum from `v` is below a bound exactly when `v` and every folded term are. -/
theorem foldl_max_le_iff {ι : Type} (f : ι → α) (l : List ι) (v b : α) :
    l.foldl (fun r n => max r (f n)) v ≤ b ↔ v ≤ b ∧ ∀ n ∈ l, f n ≤ b := by
  induction l generalizing v with
  | nil => simp
  | cons a l ih =>
    simp only [List.foldl_cons, ih, max_le_iff, List.mem_cons, forall_eq_or_imp]
    tauto

/-- Every folded term is below the fold. -/
theorem le_foldl_max {ι : Type} (f : ι → α) (l : List ι) (v : α) (n : ι) (hn : n ∈ l) :
    f n ≤ l.foldl (fun r n => max r (f n)) v :=
  ((foldl_max_le_iff f l v _).mp le_rfl).2 n hn

/-- THE LAW. The separable maximum over offsets `0..H` by `0..W` is the one-pass fold over any listing `l` of
    offsets that stays inside the window and reaches each of its offsets, from a start `v` below everything. -/
theorem sepMax_eq_fold {ι : Type} (l : List ι) (dh dw : ι → ℕ) (H W : ℕ) (f : ℕ → ℕ → α) (v : α)
    (hv : ∀ x, v ≤ x) (hin : ∀ n ∈ l, dh n ≤ H ∧ dw n ≤ W)
    (hall : ∀ a ≤ H, ∀ b ≤ W, ∃ n ∈ l, dh n = a ∧ dw n = b) :
    runMax (fun a => runMax (fun b => f a b) W) H = l.foldl (fun r n => max r (f (dh n) (dw n))) v := by
  apply le_antisymm
  · rw [runMax_le_iff]
    intro a ha
    rw [runMax_le_iff]
    intro b hb
    obtain ⟨n, hn, rfl, rfl⟩ := hall a ha b hb
    exact le_foldl_max (fun n => f (dh n) (dw n)) l v n hn
  · rw [foldl_max_le_iff]
    refine ⟨hv _, fun n hn => ?_⟩
    exact (le_runMax (fun b => f (dh n) b) W (dw n) (hin n hn).2).trans
      (le_runMax (fun a => runMax (fun b => f a b) W) H (dh n) (hin n hn).1)

end Cert.WindowMax
-- ==== Proof.KValH.lean ====
/-
  What one grid point's scratch holds. The padded block X of a point is read as a total function of row and column
  (minus infinity outside the block, which is never consulted). Each of the nine slab stores into the scratch writes,
  at row R and column C, the running maximum of X over the 51 columns C .. C+50 of row R; so the scratch as a whole
  is that function of (R, C).
-/
import proofs.«136169_j81922206204546_2_alg».proof.Proof.KernelIdealFr.Kit
import proofs.«136169_j81922206204546_2_alg».proof.Proof.LibUnitAxes
import proofs.«136169_j81922206204546_2_alg».proof.Proof.LibWindowMax
import Idealize.ShloMosaic.PureOps.Ideal
import Idealize.ShloMosaic.Lib.ValueIdx
import Idealize.ShloMosaic.Lib.Pipeline.Value

set_option maxRecDepth 65536

noncomputable section

namespace Cert.KernelIdeal.Val

open Cert.KernelIdeal Cert.KernelIdeal.Gen Cert.KernelIdeal.Fr Cert.WindowMax Cert.LibUnitAxes
open Idealize.ShloMosaic Idealize.ShloMosaic.ValueIdx Idealize.ShloMosaic.TcCoe Idealize.ShloMosaic.Tactic

theorem slice2_row_lt {A B a b o0 o1 : ℕ} (h : (⟨2, ![A, B]⟩ : Shape).Slices ![o0, o1] ⟨2, ![a, b]⟩) (r : Fin a) :
    o0 + r.val < A := lt_of_lt_of_le (Nat.add_lt_add_left r.isLt o0) (h.2 0)
theorem slice2_col_lt {A B a b o0 o1 : ℕ} (h : (⟨2, ![A, B]⟩ : Shape).Slices ![o0, o1] ⟨2, ![a, b]⟩) (c : Fin b) :
    o1 + c.val < B := lt_of_lt_of_le (Nat.add_lt_add_left c.isLt o1) (h.2 1)

/-- A matrix sliced at offsets (o0, o1), read at (r, c), is the matrix at (o0 + r, o1 + c). -/
theorem slice2_apply {α : Type} {A B a b : ℕ} (v : (⟨2, ![A, B]⟩ : Shape).Idx → α) (o0 o1 : ℕ)
    (h : (⟨2, ![A, B]⟩ : Shape).Slices ![o0, o1] ⟨2, ![a, b]⟩) (r : Fin a) (c : Fin b) :
    extractStridedSlice ⟨2, ![a, b]⟩ ![o0, o1] v h (ix2 r c)
      = v (ix2 (⟨o0 + r.val, slice2_row_lt h r⟩ : Fin A) (⟨o1 + c.val, slice2_col_lt h c⟩ : Fin B)) :=
  extractStridedSlice_apply _ _ h _ _ (fun x => by fin_cases x <;> rfl)

/-- The padded block as a total function of row and column: its entry inside, minus infinity outside. -/
def at2 (X : Vec Ideal S1x1x1080x1074 .f32) (R C : ℕ) : EReal :=
  if h : R < 1080 ∧ C < 1074 then X (ix4 (0 : Fin 1) (0 : Fin 1) ⟨R, h.1⟩ ⟨C, h.2⟩) else ⊥

/-- An entry of the block is that function at its row and column. -/
theorem at2_of (X : Vec Ideal S1x1x1080x1074 .f32) (j : S1x1x1080x1074.Idx) : X j = at2 X (j 2).val (j 3).val := by
  rw [at2, dif_pos ⟨(j 2).isLt, (j 3).isLt⟩]
  congr 1
  funext a
  match a with
  | ⟨0, _⟩ => exact Fin.ext (by have h : (j 0).val < 1 := (j 0).isLt; show (j 0).val = 0; omega)
  | ⟨1, _⟩ => exact Fin.ext (by have h : (j 1).val < 1 := (j 1).isLt; show (j 1).val = 0; omega)
  | ⟨2, _⟩ => rfl
  | ⟨3, _⟩ => rfl

/-- A load of rows R0 .. R0+n-1 of the block, viewed as an n x 1074 matrix, at (r, c), is the block at (R0 + r, c). -/
theorem rows_apply {n : ℕ} (X : Vec Ideal S1x1x1080x1074 .f32) (R0 : ℕ)
    (inb : ∀ a, (![0, 0, R0, 0] : Fin 4 → ℕ) a + (![1, 1, n, 1074] : Fin 4 → ℕ) a ≤ S1x1x1080x1074.size a)
    (h : (⟨4, ![1, 1, n, 1074]⟩ : Shape).ShapeCasts ⟨2, ![n, 1074]⟩) (r : Fin n) (c : Fin 1074) :
    shapeCast ⟨2, ![n, 1074]⟩ (View.ld X (Rect.unit (s := S1x1x1080x1074) ![0, 0, R0, 0] ![1, 1, n, 1074] inb)) h (ix2 r c)
      = at2 X (R0 + r.val) c.val := by
  rw [shapeCast_drop2_apply]
  show X ((Rect.unit (s := S1x1x1080x1074) ![0, 0, R0, 0] ![1, 1, n, 1074] inb).idx (ix4 (0 : Fin 1) (0 : Fin 1) r c)) = _
  rw [at2_of X]
  congr 1 <;> simp [Rect.unit]

/-- The running maximum of the 51 entries of row R starting at column C. -/
def rowMax (X : Vec Ideal S1x1x1080x1074 .f32) (R C : ℕ) : EReal := runMax (fun dw => at2 X R (dw + C)) 50

/-- Slab 0 of the scratch (rows 0 .. 119): the running maximum of row 0 + r from column c. -/
theorem hslab0 (c : Dev nD) (arg1 : Memref sig .tc .vmem S1x1x1080x1074 .f32) (harg1 : arg1.IsWhole)
    (x0 : Vec Ideal S1x1x1080x1074 .f32) (r : Fin 120) (cc : Fin 1024) :
    (k0_pay4 (F := Ideal) (kernelRun0.sl.r c arg1 harg1 x0) (kernelRun0.sl.r_1 c arg1 harg1 x0)) (ix2 r cc) = rowMax x0 (0 + (0 + r.val)) cc.val := by
  simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40,
    kernelRun0.sl.r, kernelRun0.sl.r_1, kernelRun0.sl.r_2, kernelRun0.sl.r_3, kernelRun0.sl.r_4, kernelRun0.sl.r_5, kernelRun0.sl.r_6, kernelRun0.sl.r_7, kernelRun0.sl.r_8, kernelRun0.sl.r_9, kernelRun0.sl.r_10, kernelRun0.sl.r_11, kernelRun0.sl.r_12, kernelRun0.sl.r_13, kernelRun0.sl.r_14, kernelRun0.sl.r_15, kernelRun0.sl.r_16, kernelRun0.sl.r_17, kernelRun0.sl.r_18, kernelRun0.sl.r_19, kernelRun0.sl.r_20, kernelRun0.sl.r_21, kernelRun0.sl.r_22, kernelRun0.sl.r_23, kernelRun0.sl.r_24, kernelRun0.sl.r_25, kernelRun0.sl.r_26, kernelRun0.sl.r_27, kernelRun0.sl.r_28, kernelRun0.sl.r_29,
    View.readAt_eq_ld, harg1.read_unread, shapeCast_self]
  simp only [maximumf, slice2_apply]
  repeat rw [rows_apply]
  rfl

/-- Slab 1 of the scratch (rows 120 .. 239): the running maximum of row 120 + r from column c. -/
theorem hslab1 (c : Dev nD) (arg1 : Memref sig .tc .vmem S1x1x1080x1074 .f32) (harg1 : arg1.IsWhole)
    (x0 : Vec Ideal S1x1x1080x1074 .f32) (r : Fin 120) (cc : Fin 1024) :
    (k0_pay8 (F := Ideal) (kernelRun0.sl.r_2 c arg1 harg1 x0) (kernelRun0.sl.r_3 c arg1 harg1 x0) (kernelRun0.sl.r_4 c arg1 harg1 x0)) (ix2 r cc) = rowMax x0 (120 + (0 + r.val)) cc.val := by
  simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40,
    kernelRun0.sl.r, kernelRun0.sl.r_1, kernelRun0.sl.r_2, kernelRun0.sl.r_3, kernelRun0.sl.r_4, kernelRun0.sl.r_5, kernelRun0.sl.r_6, kernelRun0.sl.r_7, kernelRun0.sl.r_8, kernelRun0.sl.r_9, kernelRun0.sl.r_10, kernelRun0.sl.r_11, kernelRun0.sl.r_12, kernelRun0.sl.r_13, kernelRun0.sl.r_14, kernelRun0.sl.r_15, kernelRun0.sl.r_16, kernelRun0.sl.r_17, kernelRun0.sl.r_18, kernelRun0.sl.r_19, kernelRun0.sl.r_20, kernelRun0.sl.r_21, kernelRun0.sl.r_22, kernelRun0.sl.r_23, kernelRun0.sl.r_24, kernelRun0.sl.r_25, kernelRun0.sl.r_26, kernelRun0.sl.r_27, kernelRun0.sl.r_28, kernelRun0.sl.r_29,
    View.readAt_eq_ld, harg1.read_unread, shapeCast_self]
  simp only [maximumf, slice2_apply]
  repeat rw [rows_apply]
  rfl

/-- Slab 2 of the scratch (rows 240 .. 359): the running maximum of row 240 + r from column c. -/
theorem hslab2 (c : Dev nD) (arg1 : Memref sig .tc .vmem S1x1x1080x1074 .f32) (harg1 : arg1.IsWhole)
    (x0 : Vec Ideal S1x1x1080x1074 .f32) (r : Fin 120) (cc : Fin 1024) :
    (k0_pay12 (F := Ideal) (kernelRun0.sl.r_5 c arg1 harg1 x0) (kernelRun0.sl.r_7 c arg1 harg1 x0)) (ix2 r cc) = rowMax x0 (240 + (0 + r.val)) cc.val := by
  simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40,
    kernelRun0.sl.r, kernelRun0.sl.r_1, kernelRun0.sl.r_2, kernelRun0.sl.r_3, kernelRun0.sl.r_4, kernelRun0.sl.r_5, kernelRun0.sl.r_6, kernelRun0.sl.r_7, kernelRun0.sl.r_8, kernelRun0.sl.r_9, kernelRun0.sl.r_10, kernelRun0.sl.r_11, kernelRun0.sl.r_12, kernelRun0.sl.r_13, kernelRun0.sl.r_14, kernelRun0.sl.r_15, kernelRun0.sl.r_16, kernelRun0.sl.r_17, kernelRun0.sl.r_18, kernelRun0.sl.r_19, kernelRun0.sl.r_20, kernelRun0.sl.r_21, kernelRun0.sl.r_22, kernelRun0.sl.r_23, kernelRun0.sl.r_24, kernelRun0.sl.r_25, kernelRun0.sl.r_26, kernelRun0.sl.r_27, kernelRun0.sl.r_28, kernelRun0.sl.r_29,
    View.readAt_eq_ld, harg1.read_unread, shapeCast_self]
  simp only [maximumf, slice2_apply]
  repeat rw [rows_apply]
  rfl

/-- Slab 3 of the scratch (rows 360 .. 479): the running maximum of row 360 + r from column c. -/
theorem hslab3 (c : Dev nD) (arg1 : Memref sig .tc .vmem S1x1x1080x1074 .f32) (harg1 : arg1.IsWhole)
    (x0 : Vec Ideal S1x1x1080x1074 .f32) (r : Fin 120) (cc : Fin 1024) :
    (k0_pay18 (F := Ideal) (kernelRun0.sl.r_8 c arg1 harg1 x0) (kernelRun0.sl.r_11 c arg1 harg1 x0) (kernelRun0.sl.r_12 c arg1 harg1 x0)) (ix2 r cc) = rowMax x0 (360 + (0 + r.val)) cc.val := by
  simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40,
    kernelRun0.sl.r, kernelRun0.sl.r_1, kernelRun0.sl.r_2, kernelRun0.sl.r_3, kernelRun0.sl.r_4, kernelRun0.sl.r_5, kernelRun0.sl.r_6, kernelRun0.sl.r_7, kernelRun0.sl.r_8, kernelRun0.sl.r_9, kernelRun0.sl.r_10, kernelRun0.sl.r_11, kernelRun0.sl.r_12, kernelRun0.sl.r_13, kernelRun0.sl.r_14, kernelRun0.sl.r_15, kernelRun0.sl.r_16, kernelRun0.sl.r_17, kernelRun0.sl.r_18, kernelRun0.sl.r_19, kernelRun0.sl.r_20, kernelRun0.sl.r_21, kernelRun0.sl.r_22, kernelRun0.sl.r_23, kernelRun0.sl.r_24, kernelRun0.sl.r_25, kernelRun0.sl.r_26, kernelRun0.sl.r_27, kernelRun0.sl.r_28, kernelRun0.sl.r_29,
    View.readAt_eq_ld, harg1.read_unread, shapeCast_self]
  simp only [maximumf, slice2_apply]
  repeat rw [rows_apply]
  rfl

/-- Slab 4 of the scratch (rows 480 .. 599): the running maximum of row 480 + r from column c. -/
theorem hslab4 (c : Dev nD) (arg1 : Memref sig .tc .vmem S1x1x1080x1074 .f32) (harg1 : arg1.IsWhole)
    (x0 : Vec Ideal S1x1x1080x1074 .f32) (r : Fin 120) (cc : Fin 1024) :
    (k0_pay22 (F := Ideal) (kernelRun0.sl.r_13 c arg1 harg1 x0) (kernelRun0.sl.r_15 c arg1 harg1 x0)) (ix2 r cc) = rowMax x0 (480 + (0 + r.val)) cc.val := by
  simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40,
    kernelRun0.sl.r, kernelRun0.sl.r_1, kernelRun0.sl.r_2, kernelRun0.sl.r_3, kernelRun0.sl.r_4, kernelRun0.sl.r_5, kernelRun0.sl.r_6, kernelRun0.sl.r_7, kernelRun0.sl.r_8, kernelRun0.sl.r_9, kernelRun0.sl.r_10, kernelRun0.sl.r_11, kernelRun0.sl.r_12, kernelRun0.sl.r_13, kernelRun0.sl.r_14, kernelRun0.sl.r_15, kernelRun0.sl.r_16, kernelRun0.sl.r_17, kernelRun0.sl.r_18, kernelRun0.sl.r_19, kernelRun0.sl.r_20, kernelRun0.sl.r_21, kernelRun0.sl.r_22, kernelRun0.sl.r_23, kernelRun0.sl.r_24, kernelRun0.sl.r_25, kernelRun0.sl.r_26, kernelRun0.sl.r_27, kernelRun0.sl.r_28, kernelRun0.sl.r_29,
    View.readAt_eq_ld, harg1.read_unread, shapeCast_self]
  simp only [maximumf, slice2_apply]
  repeat rw [rows_apply]
  rfl

/-- Slab 5 of the scratch (rows 600 .. 719): the running maximum of row 600 + r from column c. -/
theorem hslab5 (c : Dev nD) (arg1 : Memref sig .tc .vmem S1x1x1080x1074 .f32) (harg1 : arg1.IsWhole)
    (x0 : Vec Ideal S1x1x1080x1074 .f32) (r : Fin 120) (cc : Fin 1024) :
    (k0_pay28 (F := Ideal) (kernelRun0.sl.r_16 c arg1 harg1 x0) (kernelRun0.sl.r_19 c arg1 harg1 x0) (kernelRun0.sl.r_20 c arg1 harg1 x0)) (ix2 r cc) = rowMax x0 (600 + (0 + r.val)) cc.val := by
  simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40,
    kernelRun0.sl.r, kernelRun0.sl.r_1, kernelRun0.sl.r_2, kernelRun0.sl.r_3, kernelRun0.sl.r_4, kernelRun0.sl.r_5, kernelRun0.sl.r_6, kernelRun0.sl.r_7, kernelRun0.sl.r_8, kernelRun0.sl.r_9, kernelRun0.sl.r_10, kernelRun0.sl.r_11, kernelRun0.sl.r_12, kernelRun0.sl.r_13, kernelRun0.sl.r_14, kernelRun0.sl.r_15, kernelRun0.sl.r_16, kernelRun0.sl.r_17, kernelRun0.sl.r_18, kernelRun0.sl.r_19, kernelRun0.sl.r_20, kernelRun0.sl.r_21, kernelRun0.sl.r_22, kernelRun0.sl.r_23, kernelRun0.sl.r_24, kernelRun0.sl.r_25, kernelRun0.sl.r_26, kernelRun0.sl.r_27, kernelRun0.sl.r_28, kernelRun0.sl.r_29,
    View.readAt_eq_ld, harg1.read_unread, shapeCast_self]
  simp only [maximumf, slice2_apply]
  repeat rw [rows_apply]
  rfl

/-- Slab 6 of the scratch (rows 720 .. 839): the running maximum of row 720 + r from column c. -/
theorem hslab6 (c : Dev nD) (arg1 : Memref sig .tc .vmem S1x1x1080x1074 .f32) (harg1 : arg1.IsWhole)
    (x0 : Vec Ideal S1x1x1080x1074 .f32) (r : Fin 120) (cc : Fin 1024) :
    (k0_pay32 (F := Ideal) (kernelRun0.sl.r_21 c arg1 harg1 x0) (kernelRun0.sl.r_23 c arg1 harg1 x0)) (ix2 r cc) = rowMax x0 (720 + (0 + r.val)) cc.val := by
  simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40,
    kernelRun0.sl.r, kernelRun0.sl.r_1, kernelRun0.sl.r_2, kernelRun0.sl.r_3, kernelRun0.sl.r_4, kernelRun0.sl.r_5, kernelRun0.sl.r_6, kernelRun0.sl.r_7, kernelRun0.sl.r_8, kernelRun0.sl.r_9, kernelRun0.sl.r_10, kernelRun0.sl.r_11, kernelRun0.sl.r_12, kernelRun0.sl.r_13, kernelRun0.sl.r_14, kernelRun0.sl.r_15, kernelRun0.sl.r_16, kernelRun0.sl.r_17, kernelRun0.sl.r_18, kernelRun0.sl.r_19, kernelRun0.sl.r_20, kernelRun0.sl.r_21, kernelRun0.sl.r_22, kernelRun0.sl.r_23, kernelRun0.sl.r_24, kernelRun0.sl.r_25, kernelRun0.sl.r_26, kernelRun0.sl.r_27, kernelRun0.sl.r_28, kernelRun0.sl.r_29,
    View.readAt_eq_ld, harg1.read_unread, shapeCast_self]
  simp only [maximumf, slice2_apply]
  repeat rw [rows_apply]
  rfl

/-- Slab 7 of the scratch (rows 840 .. 959): the running maximum of row 840 + r from column c. -/
theorem hslab7 (c : Dev nD) (arg1 : Memref sig .tc .vmem S1x1x1080x1074 .f32) (harg1 : arg1.IsWhole)
    (x0 : Vec Ideal S1x1x1080x1074 .f32) (r : Fin 120) (cc : Fin 1024) :
    (k0_pay37 (F := Ideal) (kernelRun0.sl.r_27 c arg1 harg1 x0)) (ix2 r cc) = rowMax x0 (840 + (0 + r.val)) cc.val := by
  simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40,
    kernelRun0.sl.r, kernelRun0.sl.r_1, kernelRun0.sl.r_2, kernelRun0.sl.r_3, kernelRun0.sl.r_4, kernelRun0.sl.r_5, kernelRun0.sl.r_6, kernelRun0.sl.r_7, kernelRun0.sl.r_8, kernelRun0.sl.r_9, kernelRun0.sl.r_10, kernelRun0.sl.r_11, kernelRun0.sl.r_12, kernelRun0.sl.r_13, kernelRun0.sl.r_14, kernelRun0.sl.r_15, kernelRun0.sl.r_16, kernelRun0.sl.r_17, kernelRun0.sl.r_18, kernelRun0.sl.r_19, kernelRun0.sl.r_20, kernelRun0.sl.r_21, kernelRun0.sl.r_22, kernelRun0.sl.r_23, kernelRun0.sl.r_24, kernelRun0.sl.r_25, kernelRun0.sl.r_26, kernelRun0.sl.r_27, kernelRun0.sl.r_28, kernelRun0.sl.r_29,
    View.readAt_eq_ld, harg1.read_unread, shapeCast_self]
  simp only [maximumf, slice2_apply]
  repeat rw [rows_apply]
  rfl

/-- Slab 8 of the scratch (rows 960 .. 1079): the running maximum of row 960 + r from column c. -/
theorem hslab8 (c : Dev nD) (arg1 : Memref sig .tc .vmem S1x1x1080x1074 .f32) (harg1 : arg1.IsWhole)
    (x0 : Vec Ideal S1x1x1080x1074 .f32) (r : Fin 120) (cc : Fin 1024) :
    (k0_pay40 (F := Ideal) (kernelRun0.sl.r_28 c arg1 harg1 x0) (kernelRun0.sl.r_29 c arg1 harg1 x0)) (ix2 r cc) = rowMax x0 (960 + (0 + r.val)) cc.val := by
  simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40,
    kernelRun0.sl.r, kernelRun0.sl.r_1, kernelRun0.sl.r_2, kernelRun0.sl.r_3, kernelRun0.sl.r_4, kernelRun0.sl.r_5, kernelRun0.sl.r_6, kernelRun0.sl.r_7, kernelRun0.sl.r_8, kernelRun0.sl.r_9, kernelRun0.sl.r_10, kernelRun0.sl.r_11, kernelRun0.sl.r_12, kernelRun0.sl.r_13, kernelRun0.sl.r_14, kernelRun0.sl.r_15, kernelRun0.sl.r_16, kernelRun0.sl.r_17, kernelRun0.sl.r_18, kernelRun0.sl.r_19, kernelRun0.sl.r_20, kernelRun0.sl.r_21, kernelRun0.sl.r_22, kernelRun0.sl.r_23, kernelRun0.sl.r_24, kernelRun0.sl.r_25, kernelRun0.sl.r_26, kernelRun0.sl.r_27, kernelRun0.sl.r_28, kernelRun0.sl.r_29,
    View.readAt_eq_ld, harg1.read_unread, shapeCast_self]
  simp only [maximumf, slice2_apply]
  repeat rw [rows_apply]
  rfl

/-- The scratch after the nine slab stores, as one function of its index. -/
def scratchOf (X : Vec Ideal S1x1x1080x1074 .f32) : S1080x1024.Idx → EReal := fun y => rowMax X (y 0).val (y 1).val

/-- Every slab store writes the block of that function its rectangle names. -/
theorem scratch_pieces (c : Dev nD) (arg1 : Memref sig .tc .vmem S1x1x1080x1074 .f32) (harg1 : arg1.IsWhole)
    (x0 : Vec Ideal S1x1x1080x1074 .f32) :
    ∀ p ∈ kernelRun0.sl.HS0_9 (F := Ideal) c arg1 harg1 x0, ∀ x : p.1.shape.Idx, p.2 x = scratchOf x0 (p.1.emb x) := by
  intro p hp
  simp only [kernelRun0.sl.HS0_9, List.mem_cons, List.mem_nil_iff, _root_.or_false] at hp
  rcases hp with rfl | rfl | rfl | rfl | rfl | rfl | rfl | rfl | rfl
  all_goals (
    intro x
    obtain ⟨r, cc, rfl⟩ : ∃ (r : Fin 120) (cc : Fin 1024), x = ix2 r cc := ⟨x 0, x 1, eq_ix2 x⟩)
  · refine (hslab8 c arg1 harg1 x0 r cc).trans ?_
    unfold scratchOf
    congr 1
    · show 960 + (0 + r.val) = 960 + 1 * r.val; omega
    · show cc.val = 0 + 1 * cc.val; omega
  · refine (hslab7 c arg1 harg1 x0 r cc).trans ?_
    unfold scratchOf
    congr 1
    · show 840 + (0 + r.val) = 840 + 1 * r.val; omega
    · show cc.val = 0 + 1 * cc.val; omega
  · refine (hslab6 c arg1 harg1 x0 r cc).trans ?_
    unfold scratchOf
    congr 1
    · show 720 + (0 + r.val) = 720 + 1 * r.val; omega
    · show cc.val = 0 + 1 * cc.val; omega
  · refine (hslab5 c arg1 harg1 x0 r cc).trans ?_
    unfold scratchOf
    congr 1
    · show 600 + (0 + r.val) = 600 + 1 * r.val; omega
    · show cc.val = 0 + 1 * cc.val; omega
  · refine (hslab4 c arg1 harg1 x0 r cc).trans ?_
    unfold scratchOf
    congr 1
    · show 480 + (0 + r.val) = 480 + 1 * r.val; omega
    · show cc.val = 0 + 1 * cc.val; omega
  · refine (hslab3 c arg1 harg1 x0 r cc).trans ?_
    unfold scratchOf
    congr 1
    · show 360 + (0 + r.val) = 360 + 1 * r.val; omega
    · show cc.val = 0 + 1 * cc.val; omega
  · refine (hslab2 c arg1 harg1 x0 r cc).trans ?_
    unfold scratchOf
    congr 1
    · show 240 + (0 + r.val) = 240 + 1 * r.val; omega
    · show cc.val = 0 + 1 * cc.val; omega
  · refine (hslab1 c arg1 harg1 x0 r cc).trans ?_
    unfold scratchOf
    congr 1
    · show 120 + (0 + r.val) = 120 + 1 * r.val; omega
    · show cc.val = 0 + 1 * cc.val; omega
  · refine (hslab0 c arg1 harg1 x0 r cc).trans ?_
    unfold scratchOf
    congr 1
    · show 0 + (0 + r.val) = 0 + 1 * r.val; omega
    · show cc.val = 0 + 1 * cc.val; omega

/-- The nine slabs tile the scratch. -/
theorem scratch_cover (c : Dev nD) (arg1 : Memref sig .tc .vmem S1x1x1080x1074 .f32) (harg1 : arg1.IsWhole)
    (x0 : Vec Ideal S1x1x1080x1074 .f32) (y : S1080x1024.Idx) :
    ∃ p ∈ kernelRun0.sl.HS0_9 (F := Ideal) c arg1 harg1 x0, y ∈ p.1.set :=
  View.cover_of_tiledL (kernelRun0.sl.HS0_9 (F := Ideal) c arg1 harg1 x0) S120x1024.size (by sl_kernel_rfl) y

/-- So the scratch, read back anywhere, is that function. -/
theorem scratch_canon (c : Dev nD) (arg1 : Memref sig .tc .vmem S1x1x1080x1074 .f32) (harg1 : arg1.IsWhole)
    (x0 : Vec Ideal S1x1x1080x1074 .f32) (y : S1080x1024.Idx) :
    View.canon (kernelRun0.sl.HS0_9 (F := Ideal) c arg1 harg1 x0) y = scratchOf x0 y :=
  View.canon_apply_of_pieces (scratchOf x0) _ (scratch_pieces c arg1 harg1 x0) y (scratch_cover c arg1 harg1 x0 y)

end Cert.KernelIdeal.Val

end
-- ==== Proof.KValV.lean ====
/-
  What one grid point writes into its block of the mask. The scratch, read back through a box of 184 rows, gives the
  row-wise running maxima; the running maximum of 51 consecutive rows of those, at (R, C), is the maximum of the padded
  block over the 51 x 51 window whose top-left corner is (R, C). The stored value is one where the window's centre
  (R + 25, C + 25) equals that maximum and the maximum exceeds one half, and zero elsewhere. Each of the eight slab
  stores writes the block of this one function that its rectangle names, and the slabs tile the mask block.
-/
import proofs.«136169_j81922206204546_2_alg».proof.Proof.KValH
import Idealize.ShloMosaic.Lib.Pipeline.FrameBody

set_option maxRecDepth 65536

noncomputable section

namespace Cert.KernelIdeal.Val

open Cert.KernelIdeal Cert.KernelIdeal.Gen Cert.KernelIdeal.Fr Cert.WindowMax Cert.LibUnitAxes
open Idealize.ShloMosaic Idealize.ShloMosaic.ValueIdx Idealize.ShloMosaic.TcCoe Idealize.ShloMosaic.Tactic

/-- A load of 184 rows of the scratch from row R0, read at (r, c): the running maximum of row R0 + r from column c. -/
theorem vload_apply (c : Dev nD) (arg1 : Memref sig .tc .vmem S1x1x1080x1074 .f32) (harg1 : arg1.IsWhole)
    (arg3 : Memref sig .tc .vmem S1080x1024 .f32) (x0 : Vec Ideal S1x1x1080x1074 .f32) (R0 : ℕ)
    (inb : ∀ a, (![R0, 0] : Fin 2 → ℕ) a + S184x1024.size a ≤ S1080x1024.size a) (r : Fin 184) (cc : Fin 1024) :
    arg3.view.readCov (kernelRun0.sl.HS0_9 (F := Ideal) c arg1 harg1 x0)
        (Rect.unit (s := S1080x1024) ![R0, 0] S184x1024.size inb).toLoadRect (ix2 r cc)
      = rowMax x0 (R0 + r.val) cc.val := by
  rw [View.readCov_eq_canon']
  show View.canon _ _ = _
  rw [scratch_canon]
  unfold scratchOf
  congr 1
  · show R0 + 1 * r.val = R0 + r.val; omega
  · show 0 + 1 * cc.val = cc.val; omega

/-- The column-wise running maximum of 51 row maxima, in the spelling the slab at row R0 uses. -/
def poolK (X : Vec Ideal S1x1x1080x1074 .f32) (R0 r cc : ℕ) : EReal := runMax (fun dh => rowMax X (R0 + (dh + r)) (0 + cc)) 50

/-- The stored mask value, in the spelling the slab at row R0 uses: one where the window's centre equals the window's
    maximum and that maximum exceeds one half, else zero. -/
def maskK (X : Vec Ideal S1x1x1080x1074 .f32) (R0 r cc : ℕ) : EReal :=
  FloatOps.sitofp (F := Ideal) .f32
    ((IntOp.andi (FloatOps.cmpf (F := Ideal) (φ := .f32) .oeq (at2 X (R0 + (25 + r)) (25 + cc)) (poolK X R0 r cc))
        (FloatOps.cmpf (F := Ideal) (φ := .f32) .ogt (poolK X R0 r cc) (Scalar.ofBits (F := Ideal) .f32 0x3F000000#32))).setWidth 32)

/-- The spelling does not matter: only the row R0 + r and the column count. -/
theorem maskK_shift (X : Vec Ideal S1x1x1080x1074 .f32) (R0 r cc R C : ℕ) (hR : R = R0 + 1 * r) (hC : C = 0 + 1 * cc) :
    maskK X R0 r cc = maskK X 0 R C := by
  have hR' : R = R0 + r := by omega
  have hC' : C = cc := by omega
  rw [hR', hC']
  unfold maskK poolK
  have e1 : ∀ dh, rowMax X (0 + (dh + (R0 + r))) (0 + cc) = rowMax X (R0 + (dh + r)) (0 + cc) := fun dh => by
    congr 1; omega
  have e2 : 0 + (25 + (R0 + r)) = R0 + (25 + r) := by omega
  simp only [e1, e2]

/-- The mask block as one function of its index. -/
def outBlock (X : Vec Ideal S1x1x1080x1074 .f32) : S1x1x1024x1024.Idx → EReal := fun y => maskK X 0 (y 2).val (y 3).val

set_option maxHeartbeats 2000000 in
/-- Every slab store into the mask block writes the block of that function its rectangle names. -/
theorem out_pieces (c : Dev nD) (i : grid0.Coords)
    (arg1 : Memref sig .tc .vmem S1x1x1080x1074 .f32) (harg1 : arg1.IsWhole)
    (arg2 : Memref sig .tc .vmem S1x1x1024x1024 .f32) (harg2 : arg2.IsWhole)
    (arg3 : Memref sig .tc .vmem S1080x1024 .f32) (harg3 : arg3.IsWhole)
    (x0 : Vec Ideal S1x1x1080x1074 .f32) :
    ∀ p ∈ (kernelRun0 (F := Ideal) c i arg1 harg1 arg2 harg2 arg3 harg3 x0).1, ∀ x : p.1.shape.Idx, p.2 x = outBlock x0 (p.1.emb x) := by
  intro p hp
  unfold kernelRun0 at hp
  dsimp only at hp
  simp only [List.mem_cons, List.mem_nil_iff, _root_.or_false] at hp
  rcases hp with rfl | rfl | rfl | rfl | rfl | rfl | rfl | rfl
  all_goals (
    intro x
    obtain ⟨z, w, r, cc, rfl⟩ : ∃ (z w : Fin 1) (r : Fin 128) (cc : Fin 1024), x = ix4 z w r cc := ⟨x 0, x 1, x 2, x 3, eq_ix4 x⟩
    unfold outBlock)
  · -- rows 896 .. 1023
    refine (?_ : _ = maskK x0 896 r.val cc.val).trans (maskK_shift x0 896 r.val cc.val _ _ rfl rfl)
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65,
      kernelRun0.sl.r, kernelRun0.sl.r_1, kernelRun0.sl.r_2, kernelRun0.sl.r_3, kernelRun0.sl.r_4, kernelRun0.sl.r_5, kernelRun0.sl.r_6, kernelRun0.sl.r_7, kernelRun0.sl.r_8, kernelRun0.sl.r_9, kernelRun0.sl.r_10, kernelRun0.sl.r_11, kernelRun0.sl.r_12, kernelRun0.sl.r_13, kernelRun0.sl.r_14, kernelRun0.sl.r_15, kernelRun0.sl.r_16, kernelRun0.sl.r_17, kernelRun0.sl.r_18, kernelRun0.sl.r_19, kernelRun0.sl.r_20, kernelRun0.sl.r_21, kernelRun0.sl.r_22, kernelRun0.sl.r_23, kernelRun0.sl.r_24, kernelRun0.sl.r_25, kernelRun0.sl.r_26, kernelRun0.sl.r_27, kernelRun0.sl.r_28, kernelRun0.sl.r_29, kernelRun0.sl.r_30, kernelRun0.sl.r_31, kernelRun0.sl.r_32, kernelRun0.sl.r_33, kernelRun0.sl.r_34, kernelRun0.sl.r_35, kernelRun0.sl.r_36, kernelRun0.sl.r_37, kernelRun0.sl.r_38, kernelRun0.sl.r_39, kernelRun0.sl.r_40, kernelRun0.sl.r_41, kernelRun0.sl.r_42, kernelRun0.sl.r_43, kernelRun0.sl.r_44, kernelRun0.sl.r_45, kernelRun0.sl.r_46, kernelRun0.sl.r_47,
      kernelRun0.sl.v954, kernelRun0.sl.v1068, kernelRun0.sl.v1182, kernelRun0.sl.v1296, kernelRun0.sl.v1410, kernelRun0.sl.v1524, kernelRun0.sl.v1638, kernelRun0.sl.v1752,
      View.readAt_eq_ld, harg1.read_unread, shapeCast_self]
    simp only [shapeCast_add2_apply]
    simp only [sitofp, extui, andi, cmpf, broadcast, maximumf, slice2_apply]
    repeat rw [rows_apply]
    repeat rw [vload_apply]
    rfl
  · -- rows 768 .. 895
    refine (?_ : _ = maskK x0 768 r.val cc.val).trans (maskK_shift x0 768 r.val cc.val _ _ rfl rfl)
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65,
      kernelRun0.sl.r, kernelRun0.sl.r_1, kernelRun0.sl.r_2, kernelRun0.sl.r_3, kernelRun0.sl.r_4, kernelRun0.sl.r_5, kernelRun0.sl.r_6, kernelRun0.sl.r_7, kernelRun0.sl.r_8, kernelRun0.sl.r_9, kernelRun0.sl.r_10, kernelRun0.sl.r_11, kernelRun0.sl.r_12, kernelRun0.sl.r_13, kernelRun0.sl.r_14, kernelRun0.sl.r_15, kernelRun0.sl.r_16, kernelRun0.sl.r_17, kernelRun0.sl.r_18, kernelRun0.sl.r_19, kernelRun0.sl.r_20, kernelRun0.sl.r_21, kernelRun0.sl.r_22, kernelRun0.sl.r_23, kernelRun0.sl.r_24, kernelRun0.sl.r_25, kernelRun0.sl.r_26, kernelRun0.sl.r_27, kernelRun0.sl.r_28, kernelRun0.sl.r_29, kernelRun0.sl.r_30, kernelRun0.sl.r_31, kernelRun0.sl.r_32, kernelRun0.sl.r_33, kernelRun0.sl.r_34, kernelRun0.sl.r_35, kernelRun0.sl.r_36, kernelRun0.sl.r_37, kernelRun0.sl.r_38, kernelRun0.sl.r_39, kernelRun0.sl.r_40, kernelRun0.sl.r_41, kernelRun0.sl.r_42, kernelRun0.sl.r_43, kernelRun0.sl.r_44, kernelRun0.sl.r_45, kernelRun0.sl.r_46, kernelRun0.sl.r_47,
      kernelRun0.sl.v954, kernelRun0.sl.v1068, kernelRun0.sl.v1182, kernelRun0.sl.v1296, kernelRun0.sl.v1410, kernelRun0.sl.v1524, kernelRun0.sl.v1638, kernelRun0.sl.v1752,
      View.readAt_eq_ld, harg1.read_unread, shapeCast_self]
    simp only [shapeCast_add2_apply]
    simp only [sitofp, extui, andi, cmpf, broadcast, maximumf, slice2_apply]
    repeat rw [rows_apply]
    repeat rw [vload_apply]
    rfl
  · -- rows 640 .. 767
    refine (?_ : _ = maskK x0 640 r.val cc.val).trans (maskK_shift x0 640 r.val cc.val _ _ rfl rfl)
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65,
      kernelRun0.sl.r, kernelRun0.sl.r_1, kernelRun0.sl.r_2, kernelRun0.sl.r_3, kernelRun0.sl.r_4, kernelRun0.sl.r_5, kernelRun0.sl.r_6, kernelRun0.sl.r_7, kernelRun0.sl.r_8, kernelRun0.sl.r_9, kernelRun0.sl.r_10, kernelRun0.sl.r_11, kernelRun0.sl.r_12, kernelRun0.sl.r_13, kernelRun0.sl.r_14, kernelRun0.sl.r_15, kernelRun0.sl.r_16, kernelRun0.sl.r_17, kernelRun0.sl.r_18, kernelRun0.sl.r_19, kernelRun0.sl.r_20, kernelRun0.sl.r_21, kernelRun0.sl.r_22, kernelRun0.sl.r_23, kernelRun0.sl.r_24, kernelRun0.sl.r_25, kernelRun0.sl.r_26, kernelRun0.sl.r_27, kernelRun0.sl.r_28, kernelRun0.sl.r_29, kernelRun0.sl.r_30, kernelRun0.sl.r_31, kernelRun0.sl.r_32, kernelRun0.sl.r_33, kernelRun0.sl.r_34, kernelRun0.sl.r_35, kernelRun0.sl.r_36, kernelRun0.sl.r_37, kernelRun0.sl.r_38, kernelRun0.sl.r_39, kernelRun0.sl.r_40, kernelRun0.sl.r_41, kernelRun0.sl.r_42, kernelRun0.sl.r_43, kernelRun0.sl.r_44, kernelRun0.sl.r_45, kernelRun0.sl.r_46, kernelRun0.sl.r_47,
      kernelRun0.sl.v954, kernelRun0.sl.v1068, kernelRun0.sl.v1182, kernelRun0.sl.v1296, kernelRun0.sl.v1410, kernelRun0.sl.v1524, kernelRun0.sl.v1638, kernelRun0.sl.v1752,
      View.readAt_eq_ld, harg1.read_unread, shapeCast_self]
    simp only [shapeCast_add2_apply]
    simp only [sitofp, extui, andi, cmpf, broadcast, maximumf, slice2_apply]
    repeat rw [rows_apply]
    repeat rw [vload_apply]
    rfl
  · -- rows 512 .. 639
    refine (?_ : _ = maskK x0 512 r.val cc.val).trans (maskK_shift x0 512 r.val cc.val _ _ rfl rfl)
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65,
      kernelRun0.sl.r, kernelRun0.sl.r_1, kernelRun0.sl.r_2, kernelRun0.sl.r_3, kernelRun0.sl.r_4, kernelRun0.sl.r_5, kernelRun0.sl.r_6, kernelRun0.sl.r_7, kernelRun0.sl.r_8, kernelRun0.sl.r_9, kernelRun0.sl.r_10, kernelRun0.sl.r_11, kernelRun0.sl.r_12, kernelRun0.sl.r_13, kernelRun0.sl.r_14, kernelRun0.sl.r_15, kernelRun0.sl.r_16, kernelRun0.sl.r_17, kernelRun0.sl.r_18, kernelRun0.sl.r_19, kernelRun0.sl.r_20, kernelRun0.sl.r_21, kernelRun0.sl.r_22, kernelRun0.sl.r_23, kernelRun0.sl.r_24, kernelRun0.sl.r_25, kernelRun0.sl.r_26, kernelRun0.sl.r_27, kernelRun0.sl.r_28, kernelRun0.sl.r_29, kernelRun0.sl.r_30, kernelRun0.sl.r_31, kernelRun0.sl.r_32, kernelRun0.sl.r_33, kernelRun0.sl.r_34, kernelRun0.sl.r_35, kernelRun0.sl.r_36, kernelRun0.sl.r_37, kernelRun0.sl.r_38, kernelRun0.sl.r_39, kernelRun0.sl.r_40, kernelRun0.sl.r_41, kernelRun0.sl.r_42, kernelRun0.sl.r_43, kernelRun0.sl.r_44, kernelRun0.sl.r_45, kernelRun0.sl.r_46, kernelRun0.sl.r_47,
      kernelRun0.sl.v954, kernelRun0.sl.v1068, kernelRun0.sl.v1182, kernelRun0.sl.v1296, kernelRun0.sl.v1410, kernelRun0.sl.v1524, kernelRun0.sl.v1638, kernelRun0.sl.v1752,
      View.readAt_eq_ld, harg1.read_unread, shapeCast_self]
    simp only [shapeCast_add2_apply]
    simp only [sitofp, extui, andi, cmpf, broadcast, maximumf, slice2_apply]
    repeat rw [rows_apply]
    repeat rw [vload_apply]
    rfl
  · -- rows 384 .. 511
    refine (?_ : _ = maskK x0 384 r.val cc.val).trans (maskK_shift x0 384 r.val cc.val _ _ rfl rfl)
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65,
      kernelRun0.sl.r, kernelRun0.sl.r_1, kernelRun0.sl.r_2, kernelRun0.sl.r_3, kernelRun0.sl.r_4, kernelRun0.sl.r_5, kernelRun0.sl.r_6, kernelRun0.sl.r_7, kernelRun0.sl.r_8, kernelRun0.sl.r_9, kernelRun0.sl.r_10, kernelRun0.sl.r_11, kernelRun0.sl.r_12, kernelRun0.sl.r_13, kernelRun0.sl.r_14, kernelRun0.sl.r_15, kernelRun0.sl.r_16, kernelRun0.sl.r_17, kernelRun0.sl.r_18, kernelRun0.sl.r_19, kernelRun0.sl.r_20, kernelRun0.sl.r_21, kernelRun0.sl.r_22, kernelRun0.sl.r_23, kernelRun0.sl.r_24, kernelRun0.sl.r_25, kernelRun0.sl.r_26, kernelRun0.sl.r_27, kernelRun0.sl.r_28, kernelRun0.sl.r_29, kernelRun0.sl.r_30, kernelRun0.sl.r_31, kernelRun0.sl.r_32, kernelRun0.sl.r_33, kernelRun0.sl.r_34, kernelRun0.sl.r_35, kernelRun0.sl.r_36, kernelRun0.sl.r_37, kernelRun0.sl.r_38, kernelRun0.sl.r_39, kernelRun0.sl.r_40, kernelRun0.sl.r_41, kernelRun0.sl.r_42, kernelRun0.sl.r_43, kernelRun0.sl.r_44, kernelRun0.sl.r_45, kernelRun0.sl.r_46, kernelRun0.sl.r_47,
      kernelRun0.sl.v954, kernelRun0.sl.v1068, kernelRun0.sl.v1182, kernelRun0.sl.v1296, kernelRun0.sl.v1410, kernelRun0.sl.v1524, kernelRun0.sl.v1638, kernelRun0.sl.v1752,
      View.readAt_eq_ld, harg1.read_unread, shapeCast_self]
    simp only [shapeCast_add2_apply]
    simp only [sitofp, extui, andi, cmpf, broadcast, maximumf, slice2_apply]
    repeat rw [rows_apply]
    repeat rw [vload_apply]
    rfl
  · -- rows 256 .. 383
    refine (?_ : _ = maskK x0 256 r.val cc.val).trans (maskK_shift x0 256 r.val cc.val _ _ rfl rfl)
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65,
      kernelRun0.sl.r, kernelRun0.sl.r_1, kernelRun0.sl.r_2, kernelRun0.sl.r_3, kernelRun0.sl.r_4, kernelRun0.sl.r_5, kernelRun0.sl.r_6, kernelRun0.sl.r_7, kernelRun0.sl.r_8, kernelRun0.sl.r_9, kernelRun0.sl.r_10, kernelRun0.sl.r_11, kernelRun0.sl.r_12, kernelRun0.sl.r_13, kernelRun0.sl.r_14, kernelRun0.sl.r_15, kernelRun0.sl.r_16, kernelRun0.sl.r_17, kernelRun0.sl.r_18, kernelRun0.sl.r_19, kernelRun0.sl.r_20, kernelRun0.sl.r_21, kernelRun0.sl.r_22, kernelRun0.sl.r_23, kernelRun0.sl.r_24, kernelRun0.sl.r_25, kernelRun0.sl.r_26, kernelRun0.sl.r_27, kernelRun0.sl.r_28, kernelRun0.sl.r_29, kernelRun0.sl.r_30, kernelRun0.sl.r_31, kernelRun0.sl.r_32, kernelRun0.sl.r_33, kernelRun0.sl.r_34, kernelRun0.sl.r_35, kernelRun0.sl.r_36, kernelRun0.sl.r_37, kernelRun0.sl.r_38, kernelRun0.sl.r_39, kernelRun0.sl.r_40, kernelRun0.sl.r_41, kernelRun0.sl.r_42, kernelRun0.sl.r_43, kernelRun0.sl.r_44, kernelRun0.sl.r_45, kernelRun0.sl.r_46, kernelRun0.sl.r_47,
      kernelRun0.sl.v954, kernelRun0.sl.v1068, kernelRun0.sl.v1182, kernelRun0.sl.v1296, kernelRun0.sl.v1410, kernelRun0.sl.v1524, kernelRun0.sl.v1638, kernelRun0.sl.v1752,
      View.readAt_eq_ld, harg1.read_unread, shapeCast_self]
    simp only [shapeCast_add2_apply]
    simp only [sitofp, extui, andi, cmpf, broadcast, maximumf, slice2_apply]
    repeat rw [rows_apply]
    repeat rw [vload_apply]
    rfl
  · -- rows 128 .. 255
    refine (?_ : _ = maskK x0 128 r.val cc.val).trans (maskK_shift x0 128 r.val cc.val _ _ rfl rfl)
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65,
      kernelRun0.sl.r, kernelRun0.sl.r_1, kernelRun0.sl.r_2, kernelRun0.sl.r_3, kernelRun0.sl.r_4, kernelRun0.sl.r_5, kernelRun0.sl.r_6, kernelRun0.sl.r_7, kernelRun0.sl.r_8, kernelRun0.sl.r_9, kernelRun0.sl.r_10, kernelRun0.sl.r_11, kernelRun0.sl.r_12, kernelRun0.sl.r_13, kernelRun0.sl.r_14, kernelRun0.sl.r_15, kernelRun0.sl.r_16, kernelRun0.sl.r_17, kernelRun0.sl.r_18, kernelRun0.sl.r_19, kernelRun0.sl.r_20, kernelRun0.sl.r_21, kernelRun0.sl.r_22, kernelRun0.sl.r_23, kernelRun0.sl.r_24, kernelRun0.sl.r_25, kernelRun0.sl.r_26, kernelRun0.sl.r_27, kernelRun0.sl.r_28, kernelRun0.sl.r_29, kernelRun0.sl.r_30, kernelRun0.sl.r_31, kernelRun0.sl.r_32, kernelRun0.sl.r_33, kernelRun0.sl.r_34, kernelRun0.sl.r_35, kernelRun0.sl.r_36, kernelRun0.sl.r_37, kernelRun0.sl.r_38, kernelRun0.sl.r_39, kernelRun0.sl.r_40, kernelRun0.sl.r_41, kernelRun0.sl.r_42, kernelRun0.sl.r_43, kernelRun0.sl.r_44, kernelRun0.sl.r_45, kernelRun0.sl.r_46, kernelRun0.sl.r_47,
      kernelRun0.sl.v954, kernelRun0.sl.v1068, kernelRun0.sl.v1182, kernelRun0.sl.v1296, kernelRun0.sl.v1410, kernelRun0.sl.v1524, kernelRun0.sl.v1638, kernelRun0.sl.v1752,
      View.readAt_eq_ld, harg1.read_unread, shapeCast_self]
    simp only [shapeCast_add2_apply]
    simp only [sitofp, extui, andi, cmpf, broadcast, maximumf, slice2_apply]
    repeat rw [rows_apply]
    repeat rw [vload_apply]
    rfl
  · -- rows 0 .. 127
    refine (?_ : _ = maskK x0 0 r.val cc.val).trans (maskK_shift x0 0 r.val cc.val _ _ rfl rfl)
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65,
      kernelRun0.sl.r, kernelRun0.sl.r_1, kernelRun0.sl.r_2, kernelRun0.sl.r_3, kernelRun0.sl.r_4, kernelRun0.sl.r_5, kernelRun0.sl.r_6, kernelRun0.sl.r_7, kernelRun0.sl.r_8, kernelRun0.sl.r_9, kernelRun0.sl.r_10, kernelRun0.sl.r_11, kernelRun0.sl.r_12, kernelRun0.sl.r_13, kernelRun0.sl.r_14, kernelRun0.sl.r_15, kernelRun0.sl.r_16, kernelRun0.sl.r_17, kernelRun0.sl.r_18, kernelRun0.sl.r_19, kernelRun0.sl.r_20, kernelRun0.sl.r_21, kernelRun0.sl.r_22, kernelRun0.sl.r_23, kernelRun0.sl.r_24, kernelRun0.sl.r_25, kernelRun0.sl.r_26, kernelRun0.sl.r_27, kernelRun0.sl.r_28, kernelRun0.sl.r_29, kernelRun0.sl.r_30, kernelRun0.sl.r_31, kernelRun0.sl.r_32, kernelRun0.sl.r_33, kernelRun0.sl.r_34, kernelRun0.sl.r_35, kernelRun0.sl.r_36, kernelRun0.sl.r_37, kernelRun0.sl.r_38, kernelRun0.sl.r_39, kernelRun0.sl.r_40, kernelRun0.sl.r_41, kernelRun0.sl.r_42, kernelRun0.sl.r_43, kernelRun0.sl.r_44, kernelRun0.sl.r_45, kernelRun0.sl.r_46, kernelRun0.sl.r_47,
      kernelRun0.sl.v954, kernelRun0.sl.v1068, kernelRun0.sl.v1182, kernelRun0.sl.v1296, kernelRun0.sl.v1410, kernelRun0.sl.v1524, kernelRun0.sl.v1638, kernelRun0.sl.v1752,
      View.readAt_eq_ld, harg1.read_unread, shapeCast_self]
    simp only [shapeCast_add2_apply]
    simp only [sitofp, extui, andi, cmpf, broadcast, maximumf, slice2_apply]
    repeat rw [rows_apply]
    repeat rw [vload_apply]
    rfl

end Cert.KernelIdeal.Val

end
-- ==== Proof.WinFold.lean ====
/-
  The reference's window reduction read at one pixel. The reduction folds the maximum, from minus infinity, over the
  2601 offsets (dh, dw) of a 51 x 51 window in row-major order, taking the image entry at (r + dh - 25, c + dw - 25)
  when that lies inside the 1024 x 1024 image and minus infinity otherwise. Writing the padded image as a total
  function of row and column (the entry shifted by 25 inside, minus infinity outside), the folded term at offset
  (dh, dw) is the padded image at (dh + r, dw + c); the offsets listed are exactly all pairs below 51; so the fold is
  the separable maximum: the running maximum over dh of the running maximum over dw.
-/
import proofs.«136169_j81922206204546_2_alg».proof.Proof.LibWindowMax
import Idealize.ShloMosaic.PureOps.Ideal
import Idealize.ShloMosaic.PureOps.Contract
import Idealize.ShloMosaic.Lib.ValueIdx

noncomputable section

namespace Cert.WinFold

open Idealize.ShloMosaic Idealize.ShloMosaic.ValueIdx Cert.WindowMax

/-- The image batch: 8 images of one channel, 1024 x 1024. -/
abbrev Img : Shape := ⟨4, ![8, 1, 1024, 1024]⟩

/-- Image `b` padded by 25 on each side of both image axes with minus infinity, as a total function of row and column. -/
def xp (x : Img.Idx → EReal) (b : Fin 8) (R C : ℕ) : EReal :=
  if h : (25 ≤ R ∧ R < 1049) ∧ (25 ≤ C ∧ C < 1049) then
    x (ix4 b (0 : Fin 1) (⟨R - 25, by omega⟩ : Fin 1024) (⟨C - 25, by omega⟩ : Fin 1024))
  else ⊥

/-- Offset number `n` of the window, decoded in row-major order. -/
abbrev widx (n : Fin (⟨4, ![1, 1, 51, 51]⟩ : Shape).numel) : (⟨4, ![1, 1, 51, 51]⟩ : Shape).Idx :=
  (⟨4, ![1, 1, 51, 51]⟩ : Shape).rowMajor.symm n

/-- The window reduction at pixel (b, 0, r, c) is the separable maximum of the padded image over the window whose
    top-left corner is (r, c). -/
theorem window_fold (x : Img.Idx → EReal) {u : Shape} (v : u.Idx → EReal) (hu : 0 < u.numel)
    (hv : v (Shape.Idx.first hu) = ⊥)
    (h : Img.ReduceWindows ![1, 1, 51, 51] ![1, 1, 1, 1] ![0, 0, 25, 25] ![0, 0, 25, 25] Img)
    (b : Fin 8) (r c : Fin 1024) :
    Host.reduceWindow (max : EReal → EReal → EReal) ![1, 1, 51, 51] ![1, 1, 1, 1] ![0, 0, 25, 25] ![0, 0, 25, 25] x v h hu
        (ix4 b (0 : Fin 1) r c)
      = runMax (fun dh => runMax (fun dw => xp x b (dh + r.val) (dw + c.val)) 50) 50 := by
  unfold Host.reduceWindow
  dsimp only
  rw [hv]
  symm
  have key := sepMax_eq_fold (List.finRange (⟨4, ![1, 1, 51, 51]⟩ : Shape).numel)
    (fun n => ((⟨4, ![1, 1, 51, 51]⟩ : Shape).rowMajor.symm n 2).val)
    (fun n => ((⟨4, ![1, 1, 51, 51]⟩ : Shape).rowMajor.symm n 3).val)
    50 50 (fun a b' => xp x b (a + r.val) (b' + c.val)) ⊥ (fun _ => bot_le)
    (fun n _ => ⟨Nat.lt_succ_iff.mp ((⟨4, ![1, 1, 51, 51]⟩ : Shape).rowMajor.symm n 2).isLt,
      Nat.lt_succ_iff.mp ((⟨4, ![1, 1, 51, 51]⟩ : Shape).rowMajor.symm n 3).isLt⟩)
    (fun a ha b' hb => ⟨(⟨4, ![1, 1, 51, 51]⟩ : Shape).rowMajor (ix4 (0 : Fin 1) (0 : Fin 1) (⟨a, by omega⟩ : Fin 51) (⟨b', by omega⟩ : Fin 51)),
      List.mem_finRange _, by rw [Equiv.symm_apply_apply], by rw [Equiv.symm_apply_apply]⟩)
  refine key.trans ?_
  congr 1
  funext acc n
  congr 1
  -- the folded term at offset n
  have h0 : (widx n 0).val = 0 := by have h : (widx n 0).val < 1 := (widx n 0).isLt; omega
  have h1 : (widx n 1).val = 0 := by have h : (widx n 1).val < 1 := (widx n 1).isLt; omega
  have h2 : (widx n 2).val < 51 := (widx n 2).isLt
  have h3 : (widx n 3).val < 51 := (widx n 3).isLt
  show xp x b ((widx n 2).val + r.val) ((widx n 3).val + c.val) = _
  unfold xp
  by_cases hc : (25 ≤ (widx n 2).val + r.val ∧ (widx n 2).val + r.val < 1049) ∧ (25 ≤ (widx n 3).val + c.val ∧ (widx n 3).val + c.val < 1049)
  · rw [dif_pos hc, dif_pos]
    · congr 1
      funext a
      apply Fin.ext
      match a with
      | ⟨0, _⟩ => show b.val = b.val * 1 + (widx n 0).val - 0; omega
      | ⟨1, _⟩ => show (0 : ℕ) = 0 * 1 + (widx n 1).val - 0; omega
      | ⟨2, _⟩ => show (widx n 2).val + r.val - 25 = r.val * 1 + (widx n 2).val - 25; omega
      | ⟨3, _⟩ => show (widx n 3).val + c.val - 25 = c.val * 1 + (widx n 3).val - 25; omega
    · intro a
      match a with
      | ⟨0, _⟩ => show 0 ≤ b.val * 1 + (widx n 0).val ∧ b.val * 1 + (widx n 0).val - 0 < 8; have := b.isLt; omega
      | ⟨1, _⟩ => show 0 ≤ 0 * 1 + (widx n 1).val ∧ 0 * 1 + (widx n 1).val - 0 < 1; omega
      | ⟨2, _⟩ => show 25 ≤ r.val * 1 + (widx n 2).val ∧ r.val * 1 + (widx n 2).val - 25 < 1024; omega
      | ⟨3, _⟩ => show 25 ≤ c.val * 1 + (widx n 3).val ∧ c.val * 1 + (widx n 3).val - 25 < 1024; omega
  · rw [dif_neg hc, dif_neg]
    intro hall
    apply hc
    have a2 : 25 ≤ r.val * 1 + (widx n 2).val ∧ r.val * 1 + (widx n 2).val - 25 < 1024 := hall 2
    have a3 : 25 ≤ c.val * 1 + (widx n 3).val ∧ c.val * 1 + (widx n 3).val - 25 < 1024 := hall 3
    omega

end Cert.WinFold

end
-- ==== Proof.KValArr.lean ====
/-
  From blocks to arrays. Grid point t stages image t of the padded batch and writes back block t of the mask, the
  blocks being whole images; so the mask array ends, at (b, 0, r, c), with the mask value computed from image b's
  padded block, and the eight blocks cover it. The padded batch itself is the host's pad of the argument by 25 rows
  above, 31 below and 25 columns on each side with minus infinity, so a point's padded block, read as a total function
  of row and column, is the argument's image shifted by 25 inside rows and columns 25 .. 1048 and minus infinity
  elsewhere (the six extra bottom rows included).
-/
import proofs.«136169_j81922206204546_2_alg».proof.Proof.KValV
import proofs.«136169_j81922206204546_2_alg».proof.Proof.KernelIdealFr.Frame
import proofs.«136169_j81922206204546_2_alg».proof.Proof.WinFold
import Idealize.ShloMosaic.Lib.Pipeline.Value
import Idealize.ShloMosaic.Lib.KernelVsHost
import Idealize.ShloMosaic.Lib.StableHlo.Run

set_option maxRecDepth 65536

noncomputable section

namespace Cert.KernelIdeal.Val

open Cert.KernelIdeal Cert.KernelIdeal.Gen Cert.KernelIdeal.Fr Cert.WindowMax Cert.LibUnitAxes
open Idealize.ShloMosaic Idealize.ShloMosaic.ValueIdx Idealize.ShloMosaic.TcCoe Idealize.ShloMosaic.Tactic
open Idealize.ShloMosaic.Pipeline (Dat)

variable (m : (ℓ : Loc nD τ sig) → Buf (Elt Ideal) ℓ)

/-- Grid point t takes image t, whole: the block index of both windows at t is (t, 0, 0, 0). -/
theorem idx0 : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, _)
theorem idx1 : ∀ t : Fin cfg0.N, win0_1.index t (0 : Fin 4) = t.val ∧ win0_1.index t (1 : Fin 4) = 0
    ∧ win0_1.index t (2 : Fin 4) = 0 ∧ win0_1.index t (3 : Fin 4) = 0 :=
  (by decide +kernel : ∀ t : Fin grid0.N, _)

/-- The mask block, read back after the body, is the one mask function of the point's padded block. -/
theorem out0_1_eq (c : Dev nD) (i : grid0.Coords)
    (arg1 : Memref sig .tc .vmem S1x1x1080x1074 .f32) (harg1 : arg1.IsWhole)
    (arg2 : Memref sig .tc .vmem S1x1x1024x1024 .f32) (harg2 : arg2.IsWhole)
    (arg3 : Memref sig .tc .vmem S1080x1024 .f32) (harg3 : arg3.IsWhole)
    (x0 : Vec Ideal S1x1x1080x1074 .f32) :
    out0_1 (F := Ideal) c i arg1 harg1 arg2 harg2 arg3 harg3 x0 = outBlock x0 := by
  funext y
  unfold out0_1
  rw [View.read_writes_junk_apply_eq_canon]
  exact View.canon_apply_of_pieces (outBlock x0) _ (out_pieces c i arg1 harg1 arg2 harg2 arg3 harg3 x0) y
    (cover0_1 c i arg1 harg1 arg2 harg2 arg3 harg3 x0 y)

/-- The grid point of image b. -/
def pt (b : Fin 8) : Fin cfg0.N := ⟨b.val, lt_of_lt_of_eq b.isLt (show 8 = cfg0.N from N_0.symm)⟩

/-- The mask array as one function: at (b, 0, r, c) the mask value of image b's padded block at (r, c). -/
def maskArr (c : Dev nD) : S8x1x1024x1024.Idx → EReal :=
  fun i => maskK (iblk m c 0 (pt ⟨(i 0).val, (i 0).isLt⟩)) 0 (i 2).val (i 3).val

/-- What point t writes back is block t of that array. -/
theorem flushed1_eq (c : Dev nD) (t : Fin cfg0.N) :
    (dats m 0 c).flushed 1 t = ((cfg0.win 1).blk t).view.read (Elt Ideal) (maskArr m c) := by
  show (cfg0.win 1).cut (grid0.coords t) ((dats m 0 c).after 1 t) = _
  rw [after0_1]
  unfold outAt
  rw [out0_1_eq]
  obtain ⟨e0, e1, e2, e3⟩ := idx1 t
  funext j
  show outBlock (iblk m c 0 t) j = maskArr m c (((cfg0.win 1).blk t).view.emb j)
  unfold outBlock maskArr
  have hj0 : (j 0).val < 1 := (j 0).isLt
  have ht : pt ⟨((((cfg0.win 1).blk t).view.emb j) 0).val, ((((cfg0.win 1).blk t).view.emb j) 0).isLt⟩ = t :=
    Fin.ext (by show win0_1.index t (0 : Fin 4) * 1 + 1 * (j 0).val = t.val; omega)
  have h2 : ((((cfg0.win 1).blk t).view.emb j) 2).val = (j 2).val := by
    show win0_1.index t (2 : Fin 4) * 1024 + 1 * (j 2).val = (j 2).val; omega
  have h3 : ((((cfg0.win 1).blk t).view.emb j) 3).val = (j 3).val := by
    show win0_1.index t (3 : Fin 4) * 1024 + 1 * (j 3).val = (j 3).val; omega
  rw [ht, h2, h3]

/-- Every index of the mask array is in the block of its image's point. -/
theorem cover1 (c : Dev nD) (i : S8x1x1024x1024.Idx) :
    ∃ t : Fin cfg0.N, (cfg0.win 1).flush t = true ∧ i ∈ ((cfg0.win 1).blk t).view.set := by
  refine ⟨pt ⟨(i 0).val, (i 0).isLt⟩, flush0_1 _, ?_⟩
  obtain ⟨e0, e1, e2, e3⟩ := idx1 (pt ⟨(i 0).val, (i 0).isLt⟩)
  have hb : (pt ⟨(i 0).val, (i 0).isLt⟩).val = (i 0).val := rfl
  show i ∈ ((View.whole main_v1).slice (win0_1.rect (pt ⟨(i 0).val, (i 0).isLt⟩))).set
  rw [View.set_slice_whole, Rect.mem_set_unit]
  intro a
  match a with
  | ⟨0, _⟩ =>
    show win0_1.index (pt ⟨(i 0).val, (i 0).isLt⟩) (0 : Fin 4) * 1 ≤ (i 0).val ∧ (i 0).val < win0_1.index (pt ⟨(i 0).val, (i 0).isLt⟩) (0 : Fin 4) * 1 + 1
    omega
  | ⟨1, _⟩ =>
    show win0_1.index (pt ⟨(i 0).val, (i 0).isLt⟩) (1 : Fin 4) * 1 ≤ (i 1).val ∧ (i 1).val < win0_1.index (pt ⟨(i 0).val, (i 0).isLt⟩) (1 : Fin 4) * 1 + 1
    have h : (i 1).val < 1 := (i 1).isLt
    omega
  | ⟨2, _⟩ =>
    show win0_1.index (pt ⟨(i 0).val, (i 0).isLt⟩) (2 : Fin 4) * 1024 ≤ (i 2).val ∧ (i 2).val < win0_1.index (pt ⟨(i 0).val, (i 0).isLt⟩) (2 : Fin 4) * 1024 + 1024
    have h : (i 2).val < 1024 := (i 2).isLt
    omega
  | ⟨3, _⟩ =>
    show win0_1.index (pt ⟨(i 0).val, (i 0).isLt⟩) (3 : Fin 4) * 1024 ≤ (i 3).val ∧ (i 3).val < win0_1.index (pt ⟨(i 0).val, (i 0).isLt⟩) (3 : Fin 4) * 1024 + 1024
    have h : (i 3).val < 1024 := (i 3).isLt
    omega

/-- THE MASK ARRAY after the region. -/
theorem arr1_eq (c : Dev nD) : (dats m 0 c).arrAt 1 cfg0.N = maskArr m c :=
  (dats m 0 c).arrAt_eq_of_cover 1 (maskArr m c) (fun t _ => flushed1_eq m c t) (cover1 c)

end Cert.KernelIdeal.Val

end
-- ==== Proof.Bridge1.lean ====
/-
  The two masks are one. The kernel's program tests its stored 0/1 value against zero; a 0/1 value differs from zero
  exactly when the bit it was made from is set, so the test gives back the conjunction "the window's centre equals the
  window's maximum, and that maximum exceeds one half". For image b at (r, c) the centre of the window of the padded
  block is the image's own entry, and the separable maximum over the padded block is the reference's window
  reduction at that pixel (both are the maximum of the same 2601 entries, minus infinity where the window leaves the
  image). So the two conjunctions agree, pixel by pixel.
-/
import proofs.«136169_j81922206204546_2_alg».proof.Proof.KValArr

set_option maxRecDepth 65536

noncomputable section

namespace Cert.KernelIdeal.Val

open Cert.KernelIdeal Cert.KernelIdeal.Gen Cert.KernelIdeal.Fr Cert.WindowMax Cert.LibUnitAxes Cert.WinFold
open Idealize.ShloMosaic Idealize.ShloMosaic.ValueIdx Idealize.ShloMosaic.TcCoe Idealize.ShloMosaic.StableHlo

variable (m : (ℓ : Loc nD τ sig) → Buf (Elt Ideal) ℓ)

/-- The padding value is minus infinity. -/
theorem neg_inf : constant (F := Ideal) S_ .f32 0xFF800000#32 (Shape.Idx.first Gen.h_S_) = ⊥ := by
  show Ideal.ofBits .f32 0xFF800000#32 = ⊥
  simp [Ideal.ofBits, Ideal.ieee]

/-- The padded batch the region finds: the host's pad of the argument. -/
theorem V_main_v0 (c : Dev nD) :
    V m c main_v0 = pad S8x1x1080x1074 ![0, 0, 25, 25] ![0, 0, 31, 25] ![0, 0, 0, 0] (m ((c : Thread nD τ).loc main_arg0))
      (constant (F := Ideal) S_ .f32 0xFF800000#32) Gen.pads_S8x1x1024x1024_S8x1x1080x1074_000_000_25310_25250 Gen.h_S_ := by
  show StableHlo.after (List.flatten (preOps (F := Ideal))) (fun b => m (c, b)) (Proc.devRef .tc main_v0) = _
  simp only [preOps, hostOps0, hostOps0_1, List.flatten_cons, List.flatten_nil, List.append_nil, List.cons_append, List.nil_append]
  after_results
  rfl

/-- Point t's padded block, as a total function of row and column, is image t of the argument shifted by 25 inside
    rows and columns 25 .. 1048, and minus infinity elsewhere. -/
theorem at2_iblk (c : Dev nD) (t : Fin cfg0.N) (R C : ℕ) :
    at2 (iblk m c 0 t) R C
      = xp (m ((c : Thread nD τ).loc main_arg0)) ⟨t.val, lt_of_lt_of_eq t.isLt N_0⟩ R C := by
  obtain ⟨e0, e1, e2, e3⟩ := idx0 t
  unfold at2 xp
  by_cases hb : R < 1080 ∧ C < 1074
  · rw [dif_pos hb]
    show V m c main_v0 (((cfg0.win 0).blk t).view.emb (ix4 (0 : Fin 1) (0 : Fin 1) ⟨R, hb.1⟩ ⟨C, hb.2⟩)) = _
    rw [V_main_v0]
    by_cases hin : (25 ≤ R ∧ R < 1049) ∧ (25 ≤ C ∧ C < 1049)
    · rw [dif_pos hin]
      refine pad_apply_of_inside _ _ _ _ _ _ _ _ _ ?_
      intro a
      match a with
      | ⟨0, _⟩ => show win0_0.index t (0 : Fin 4) * 1 + 1 * 0 = 0 + t.val * (0 + 1); omega
      | ⟨1, _⟩ => show win0_0.index t (1 : Fin 4) * 1 + 1 * 0 = 0 + 0 * (0 + 1); omega
      | ⟨2, _⟩ => show win0_0.index t (2 : Fin 4) * 1080 + 1 * R = 25 + (R - 25) * (0 + 1); omega
      | ⟨3, _⟩ => show win0_0.index t (3 : Fin 4) * 1074 + 1 * C = 25 + (C - 25) * (0 + 1); omega
    · rw [dif_neg hin]
      rcases not_and_or.mp hin with h2 | h3
      · refine (pad_apply_of_not_inside _ _ _ _ _ _ _ _ (2 : Fin 4) ?_).trans neg_inf
        show ¬(25 ≤ win0_0.index t (2 : Fin 4) * 1080 + 1 * R
          ∧ (win0_0.index t (2 : Fin 4) * 1080 + 1 * R - 25) % (0 + 1) = 0
          ∧ (win0_0.index t (2 : Fin 4) * 1080 + 1 * R - 25) / (0 + 1) < 1024)
        omega
      · refine (pad_apply_of_not_inside _ _ _ _ _ _ _ _ (3 : Fin 4) ?_).trans neg_inf
        show ¬(25 ≤ win0_0.index t (3 : Fin 4) * 1074 + 1 * C
          ∧ (win0_0.index t (3 : Fin 4) * 1074 + 1 * C - 25) % (0 + 1) = 0
          ∧ (win0_0.index t (3 : Fin 4) * 1074 + 1 * C - 25) / (0 + 1) < 1024)
        omega
  · rw [dif_neg hb, dif_neg]
    intro h
    omega

/-- A 0/1 value made from a bit differs from zero exactly when the bit is set. -/
theorem une_bit (a : BitVec 1) :
    FloatOps.cmpf (F := Ideal) (φ := .f32) .une (FloatOps.sitofp (F := Ideal) .f32 (a.setWidth 32)) (Ideal.ofBits .f32 0x00000000#32) = a := by
  show Ideal.cmp .une (((a.setWidth 32).toInt : ℝ) : EReal) (Ideal.ofBits .f32 0x00000000#32) = a
  rw [Ideal.ofBits_zero_f32]
  rcases BitVec.eq_zero_or_eq_one a with h | h <;> subst h
  · have e : ((0#1 : BitVec 1).setWidth 32).toInt = 0 := by decide
    rw [e]; simp [Ideal.cmp]
  · have e : ((1#1 : BitVec 1).setWidth 32).toInt = 1 := by decide
    rw [e]; simp [Ideal.cmp]

end Cert.KernelIdeal.Val

end
-- ==== Proof.Tails.lean ====
/-
  After the mask, both programs do the same thing: the same operations in the same order on buffers that differ only
  in name (the prefix sums, the scatter-add of ranks, the quotients and remainders that split a flat position into
  coordinates, the -1 fill, the four columns side by side). So whatever the buffers hold otherwise, if the two mask
  buffers hold the same mask then the two result buffers end with the same table. Each of the four coordinate columns
  is evaluated in both programs to the operations' composed term of the mask, and the two terms are one; the last
  stretch lays the four columns side by side in both.
-/
import proofs.«136169_j81922206204546_2_alg».proof.Proof.RefRun
import proofs.«136169_j81922206204546_2_alg».proof.Proof.Gen.KernelIdeal.Launch
import Idealize.ShloMosaic.Lib.Pipeline.Frame

set_option maxRecDepth 65536

noncomputable section

namespace Cert.Tails

open Idealize.ShloMosaic Idealize.ShloMosaic.TcCoe Idealize.SL.Sem Idealize.ShloMosaic.StableHlo

variable {F : FTy → Type} [FloatOps F]

/-- The kernel program's lines from its mask up to the four coordinate columns. -/
abbrev kInit : List (HloOp Cert.KernelIdeal.τ Cert.KernelIdeal.sig (Elt F)) :=
  List.flatten [Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, Cert.KernelIdeal.Gen.hostOps1_13, Cert.KernelIdeal.Gen.hostOps1_14, Cert.KernelIdeal.Gen.hostOps1_15, Cert.KernelIdeal.Gen.hostOps1_16, Cert.KernelIdeal.Gen.hostOps1_17, Cert.KernelIdeal.Gen.hostOps1_18, Cert.KernelIdeal.Gen.hostOps1_19, Cert.KernelIdeal.Gen.hostOps1_20, Cert.KernelIdeal.Gen.hostOps1_21, Cert.KernelIdeal.Gen.hostOps1_22, Cert.KernelIdeal.Gen.hostOps1_23, Cert.KernelIdeal.Gen.hostOps1_24, Cert.KernelIdeal.Gen.hostOps1_25, Cert.KernelIdeal.Gen.hostOps1_26, Cert.KernelIdeal.Gen.hostOps1_27, Cert.KernelIdeal.Gen.hostOps1_28, Cert.KernelIdeal.Gen.hostOps1_29]

/-- The reference's lines from its mask up to the four coordinate columns. -/
abbrev rInit : List (HloOp Cert.ReferenceIdeal.τ Cert.ReferenceIdeal.sig (Elt F)) :=
  List.flatten [Cert.ReferenceIdeal.Hand.refOps1, Cert.ReferenceIdeal.Hand.refOps2, Cert.ReferenceIdeal.Hand.refOps3, Cert.ReferenceIdeal.Hand.refOps4, Cert.ReferenceIdeal.Hand.refOps5, Cert.ReferenceIdeal.Hand.refOps6, Cert.ReferenceIdeal.Hand.refOps7, Cert.ReferenceIdeal.Hand.refOps8, Cert.ReferenceIdeal.Hand.refOps9, Cert.ReferenceIdeal.Hand.refOps10, Cert.ReferenceIdeal.Hand.refOps11, Cert.ReferenceIdeal.Hand.refOps12, Cert.ReferenceIdeal.Hand.refOps13, Cert.ReferenceIdeal.Hand.refOps14, Cert.ReferenceIdeal.Hand.refOps15, Cert.ReferenceIdeal.Hand.refOps16, Cert.ReferenceIdeal.Hand.refOps17, Cert.ReferenceIdeal.Hand.refOps18, Cert.ReferenceIdeal.Hand.refOps19, Cert.ReferenceIdeal.Hand.refOps20, Cert.ReferenceIdeal.Hand.refOps21, Cert.ReferenceIdeal.Hand.refOps22, Cert.ReferenceIdeal.Hand.refOps23, Cert.ReferenceIdeal.Hand.refOps24, Cert.ReferenceIdeal.Hand.refOps25, Cert.ReferenceIdeal.Hand.refOps26, Cert.ReferenceIdeal.Hand.refOps27, Cert.ReferenceIdeal.Hand.refOps28, Cert.ReferenceIdeal.Hand.refOps29]

set_option maxHeartbeats 40000000 in
/-- Coordinate column 0: equal masks in, equal columns out. -/
theorem col0_agree (WK : Valuation Cert.KernelIdeal.τ Cert.KernelIdeal.sig (Elt F))
    (WR : Valuation Cert.ReferenceIdeal.τ Cert.ReferenceIdeal.sig (Elt F))
    (hM : WK (Proc.devRef .tc Cert.KernelIdeal.main_v3) = WR (Proc.devRef .tc Cert.ReferenceIdeal.main_v5)) :
    after kInit WK (Proc.devRef .tc Cert.KernelIdeal.main_v29) = after rInit WR (Proc.devRef .tc Cert.ReferenceIdeal.main_v31) := by
  simp only [kInit, rInit, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, Cert.KernelIdeal.Gen.hostOps1_13, Cert.KernelIdeal.Gen.hostOps1_14, Cert.KernelIdeal.Gen.hostOps1_15, Cert.KernelIdeal.Gen.hostOps1_16, Cert.KernelIdeal.Gen.hostOps1_17, Cert.KernelIdeal.Gen.hostOps1_18, Cert.KernelIdeal.Gen.hostOps1_19, Cert.KernelIdeal.Gen.hostOps1_20, Cert.KernelIdeal.Gen.hostOps1_21, Cert.KernelIdeal.Gen.hostOps1_22, Cert.KernelIdeal.Gen.hostOps1_23, Cert.KernelIdeal.Gen.hostOps1_24, Cert.KernelIdeal.Gen.hostOps1_25, Cert.KernelIdeal.Gen.hostOps1_26, Cert.KernelIdeal.Gen.hostOps1_27, Cert.KernelIdeal.Gen.hostOps1_28, Cert.KernelIdeal.Gen.hostOps1_29,
    Cert.ReferenceIdeal.Hand.refOps1, Cert.ReferenceIdeal.Hand.refOps2, Cert.ReferenceIdeal.Hand.refOps3, Cert.ReferenceIdeal.Hand.refOps4, Cert.ReferenceIdeal.Hand.refOps5, Cert.ReferenceIdeal.Hand.refOps6, Cert.ReferenceIdeal.Hand.refOps7, Cert.ReferenceIdeal.Hand.refOps8, Cert.ReferenceIdeal.Hand.refOps9, Cert.ReferenceIdeal.Hand.refOps10, Cert.ReferenceIdeal.Hand.refOps11, Cert.ReferenceIdeal.Hand.refOps12, Cert.ReferenceIdeal.Hand.refOps13, Cert.ReferenceIdeal.Hand.refOps14, Cert.ReferenceIdeal.Hand.refOps15, Cert.ReferenceIdeal.Hand.refOps16, Cert.ReferenceIdeal.Hand.refOps17, Cert.ReferenceIdeal.Hand.refOps18, Cert.ReferenceIdeal.Hand.refOps19, Cert.ReferenceIdeal.Hand.refOps20, Cert.ReferenceIdeal.Hand.refOps21, Cert.ReferenceIdeal.Hand.refOps22, Cert.ReferenceIdeal.Hand.refOps23, Cert.ReferenceIdeal.Hand.refOps24, Cert.ReferenceIdeal.Hand.refOps25, Cert.ReferenceIdeal.Hand.refOps26, Cert.ReferenceIdeal.Hand.refOps27, Cert.ReferenceIdeal.Hand.refOps28, Cert.ReferenceIdeal.Hand.refOps29,
    Cert.ReferenceIdeal.Hand.ops_cumsum_0, Cert.ReferenceIdeal.Hand.ops_cumsum, Cert.ReferenceIdeal.Hand.ops_clip, Cert.ReferenceIdeal.Hand.ops_cumsum_2, Cert.ReferenceIdeal.Hand.ops_cumsum_1, Cert.ReferenceIdeal.Hand.ops_where, Cert.ReferenceIdeal.Hand.ops_floor_divide, Cert.ReferenceIdeal.Hand.ops_where_3, Cert.ReferenceIdeal.Hand.ops_remainder, Cert.ReferenceIdeal.Hand.ops_where_4,
    List.flatten_cons, List.flatten_nil, List.append_nil, List.cons_append, List.nil_append]
  after_results_simp
  rw [hM]
  rfl

set_option maxHeartbeats 40000000 in
/-- Coordinate column 1: equal masks in, equal columns out. -/
theorem col1_agree (WK : Valuation Cert.KernelIdeal.τ Cert.KernelIdeal.sig (Elt F))
    (WR : Valuation Cert.ReferenceIdeal.τ Cert.ReferenceIdeal.sig (Elt F))
    (hM : WK (Proc.devRef .tc Cert.KernelIdeal.main_v3) = WR (Proc.devRef .tc Cert.ReferenceIdeal.main_v5)) :
    after kInit WK (Proc.devRef .tc Cert.KernelIdeal.main_v30) = after rInit WR (Proc.devRef .tc Cert.ReferenceIdeal.main_v32) := by
  simp only [kInit, rInit, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, Cert.KernelIdeal.Gen.hostOps1_13, Cert.KernelIdeal.Gen.hostOps1_14, Cert.KernelIdeal.Gen.hostOps1_15, Cert.KernelIdeal.Gen.hostOps1_16, Cert.KernelIdeal.Gen.hostOps1_17, Cert.KernelIdeal.Gen.hostOps1_18, Cert.KernelIdeal.Gen.hostOps1_19, Cert.KernelIdeal.Gen.hostOps1_20, Cert.KernelIdeal.Gen.hostOps1_21, Cert.KernelIdeal.Gen.hostOps1_22, Cert.KernelIdeal.Gen.hostOps1_23, Cert.KernelIdeal.Gen.hostOps1_24, Cert.KernelIdeal.Gen.hostOps1_25, Cert.KernelIdeal.Gen.hostOps1_26, Cert.KernelIdeal.Gen.hostOps1_27, Cert.KernelIdeal.Gen.hostOps1_28, Cert.KernelIdeal.Gen.hostOps1_29,
    Cert.ReferenceIdeal.Hand.refOps1, Cert.ReferenceIdeal.Hand.refOps2, Cert.ReferenceIdeal.Hand.refOps3, Cert.ReferenceIdeal.Hand.refOps4, Cert.ReferenceIdeal.Hand.refOps5, Cert.ReferenceIdeal.Hand.refOps6, Cert.ReferenceIdeal.Hand.refOps7, Cert.ReferenceIdeal.Hand.refOps8, Cert.ReferenceIdeal.Hand.refOps9, Cert.ReferenceIdeal.Hand.refOps10, Cert.ReferenceIdeal.Hand.refOps11, Cert.ReferenceIdeal.Hand.refOps12, Cert.ReferenceIdeal.Hand.refOps13, Cert.ReferenceIdeal.Hand.refOps14, Cert.ReferenceIdeal.Hand.refOps15, Cert.ReferenceIdeal.Hand.refOps16, Cert.ReferenceIdeal.Hand.refOps17, Cert.ReferenceIdeal.Hand.refOps18, Cert.ReferenceIdeal.Hand.refOps19, Cert.ReferenceIdeal.Hand.refOps20, Cert.ReferenceIdeal.Hand.refOps21, Cert.ReferenceIdeal.Hand.refOps22, Cert.ReferenceIdeal.Hand.refOps23, Cert.ReferenceIdeal.Hand.refOps24, Cert.ReferenceIdeal.Hand.refOps25, Cert.ReferenceIdeal.Hand.refOps26, Cert.ReferenceIdeal.Hand.refOps27, Cert.ReferenceIdeal.Hand.refOps28, Cert.ReferenceIdeal.Hand.refOps29,
    Cert.ReferenceIdeal.Hand.ops_cumsum_0, Cert.ReferenceIdeal.Hand.ops_cumsum, Cert.ReferenceIdeal.Hand.ops_clip, Cert.ReferenceIdeal.Hand.ops_cumsum_2, Cert.ReferenceIdeal.Hand.ops_cumsum_1, Cert.ReferenceIdeal.Hand.ops_where, Cert.ReferenceIdeal.Hand.ops_floor_divide, Cert.ReferenceIdeal.Hand.ops_where_3, Cert.ReferenceIdeal.Hand.ops_remainder, Cert.ReferenceIdeal.Hand.ops_where_4,
    List.flatten_cons, List.flatten_nil, List.append_nil, List.cons_append, List.nil_append]
  after_results_simp
  rw [hM]
  rfl

set_option maxHeartbeats 40000000 in
/-- Coordinate column 2: equal masks in, equal columns out. -/
theorem col2_agree (WK : Valuation Cert.KernelIdeal.τ Cert.KernelIdeal.sig (Elt F))
    (WR : Valuation Cert.ReferenceIdeal.τ Cert.ReferenceIdeal.sig (Elt F))
    (hM : WK (Proc.devRef .tc Cert.KernelIdeal.main_v3) = WR (Proc.devRef .tc Cert.ReferenceIdeal.main_v5)) :
    after kInit WK (Proc.devRef .tc Cert.KernelIdeal.main_v31) = after rInit WR (Proc.devRef .tc Cert.ReferenceIdeal.main_v33) := by
  simp only [kInit, rInit, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, Cert.KernelIdeal.Gen.hostOps1_13, Cert.KernelIdeal.Gen.hostOps1_14, Cert.KernelIdeal.Gen.hostOps1_15, Cert.KernelIdeal.Gen.hostOps1_16, Cert.KernelIdeal.Gen.hostOps1_17, Cert.KernelIdeal.Gen.hostOps1_18, Cert.KernelIdeal.Gen.hostOps1_19, Cert.KernelIdeal.Gen.hostOps1_20, Cert.KernelIdeal.Gen.hostOps1_21, Cert.KernelIdeal.Gen.hostOps1_22, Cert.KernelIdeal.Gen.hostOps1_23, Cert.KernelIdeal.Gen.hostOps1_24, Cert.KernelIdeal.Gen.hostOps1_25, Cert.KernelIdeal.Gen.hostOps1_26, Cert.KernelIdeal.Gen.hostOps1_27, Cert.KernelIdeal.Gen.hostOps1_28, Cert.KernelIdeal.Gen.hostOps1_29,
    Cert.ReferenceIdeal.Hand.refOps1, Cert.ReferenceIdeal.Hand.refOps2, Cert.ReferenceIdeal.Hand.refOps3, Cert.ReferenceIdeal.Hand.refOps4, Cert.ReferenceIdeal.Hand.refOps5, Cert.ReferenceIdeal.Hand.refOps6, Cert.ReferenceIdeal.Hand.refOps7, Cert.ReferenceIdeal.Hand.refOps8, Cert.ReferenceIdeal.Hand.refOps9, Cert.ReferenceIdeal.Hand.refOps10, Cert.ReferenceIdeal.Hand.refOps11, Cert.ReferenceIdeal.Hand.refOps12, Cert.ReferenceIdeal.Hand.refOps13, Cert.ReferenceIdeal.Hand.refOps14, Cert.ReferenceIdeal.Hand.refOps15, Cert.ReferenceIdeal.Hand.refOps16, Cert.ReferenceIdeal.Hand.refOps17, Cert.ReferenceIdeal.Hand.refOps18, Cert.ReferenceIdeal.Hand.refOps19, Cert.ReferenceIdeal.Hand.refOps20, Cert.ReferenceIdeal.Hand.refOps21, Cert.ReferenceIdeal.Hand.refOps22, Cert.ReferenceIdeal.Hand.refOps23, Cert.ReferenceIdeal.Hand.refOps24, Cert.ReferenceIdeal.Hand.refOps25, Cert.ReferenceIdeal.Hand.refOps26, Cert.ReferenceIdeal.Hand.refOps27, Cert.ReferenceIdeal.Hand.refOps28, Cert.ReferenceIdeal.Hand.refOps29,
    Cert.ReferenceIdeal.Hand.ops_cumsum_0, Cert.ReferenceIdeal.Hand.ops_cumsum, Cert.ReferenceIdeal.Hand.ops_clip, Cert.ReferenceIdeal.Hand.ops_cumsum_2, Cert.ReferenceIdeal.Hand.ops_cumsum_1, Cert.ReferenceIdeal.Hand.ops_where, Cert.ReferenceIdeal.Hand.ops_floor_divide, Cert.ReferenceIdeal.Hand.ops_where_3, Cert.ReferenceIdeal.Hand.ops_remainder, Cert.ReferenceIdeal.Hand.ops_where_4,
    List.flatten_cons, List.flatten_nil, List.append_nil, List.cons_append, List.nil_append]
  after_results_simp
  rw [hM]
  rfl

set_option maxHeartbeats 40000000 in
/-- Coordinate column 3: equal masks in, equal columns out. -/
theorem col3_agree (WK : Valuation Cert.KernelIdeal.τ Cert.KernelIdeal.sig (Elt F))
    (WR : Valuation Cert.ReferenceIdeal.τ Cert.ReferenceIdeal.sig (Elt F))
    (hM : WK (Proc.devRef .tc Cert.KernelIdeal.main_v3) = WR (Proc.devRef .tc Cert.ReferenceIdeal.main_v5)) :
    after kInit WK (Proc.devRef .tc Cert.KernelIdeal.main_v32) = after rInit WR (Proc.devRef .tc Cert.ReferenceIdeal.main_v34) := by
  simp only [kInit, rInit, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, Cert.KernelIdeal.Gen.hostOps1_13, Cert.KernelIdeal.Gen.hostOps1_14, Cert.KernelIdeal.Gen.hostOps1_15, Cert.KernelIdeal.Gen.hostOps1_16, Cert.KernelIdeal.Gen.hostOps1_17, Cert.KernelIdeal.Gen.hostOps1_18, Cert.KernelIdeal.Gen.hostOps1_19, Cert.KernelIdeal.Gen.hostOps1_20, Cert.KernelIdeal.Gen.hostOps1_21, Cert.KernelIdeal.Gen.hostOps1_22, Cert.KernelIdeal.Gen.hostOps1_23, Cert.KernelIdeal.Gen.hostOps1_24, Cert.KernelIdeal.Gen.hostOps1_25, Cert.KernelIdeal.Gen.hostOps1_26, Cert.KernelIdeal.Gen.hostOps1_27, Cert.KernelIdeal.Gen.hostOps1_28, Cert.KernelIdeal.Gen.hostOps1_29,
    Cert.ReferenceIdeal.Hand.refOps1, Cert.ReferenceIdeal.Hand.refOps2, Cert.ReferenceIdeal.Hand.refOps3, Cert.ReferenceIdeal.Hand.refOps4, Cert.ReferenceIdeal.Hand.refOps5, Cert.ReferenceIdeal.Hand.refOps6, Cert.ReferenceIdeal.Hand.refOps7, Cert.ReferenceIdeal.Hand.refOps8, Cert.ReferenceIdeal.Hand.refOps9, Cert.ReferenceIdeal.Hand.refOps10, Cert.ReferenceIdeal.Hand.refOps11, Cert.ReferenceIdeal.Hand.refOps12, Cert.ReferenceIdeal.Hand.refOps13, Cert.ReferenceIdeal.Hand.refOps14, Cert.ReferenceIdeal.Hand.refOps15, Cert.ReferenceIdeal.Hand.refOps16, Cert.ReferenceIdeal.Hand.refOps17, Cert.ReferenceIdeal.Hand.refOps18, Cert.ReferenceIdeal.Hand.refOps19, Cert.ReferenceIdeal.Hand.refOps20, Cert.ReferenceIdeal.Hand.refOps21, Cert.ReferenceIdeal.Hand.refOps22, Cert.ReferenceIdeal.Hand.refOps23, Cert.ReferenceIdeal.Hand.refOps24, Cert.ReferenceIdeal.Hand.refOps25, Cert.ReferenceIdeal.Hand.refOps26, Cert.ReferenceIdeal.Hand.refOps27, Cert.ReferenceIdeal.Hand.refOps28, Cert.ReferenceIdeal.Hand.refOps29,
    Cert.ReferenceIdeal.Hand.ops_cumsum_0, Cert.ReferenceIdeal.Hand.ops_cumsum, Cert.ReferenceIdeal.Hand.ops_clip, Cert.ReferenceIdeal.Hand.ops_cumsum_2, Cert.ReferenceIdeal.Hand.ops_cumsum_1, Cert.ReferenceIdeal.Hand.ops_where, Cert.ReferenceIdeal.Hand.ops_floor_divide, Cert.ReferenceIdeal.Hand.ops_where_3, Cert.ReferenceIdeal.Hand.ops_remainder, Cert.ReferenceIdeal.Hand.ops_where_4,
    List.flatten_cons, List.flatten_nil, List.append_nil, List.cons_append, List.nil_append]
  after_results_simp
  rw [hM]
  rfl

/-- The kernel program's last stretch lays the four columns side by side. -/
theorem lastK (V : Valuation Cert.KernelIdeal.τ Cert.KernelIdeal.sig (Elt F)) :
    after (Cert.KernelIdeal.Gen.hostOps1_30 (F := F)) V (Proc.devRef .tc Cert.KernelIdeal.main_v37)
      = concatenate Cert.KernelIdeal.S4096x4 1
          [⟨Cert.KernelIdeal.S4096x1, broadcastInDim Cert.KernelIdeal.S4096x1 ![0] Cert.KernelIdeal.Gen.bcast_S4096_S4096x1_0 (V (Proc.devRef .tc Cert.KernelIdeal.main_v29))⟩,
           ⟨Cert.KernelIdeal.S4096x1, broadcastInDim Cert.KernelIdeal.S4096x1 ![0] Cert.KernelIdeal.Gen.bcast_S4096_S4096x1_0 (V (Proc.devRef .tc Cert.KernelIdeal.main_v30))⟩,
           ⟨Cert.KernelIdeal.S4096x1, broadcastInDim Cert.KernelIdeal.S4096x1 ![0] Cert.KernelIdeal.Gen.bcast_S4096_S4096x1_0 (V (Proc.devRef .tc Cert.KernelIdeal.main_v31))⟩,
           ⟨Cert.KernelIdeal.S4096x1, broadcastInDim Cert.KernelIdeal.S4096x1 ![0] Cert.KernelIdeal.Gen.bcast_S4096_S4096x1_0 (V (Proc.devRef .tc Cert.KernelIdeal.main_v32))⟩]
          Cert.KernelIdeal.Gen.concatenates_S4096x1_S4096x1_S4096x1_S4096x1_S4096x4_d1 := by
  after_results
  try rfl

/-- So does the reference's. -/
theorem lastR (V : Valuation Cert.ReferenceIdeal.τ Cert.ReferenceIdeal.sig (Elt F)) :
    after (Cert.ReferenceIdeal.Hand.refOps30 (F := F)) V (Proc.devRef .tc Cert.ReferenceIdeal.main_v39)
      = concatenate Cert.ReferenceIdeal.S4096x4 1
          [⟨Cert.ReferenceIdeal.S4096x1, broadcastInDim Cert.ReferenceIdeal.S4096x1 ![0] Cert.ReferenceIdeal.Gen.bcast_S4096_S4096x1_0 (V (Proc.devRef .tc Cert.ReferenceIdeal.main_v31))⟩,
           ⟨Cert.ReferenceIdeal.S4096x1, broadcastInDim Cert.ReferenceIdeal.S4096x1 ![0] Cert.ReferenceIdeal.Gen.bcast_S4096_S4096x1_0 (V (Proc.devRef .tc Cert.ReferenceIdeal.main_v32))⟩,
           ⟨Cert.ReferenceIdeal.S4096x1, broadcastInDim Cert.ReferenceIdeal.S4096x1 ![0] Cert.ReferenceIdeal.Gen.bcast_S4096_S4096x1_0 (V (Proc.devRef .tc Cert.ReferenceIdeal.main_v33))⟩,
           ⟨Cert.ReferenceIdeal.S4096x1, broadcastInDim Cert.ReferenceIdeal.S4096x1 ![0] Cert.ReferenceIdeal.Gen.bcast_S4096_S4096x1_0 (V (Proc.devRef .tc Cert.ReferenceIdeal.main_v34))⟩]
          Cert.ReferenceIdeal.Gen.concatenates_S4096x1_S4096x1_S4096x1_S4096x1_S4096x4_d1 := by
  after_results
  try rfl

/-- Equal masks in, equal tables out. -/
theorem tails_agree (WK : Valuation Cert.KernelIdeal.τ Cert.KernelIdeal.sig (Elt F))
    (WR : Valuation Cert.ReferenceIdeal.τ Cert.ReferenceIdeal.sig (Elt F))
    (hM : WK (Proc.devRef .tc Cert.KernelIdeal.main_v3) = WR (Proc.devRef .tc Cert.ReferenceIdeal.main_v5)) :
    after (kInit ++ Cert.KernelIdeal.Gen.hostOps1_30) WK (Proc.devRef .tc Cert.KernelIdeal.main_v37)
      = after (rInit ++ Cert.ReferenceIdeal.Hand.refOps30) WR (Proc.devRef .tc Cert.ReferenceIdeal.main_v39) := by
  rw [after_append, after_append, lastK, lastR, col0_agree WK WR hM, col1_agree WK WR hM, col2_agree WK WR hM, col3_agree WK WR hM]

end Cert.Tails

end
-- ==== Proof.Bridge2.lean ====
/-
  The value claim. The kernel's program ends with the table its later lines compute from its mask; the reference ends
  with the table its later lines compute from its own mask; the later lines are the same function of the mask in both
  programs, and the two masks are equal pixel by pixel: the kernel's is "the stored 0/1 value is not zero", which is
  the conjunction the value was made from; in that conjunction the window's centre is the image's own pixel and the
  separable maximum over the padded block is the reference's window reduction at that pixel.
-/
import proofs.«136169_j81922206204546_2_alg».proof.Proof.Bridge1
import proofs.«136169_j81922206204546_2_alg».proof.Proof.Tails
import proofs.«136169_j81922206204546_2_alg».proof.Proof.RefFrame
import proofs.«136169_j81922206204546_2_alg».proof.Defs
import proofs.«136169_j81922206204546_2_alg».proof.Proof.Gen.Pre_finite_inputs

set_option maxRecDepth 65536

noncomputable section

namespace Cert.Bridge

open Idealize.ShloMosaic Idealize.ShloMosaic.ValueIdx Idealize.ShloMosaic.TcCoe Idealize.ShloMosaic.StableHlo Idealize.SL.Sem
open Cert.WindowMax Cert.WinFold Cert.KernelIdeal.Val

variable (m : (ℓ : Loc Cert.KernelIdeal.nD Cert.KernelIdeal.τ Cert.KernelIdeal.sig) → Buf (Elt Ideal) ℓ)

/-- The reference's window reduction starts from minus infinity. -/
theorem ref_init : (broadcastInDim Cert.ReferenceIdeal.S_ ![] Cert.ReferenceIdeal.Facts₀.bcast_S_S_ (constant (F := Ideal) Cert.ReferenceIdeal.S_ .f32 0xFF800000#32))
    (Shape.Idx.first Cert.ReferenceIdeal.Facts₀.h_S_) = ⊥ := by
  show Ideal.ofBits .f32 0xFF800000#32 = ⊥
  simp [Ideal.ofBits, Ideal.ieee]

/-- The separable maximum over image b's padded block at (r, c) is the reference's window reduction at that pixel. -/
theorem pool_eq (c : Dev Cert.KernelIdeal.nD) (b : Fin 8) (r cc : Fin 1024) :
    poolK (Cert.KernelIdeal.Fr.iblk m c 0 (pt b)) 0 r.val cc.val
      = (Host.reduceWindow (FloatOps.maximumf (F := Ideal) (φ := .f32)) ![1, 1, 51, 51] ![1, 1, 1, 1] ![0, 0, 25, 25] ![0, 0, 25, 25] (m ((c : Thread Cert.KernelIdeal.nD Cert.KernelIdeal.τ).loc Cert.KernelIdeal.main_arg0))
        (broadcastInDim Cert.ReferenceIdeal.S_ ![] Cert.ReferenceIdeal.Facts₀.bcast_S_S_ (constant (F := Ideal) Cert.ReferenceIdeal.S_ .f32 0xFF800000#32))
        Cert.ReferenceIdeal.Facts₀.reduceWindows_S8x1x1024x1024_S8x1x1024x1024_w1s1p0_0_w1s1p0_0_w51s1p25_25_w51s1p25_25 Cert.ReferenceIdeal.Facts₀.h_S_) (ix4 b (0 : Fin 1) r cc) := by
  refine Eq.trans ?_ (window_fold _ _ _ ref_init _ b r cc).symm
  unfold poolK rowMax
  simp only [at2_iblk, Nat.zero_add]
  rfl

/-- The kernel's mask, "the stored value is not zero", is the reference's mask, pixel by pixel. -/
theorem masks_agree (c : Dev Cert.KernelIdeal.nD) :
    cmpf (F := Ideal) .une (maskArr m c : FVec Ideal Cert.KernelIdeal.S8x1x1024x1024 .f32) (broadcastInDim Cert.KernelIdeal.S8x1x1024x1024 ![] Cert.KernelIdeal.Gen.bcast_S_S8x1x1024x1024 (constant (F := Ideal) Cert.KernelIdeal.S_ .f32 0x00000000#32))
      = andi (cmpf (F := Ideal) .oeq (m ((c : Thread Cert.KernelIdeal.nD Cert.KernelIdeal.τ).loc Cert.KernelIdeal.main_arg0) : FVec Ideal Cert.ReferenceIdeal.S8x1x1024x1024 .f32)
            (Host.reduceWindow (FloatOps.maximumf (F := Ideal) (φ := .f32)) ![1, 1, 51, 51] ![1, 1, 1, 1] ![0, 0, 25, 25] ![0, 0, 25, 25] (m ((c : Thread Cert.KernelIdeal.nD Cert.KernelIdeal.τ).loc Cert.KernelIdeal.main_arg0))
        (broadcastInDim Cert.ReferenceIdeal.S_ ![] Cert.ReferenceIdeal.Facts₀.bcast_S_S_ (constant (F := Ideal) Cert.ReferenceIdeal.S_ .f32 0xFF800000#32))
        Cert.ReferenceIdeal.Facts₀.reduceWindows_S8x1x1024x1024_S8x1x1024x1024_w1s1p0_0_w1s1p0_0_w51s1p25_25_w51s1p25_25 Cert.ReferenceIdeal.Facts₀.h_S_))
          (cmpf (F := Ideal) .ogt (Host.reduceWindow (FloatOps.maximumf (F := Ideal) (φ := .f32)) ![1, 1, 51, 51] ![1, 1, 1, 1] ![0, 0, 25, 25] ![0, 0, 25, 25] (m ((c : Thread Cert.KernelIdeal.nD Cert.KernelIdeal.τ).loc Cert.KernelIdeal.main_arg0))
        (broadcastInDim Cert.ReferenceIdeal.S_ ![] Cert.ReferenceIdeal.Facts₀.bcast_S_S_ (constant (F := Ideal) Cert.ReferenceIdeal.S_ .f32 0xFF800000#32))
        Cert.ReferenceIdeal.Facts₀.reduceWindows_S8x1x1024x1024_S8x1x1024x1024_w1s1p0_0_w1s1p0_0_w51s1p25_25_w51s1p25_25 Cert.ReferenceIdeal.Facts₀.h_S_) (broadcastInDim Cert.ReferenceIdeal.S8x1x1024x1024 ![] Cert.ReferenceIdeal.Facts₀.bcast_S_S8x1x1024x1024 (constant (F := Ideal) Cert.ReferenceIdeal.S_ .f32 0x3F000000#32))) := by
  funext i
  obtain ⟨b, z, r, cc, rfl⟩ : ∃ (b : Fin 8) (z : Fin 1) (r cc : Fin 1024), i = ix4 b z r cc := ⟨i 0, i 1, i 2, i 3, eq_ix4 i⟩
  obtain rfl : z = 0 := Fin.ext (by omega)
  show FloatOps.cmpf (F := Ideal) (φ := .f32) .une (maskK (Cert.KernelIdeal.Fr.iblk m c 0 (pt b)) 0 r.val cc.val) (Ideal.ofBits .f32 0x00000000#32)
    = IntOp.andi (FloatOps.cmpf (F := Ideal) (φ := .f32) .oeq (m ((c : Thread Cert.KernelIdeal.nD Cert.KernelIdeal.τ).loc Cert.KernelIdeal.main_arg0) (ix4 b (0 : Fin 1) r cc))
          ((Host.reduceWindow (FloatOps.maximumf (F := Ideal) (φ := .f32)) ![1, 1, 51, 51] ![1, 1, 1, 1] ![0, 0, 25, 25] ![0, 0, 25, 25] (m ((c : Thread Cert.KernelIdeal.nD Cert.KernelIdeal.τ).loc Cert.KernelIdeal.main_arg0))
        (broadcastInDim Cert.ReferenceIdeal.S_ ![] Cert.ReferenceIdeal.Facts₀.bcast_S_S_ (constant (F := Ideal) Cert.ReferenceIdeal.S_ .f32 0xFF800000#32))
        Cert.ReferenceIdeal.Facts₀.reduceWindows_S8x1x1024x1024_S8x1x1024x1024_w1s1p0_0_w1s1p0_0_w51s1p25_25_w51s1p25_25 Cert.ReferenceIdeal.Facts₀.h_S_) (ix4 b (0 : Fin 1) r cc)))
        (FloatOps.cmpf (F := Ideal) (φ := .f32) .ogt ((Host.reduceWindow (FloatOps.maximumf (F := Ideal) (φ := .f32)) ![1, 1, 51, 51] ![1, 1, 1, 1] ![0, 0, 25, 25] ![0, 0, 25, 25] (m ((c : Thread Cert.KernelIdeal.nD Cert.KernelIdeal.τ).loc Cert.KernelIdeal.main_arg0))
        (broadcastInDim Cert.ReferenceIdeal.S_ ![] Cert.ReferenceIdeal.Facts₀.bcast_S_S_ (constant (F := Ideal) Cert.ReferenceIdeal.S_ .f32 0xFF800000#32))
        Cert.ReferenceIdeal.Facts₀.reduceWindows_S8x1x1024x1024_S8x1x1024x1024_w1s1p0_0_w1s1p0_0_w51s1p25_25_w51s1p25_25 Cert.ReferenceIdeal.Facts₀.h_S_) (ix4 b (0 : Fin 1) r cc))
          (Ideal.ofBits .f32 0x3F000000#32))
  unfold maskK
  rw [une_bit, pool_eq m c b r cc, at2_iblk]
  unfold xp
  rw [dif_pos ⟨⟨by omega, by omega⟩, ⟨by omega, by omega⟩⟩]
  have e : (ix4 (⟨(pt b).val, lt_of_lt_of_eq (pt b).isLt Cert.KernelIdeal.Gen.N_0⟩ : Fin 8) (0 : Fin 1)
      (⟨0 + (25 + r.val) - 25, by omega⟩ : Fin 1024) (⟨25 + cc.val - 25, by omega⟩ : Fin 1024)) = ix4 b (0 : Fin 1) r cc := by
    funext a
    match a with
    | ⟨0, _⟩ => rfl
    | ⟨1, _⟩ => rfl
    | ⟨2, _⟩ => exact Fin.ext (by show 0 + (25 + r.val) - 25 = r.val; omega)
    | ⟨3, _⟩ => exact Fin.ext (by show 25 + cc.val - 25 = cc.val; omega)
  rw [e]
  rfl

/-- The kernel program's mask buffer after its first three later lines. -/
theorem maskK_buf (W0 : Valuation Cert.KernelIdeal.τ Cert.KernelIdeal.sig (Elt Ideal)) :
    after (Cert.KernelIdeal.Gen.hostOps1 (F := Ideal)) W0 (Proc.devRef .tc Cert.KernelIdeal.main_v3)
      = cmpf (F := Ideal) .une (W0 (Proc.devRef .tc Cert.KernelIdeal.main_v1) : FVec Ideal Cert.KernelIdeal.S8x1x1024x1024 .f32) (broadcastInDim Cert.KernelIdeal.S8x1x1024x1024 ![] Cert.KernelIdeal.Gen.bcast_S_S8x1x1024x1024 (constant (F := Ideal) Cert.KernelIdeal.S_ .f32 0x00000000#32)) := by
  after_results
  try rfl

/-- The reference's mask buffer after its first eight lines. -/
theorem maskR_buf (W : Valuation Cert.ReferenceIdeal.τ Cert.ReferenceIdeal.sig (Elt Ideal)) :
    after (Cert.ReferenceIdeal.Hand.refOps0 (F := Ideal)) W (Proc.devRef .tc Cert.ReferenceIdeal.main_v5)
      = andi (cmpf (F := Ideal) .oeq (W (Proc.devRef .tc Cert.ReferenceIdeal.main_arg0) : FVec Ideal Cert.ReferenceIdeal.S8x1x1024x1024 .f32)
            (Host.reduceWindow (FloatOps.maximumf (F := Ideal) (φ := .f32)) ![1, 1, 51, 51] ![1, 1, 1, 1] ![0, 0, 25, 25] ![0, 0, 25, 25] (W (Proc.devRef .tc Cert.ReferenceIdeal.main_arg0))
        (broadcastInDim Cert.ReferenceIdeal.S_ ![] Cert.ReferenceIdeal.Facts₀.bcast_S_S_ (constant (F := Ideal) Cert.ReferenceIdeal.S_ .f32 0xFF800000#32))
        Cert.ReferenceIdeal.Facts₀.reduceWindows_S8x1x1024x1024_S8x1x1024x1024_w1s1p0_0_w1s1p0_0_w51s1p25_25_w51s1p25_25 Cert.ReferenceIdeal.Facts₀.h_S_))
          (cmpf (F := Ideal) .ogt (Host.reduceWindow (FloatOps.maximumf (F := Ideal) (φ := .f32)) ![1, 1, 51, 51] ![1, 1, 1, 1] ![0, 0, 25, 25] ![0, 0, 25, 25] (W (Proc.devRef .tc Cert.ReferenceIdeal.main_arg0))
        (broadcastInDim Cert.ReferenceIdeal.S_ ![] Cert.ReferenceIdeal.Facts₀.bcast_S_S_ (constant (F := Ideal) Cert.ReferenceIdeal.S_ .f32 0xFF800000#32))
        Cert.ReferenceIdeal.Facts₀.reduceWindows_S8x1x1024x1024_S8x1x1024x1024_w1s1p0_0_w1s1p0_0_w51s1p25_25_w51s1p25_25 Cert.ReferenceIdeal.Facts₀.h_S_) (broadcastInDim Cert.ReferenceIdeal.S8x1x1024x1024 ![] Cert.ReferenceIdeal.Facts₀.bcast_S_S8x1x1024x1024 (constant (F := Ideal) Cert.ReferenceIdeal.S_ .f32 0x3F000000#32))) := by
  after_results
  try rfl

theorem kTail_split : (Cert.KernelIdeal.Fr.tailOps (F := Ideal)).flatten = Cert.KernelIdeal.Gen.hostOps1 ++ (Cert.Tails.kInit ++ Cert.KernelIdeal.Gen.hostOps1_30) := by
  simp only [Cert.KernelIdeal.Fr.tailOps, Cert.Tails.kInit, List.flatten_cons, List.flatten_nil, List.append_nil, List.append_assoc]

theorem rOps_split : (Cert.ReferenceIdeal.Hand.ops (F := Ideal)) = Cert.ReferenceIdeal.Hand.refOps0 ++ (Cert.Tails.rInit ++ Cert.ReferenceIdeal.Hand.refOps30) := by
  simp only [Cert.ReferenceIdeal.Hand.ops, Cert.ReferenceIdeal.Hand.refOpss, Cert.Tails.rInit, List.flatten_cons, List.flatten_nil, List.append_nil, List.append_assoc]

/-- Both programs, from memories agreeing on the argument, end with the same table. -/
theorem algebraic : Cert.algebraic_KernelIdeal_ReferenceIdeal := by
  intro m ρ m' ρ' _ hagree
  refine ⟨fun c => Pipeline.afterTail₀ Cert.KernelIdeal.cfgs (Cert.KernelIdeal.Fr.dats m) 0 (Cert.KernelIdeal.Fr.V0 m) Cert.KernelIdeal.Fr.tailOps c Cert.KernelIdeal.main_v37, ?_, ?_⟩
  · exact (θ_run Cert.KernelIdeal.defs _ _).mono (fun _ h c =>
      ⟨(h c).2 Cert.KernelIdeal.main_v37 (Pipeline.mem_restRefs_of Cert.KernelIdeal.main_v37 rfl (fun w => by fin_cases w <;> decide)),
       ((h c).2 Cert.KernelIdeal.main_arg0 (Pipeline.mem_restRefs_of Cert.KernelIdeal.main_arg0 rfl (fun w => by fin_cases w <;> decide))).trans (Cert.KernelIdeal.Fr.arg0_kept m c)⟩)
      (Cert.KernelIdeal.Fr.run_main (F := Ideal) m ρ)
  · refine (θ_run Cert.ReferenceIdeal.defs _ _).mono (fun _ h c => ⟨(h c Cert.ReferenceIdeal.main_v39).trans ?_, (h c Cert.ReferenceIdeal.main_arg0).trans
      ((after_of_forall_not_mem _ _ fun op hop => (Cert.ReferenceIdeal.Hand.ops_facts op hop).2.2).trans rfl)⟩) (Cert.ReferenceIdeal.Hand.run (F := Ideal) m' ρ')
    symm
    unfold Pipeline.afterTail₀
    rw [kTail_split, rOps_split, after_append, after_append]
    refine Cert.Tails.tails_agree (F := Ideal) _ _ ?_
    show after (Cert.KernelIdeal.Gen.hostOps1 (F := Ideal)) _ (Proc.devRef .tc Cert.KernelIdeal.main_v3) = after (Cert.ReferenceIdeal.Hand.refOps0 (F := Ideal)) _ (Proc.devRef .tc Cert.ReferenceIdeal.main_v5)
    rw [maskK_buf, maskR_buf]
    have hW : Pipeline.withArrays Cert.KernelIdeal.spec0 c (Cert.KernelIdeal.Fr.V0 m c) (fun w => (Cert.KernelIdeal.Fr.dats m 0 c).arrAt w Cert.KernelIdeal.cfg0.N) (Proc.devRef .tc Cert.KernelIdeal.main_v1)
        = (Cert.KernelIdeal.Fr.dats m 0 c).arrAt 1 Cert.KernelIdeal.cfg0.N :=
      Pipeline.withArrays_arr Cert.KernelIdeal.spec0 Cert.KernelIdeal.Gen.launch0.win.arr_inj c _ _ 1
    have hx : launchContents m' c (Proc.devRef .tc Cert.ReferenceIdeal.main_arg0) = m ((c : Thread Cert.KernelIdeal.nD Cert.KernelIdeal.τ).loc Cert.KernelIdeal.main_arg0) := hagree c
    rw [hW, arr1_eq, hx]
    exact masks_agree m c

end Cert.Bridge

end
-- ==== Proof.lean ====
/-
  Peak detection by a 51 x 51 maximum filter, two ways, and why they give the same table of peaks.

  The reference takes, at every pixel of each of eight 1024 x 1024 images, the maximum over the 51 x 51 window centred
  there (outside the image the window sees minus infinity), marks the pixels that equal their window's maximum and
  whose window's maximum exceeds one half, and lists the first 4096 marked positions in row-major order, each as its four
  coordinates, -1 where there are fewer.

  The kernel's program pads each image with minus infinity (25 rows above, 31 below, 25 columns on each side) and, one
  image per grid point, takes the same maximum separably: first along each row the running maximum of 51 consecutive
  entries, kept in a scratch of 1080 x 1024, then down each column the running maximum of 51 consecutive scratch rows;
  it stores one where the window's centre equals that maximum and the maximum exceeds one half, and zero elsewhere; the
  host then takes "not zero" as the mask and lists the marked positions by the very same later lines as the reference.

  The maximum of a linear order is associative, commutative and idempotent, so the separable maximum and the one-pass
  window reduction are both the least upper bound of the same 2601 entries (Proof/LibWindowMax.lean); the six extra padded
  rows are never inside a window of a real output row; a value that is one or zero differs from zero exactly when it is one; and
  after the mask the two programs apply the same operations to it (Proof/Tails.lean). No arithmetic on the pixel values is
  involved, and finiteness of the inputs is not used.

  The three frame claims: each program runs to the end without a fault and never writes its argument (the kernel's programs:
  Proof/KernelFr, Proof/KernelIdealFr — the body of a grid point run symbolically, the region launched, the later lines
  after it; the reference: Proof/RefRun.lean, Proof/RefFrame.lean). The idealization rewrote nothing, so what it must
  preserve is nothing.
-/
import proofs.«136169_j81922206204546_2_alg».proof.Defs
import proofs.«136169_j81922206204546_2_alg».proof.Proof.Gen.Kernel
import proofs.«136169_j81922206204546_2_alg».proof.Proof.Gen.KernelIdeal
import proofs.«136169_j81922206204546_2_alg».proof.Proof.Gen.ReferenceIdeal
import proofs.«136169_j81922206204546_2_alg».proof.Proof.Gen.Pre_finite_inputs
import proofs.«136169_j81922206204546_2_alg».proof.Proof.KernelFr.Frame
import proofs.«136169_j81922206204546_2_alg».proof.Proof.KernelIdealFr.Frame
import proofs.«136169_j81922206204546_2_alg».proof.Proof.RefFrame
import proofs.«136169_j81922206204546_2_alg».proof.Proof.Bridge2

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Fr.frame m ρ,
    fun m ρ _ => Cert.KernelIdeal.Fr.frame m ρ,
    fun m ρ _ => Cert.ReferenceIdeal.Hand.frame m ρ,
    trivial,
    Cert.Bridge.algebraic⟩

end Cert.Proof

end
